-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S4096x1024 : Shape := ⟨2, ![4096, 1024]⟩
abbrev S1024x1024 : Shape := ⟨2, ![1024, 1024]⟩
abbrev S4096x4096 : Shape := ⟨2, ![4096, 4096]⟩
abbrev S1024x4096 : Shape := ⟨2, ![1024, 4096]⟩
abbrev S1024 : Shape := ⟨1, ![1024]⟩
abbrev S32x8 : Shape := ⟨2, ![32, 8]⟩
abbrev S8x8 : Shape := ⟨2, ![8, 8]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_
  bcast_S_S32x8 : S_.BroadcastsInDim S32x8 (![] : Fin 0 → Fin S32x8.rank)
  reducesTo_S32x8_S_d0_1 : S32x8.ReducesTo [0, 1] S_
  bcast_S_S8x8 : S_.BroadcastsInDim S8x8 (![] : Fin 0 → Fin S8x8.rank)
  reducesTo_S8x8_S_d0_1 : S8x8.ReducesTo [0, 1] S_

variable [Facts]

def fn_part3 {F : FTy → Type} [FloatOps F] (main_v48 : IVec S_ 1) (main_v49 : FVec F S8x8 .f32) (main_v50 : FVec F S8x8 .f32) : IVec S_ 1 :=
  let main_v51 : IVec S8x8 1 := cmpf .olt main_v49 main_v50
  let main_c_19 : IVec S_ 1 := constantI S_ 1 1#1
  let main_v52 : IVec S_ 1 := (fun x v => Host.reduce IntOp.andi x v reducesTo_S8x8_S_d0_1 h_S_) main_v51 main_c_19
  let main_v53 : IVec S_ 1 := andi main_v48 main_v52
  main_v53

def fn_part2 {F : FTy → Type} [FloatOps F] (main_arg7 : FVec F S1024 .f32) (main_arg8 : FVec F S32x8 .f32) (main_arg9 : FVec F S8x8 .f32) (main_arg10 : FVec F S8x8 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S32x8 .f32 := Host.absf main_arg8
  let main_cst_14 : FVec F S_ .f32 := constant S_ .f32 0x7F800000#32
  let main_v40 : FVec F S32x8 .f32 := broadcastInDim S32x8 ![] bcast_S_S32x8 main_cst_14
  let main_v41 : IVec S32x8 1 := cmpf .olt main_v39 main_v40
  let main_c_15 : IVec S_ 1 := constantI S_ 1 1#1
  let main_v42 : IVec S_ 1 := (fun x v => Host.reduce IntOp.andi x v reducesTo_S32x8_S_d0_1 h_S_) main_v41 main_c_15
  let main_v43 : IVec S_ 1 := andi main_v38 main_v42
  let main_v44 : FVec F S8x8 .f32 := Host.absf main_arg9
  let main_cst_16 : FVec F S_ .f32 := constant S_ .f32 0x7F800000#32
  let main_v45 : FVec F S8x8 .f32 := broadcastInDim S8x8 ![] bcast_S_S8x8 main_cst_16
  let main_v46 : IVec S8x8 1 := cmpf .olt main_v44 main_v45
  let main_c_17 : IVec S_ 1 := constantI S_ 1 1#1
  let main_v47 : IVec S_ 1 := (fun x v => Host.reduce IntOp.andi x v reducesTo_S8x8_S_d0_1 h_S_) main_v46 main_c_17
  let main_v48 : IVec S_ 1 := andi main_v43 main_v47
  let main_v49 : FVec F S8x8 .f32 := Host.absf main_arg10
  let main_cst_18 : FVec F S_ .f32 := constant S_ .f32 0x7F800000#32
  let main_v50 : FVec F S8x8 .f32 := broadcastInDim S8x8 ![] bcast_S_S8x8 main_cst_18
  fn_part3 (F := F) main_v48 main_v49 main_v50

def fn_part1 {F : FTy → Type} [FloatOps F] (main_arg4 : FVec F S4096x4096 .f32) (main_arg5 : FVec F S1024x4096 .f32) (main_arg6 : FVec F S1024 .f32) (main_arg7 : FVec F S1024 .f32) (main_arg8 : FVec F S32x8 .f32) (main_arg9 : FVec F S8x8 .f32) (main_arg10 : FVec F S8x8 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x4096x1024 .f32) (main_arg1 : FVec F S4096x1024 .f32) (main_arg2 : FVec F S1024x1024 .f32) (main_arg3 : FVec F S1024x1024 .f32) (main_arg4 : FVec F S4096x4096 .f32) (main_arg5 : FVec F S1024x4096 .f32) (main_arg6 : FVec F S1024 .f32) (main_arg7 : FVec F S1024 .f32) (main_arg8 : FVec F S32x8 .f32) (main_arg9 : FVec F S8x8 .f32) (main_arg10 : FVec F S8x8 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S8x4096x1024 : Shape := ⟨3, ![8, 4096, 1024]⟩
abbrev S4096x1024 : Shape := ⟨2, ![4096, 1024]⟩
abbrev S1024x1024 : Shape := ⟨2, ![1024, 1024]⟩
abbrev S4096x4096 : Shape := ⟨2, ![4096, 4096]⟩
abbrev S1024x4096 : Shape := ⟨2, ![1024, 4096]⟩
abbrev S1024 : Shape := ⟨1, ![1024]⟩
abbrev S32x8 : Shape := ⟨2, ![32, 8]⟩
abbrev S8x8 : Shape := ⟨2, ![8, 8]⟩
abbrev S32x128x8 : Shape := ⟨3, ![32, 128, 8]⟩
abbrev S4096x8 : Shape := ⟨2, ![4096, 8]⟩
abbrev S4096x8x128 : Shape := ⟨3, ![4096, 8, 128]⟩
abbrev S8x128x8 : Shape := ⟨3, ![8, 128, 8]⟩
abbrev S1024x8 : Shape := ⟨2, ![1024, 8]⟩
abbrev S1024x8x128 : Shape := ⟨3, ![1024, 8, 128]⟩
abbrev S32768x1024 : Shape := ⟨2, ![32768, 1024]⟩
abbrev S32768x4096 : Shape := ⟨2, ![32768, 4096]⟩
abbrev S1024x2048 : Shape := ⟨2, ![1024, 2048]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 40
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S4096x4096, .f32⟩
  | .hbm, ⟨5, _⟩ => ⟨S1024x4096, .f32⟩
  | .hbm, ⟨6, _⟩ => ⟨S1024, .f32⟩
  | .hbm, ⟨7, _⟩ => ⟨S1024, .f32⟩
  | .hbm, ⟨8, _⟩ => ⟨S32x8, .f32⟩
  | .hbm, ⟨9, _⟩ => ⟨S8x8, .f32⟩
  | .hbm, ⟨10, _⟩ => ⟨S8x8, .f32⟩
  | .hbm, ⟨11, _⟩ => ⟨S32x128x8, .f32⟩
  | .hbm, ⟨12, _⟩ => ⟨S4096x8, .f32⟩
  | .hbm, ⟨13, _⟩ => ⟨S4096x8x128, .f32⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S8x128x8, .f32⟩
  | .hbm, ⟨18, _⟩ => ⟨S1024x8, .f32⟩
  | .hbm, ⟨19, _⟩ => ⟨S1024x8x128, .f32⟩
  | .hbm, ⟨20, _⟩ => ⟨S1024x1024, .f32⟩
  | .hbm, ⟨21, _⟩ => ⟨S1024x1024, .f32⟩
  | .hbm, ⟨22, _⟩ => ⟨S8x128x8, .f32⟩
  | .hbm, ⟨23, _⟩ => ⟨S1024x8, .f32⟩
  | .hbm, ⟨24, _⟩ => ⟨S1024x8x128, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .bf16⟩
  | .hbm, ⟨29, _⟩ => ⟨S4096x4096, .bf16⟩
  | .hbm, ⟨30, _⟩ => ⟨S1024x4096, .bf16⟩
  | .hbm, ⟨31, _⟩ => ⟨S32768x1024, .f32⟩
  | .hbm, ⟨32, _⟩ => ⟨S32768x1024, .bf16⟩
  | .hbm, ⟨33, _⟩ => ⟨S32768x4096, .bf16⟩
  | .hbm, ⟨34, _⟩ => ⟨S32768x1024, .f32⟩
  | .hbm, ⟨35, _⟩ => ⟨S32768x4096, .bf16⟩
  | .hbm, ⟨36, _⟩ => ⟨S1x1024, .f32⟩
  | .hbm, ⟨37, _⟩ => ⟨S1x1024, .f32⟩
  | .hbm, ⟨38, _⟩ => ⟨S32768x1024, .f32⟩
  | .hbm, ⟨39, _⟩ => ⟨S8x4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S512x2048, .bf16⟩
  | .local _ .vmem, ⟨18, _⟩ => ⟨S512x2048, .bf16⟩
  | .local _ .vmem, ⟨19, _⟩ => ⟨S1024x2048, .bf16⟩
  | .local _ .vmem, ⟨20, _⟩ => ⟨S1024x2048, .bf16⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨3, ![32, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def k0_cond3 (i : grid0.Coords) : BitVec 1 :=
  let arg1 : BitVec 32 := BitVec.ofNat 32 (i 1).val
  let c0_i32_10 : BitVec 32 := 0#32
  let v16 : BitVec 1 := Scalar.cmpi .eq arg1 c0_i32_10
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev grid1 : Pipeline.Grid := ⟨3, ![32, 4, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![64, 2], ![false, false]⟩

def k2_cond2 (i : grid2.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  bcast_S32x8_S32x128x8_0_2 : S32x8.BroadcastsInDim S32x128x8 (![0, 2] : Fin 2 → Fin S32x128x8.rank)
  shapeCasts_S32x128x8_S4096x8 : S32x128x8.ShapeCasts S4096x8
  bcast_S4096x8_S4096x8x128_0_1 : S4096x8.BroadcastsInDim S4096x8x128 (![0, 1] : Fin 2 → Fin S4096x8x128.rank)
  shapeCasts_S4096x8x128_S4096x1024 : S4096x8x128.ShapeCasts S4096x1024
  bitsLt_bf16_f32 : FTy.bits .bf16 < FTy.bits .f32
  bcast_S8x8_S8x128x8_0_2 : S8x8.BroadcastsInDim S8x128x8 (![0, 2] : Fin 2 → Fin S8x128x8.rank)
  shapeCasts_S8x128x8_S1024x8 : S8x128x8.ShapeCasts S1024x8
  bcast_S1024x8_S1024x8x128_0_1 : S1024x8.BroadcastsInDim S1024x8x128 (![0, 1] : Fin 2 → Fin S1024x8x128.rank)
  shapeCasts_S1024x8x128_S1024x1024 : S1024x8x128.ShapeCasts S1024x1024
  shapeCasts_S8x4096x1024_S32768x1024 : S8x4096x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S32768x1024_S8x4096x1024 : S32768x1024.ShapeCasts S8x4096x1024
  dot_S1024x1024_S1024x1024_S1024x1024_1_1_0_0_n_n_wf : DotDims.WF S1024x1024 S1024x1024 S1024x1024 [1] [1] [0] [0] [] []
  dot_S1024x2048_S1024x2048_S1024x1024_1_1_0_0_n_n_wf : DotDims.WF S1024x2048 S1024x2048 S1024x1024 [1] [1] [0] [0] [] []
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .bf16 = 32 ∨ (Rect.block (s := S32768x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x4096.size a
  hwx0_3 : ∀ i : grid0.Coords, EltTy.bits .bf16 = 32 ∨ (Rect.block (s := S32768x4096) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S32768x1024.size a
  hwx0_4 : ∀ i : grid0.Coords, EltTy.bits .f32 = 32 ∨ (Rect.block (s := S32768x1024) S1024x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S32768x4096.size a
  hwx1_0 : ∀ i : grid1.Coords, EltTy.bits .bf16 = 32 ∨ (Rect.block (s := S32768x4096) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x4096.size a
  hwx1_1 : ∀ i : grid1.Coords, EltTy.bits .bf16 = 32 ∨ (Rect.block (s := S4096x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S32768x4096.size a
  hwx1_2 : ∀ i : grid1.Coords, EltTy.bits .bf16 = 32 ∨ (Rect.block (s := S32768x4096) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S32768x4096.size a
  hwx2_0 : ∀ i : grid2.Coords, EltTy.bits .bf16 = 32 ∨ (Rect.block (s := S32768x4096) S512x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S1024x4096.size a
  hwx2_1 : ∀ i : grid2.Coords, EltTy.bits .bf16 = 32 ∨ (Rect.block (s := S1024x4096) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S32768x1024.size a
  hwx2_2 : ∀ i : grid2.Coords, EltTy.bits .f32 = 32 ∨ (Rect.block (s := S32768x1024) S512x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1024.size a ≤ S32768x1024.size a
  hwx2_5 : ∀ i : grid2.Coords, EltTy.bits .f32 = 32 ∨ (Rect.block (s := S32768x1024) S512x1024.size (cc2_transform_5 i) (hinb2_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v21) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond3 i == 1#1) | ⟨_ + 5, h⟩ => absurd h (Nat.not_lt.2 (Nat.le_add_left _ _))

abbrev win1_0 : Pipeline.Window sig grid1 :=
  Pipeline.Window.ofSpec (Memref.whole main_v22_0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v23) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22_1) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S512x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8x4096x1024 : Shape := ⟨3, ![8, 4096, 1024]⟩
abbrev S4096x1024 : Shape := ⟨2, ![4096, 1024]⟩
abbrev S1024x1024 : Shape := ⟨2, ![1024, 1024]⟩
abbrev S4096x4096 : Shape := ⟨2, ![4096, 4096]⟩
abbrev S1024x4096 : Shape := ⟨2, ![1024, 4096]⟩
abbrev S1024 : Shape := ⟨1, ![1024]⟩
abbrev S32x8 : Shape := ⟨2, ![32, 8]⟩
abbrev S8x8 : Shape := ⟨2, ![8, 8]⟩
abbrev S32x128x8 : Shape := ⟨3, ![32, 128, 8]⟩
abbrev S4096x8 : Shape := ⟨2, ![4096, 8]⟩
abbrev S4096x8x128 : Shape := ⟨3, ![4096, 8, 128]⟩
abbrev S8x4096x4096 : Shape := ⟨3, ![8, 4096, 4096]⟩
abbrev S_ : Shape := ⟨0, ![]⟩
abbrev S8x128x8 : Shape := ⟨3, ![8, 128, 8]⟩
abbrev S1024x8 : Shape := ⟨2, ![1024, 8]⟩
abbrev S1024x8x128 : Shape := ⟨3, ![1024, 8, 128]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S4096x4096, .f32⟩
  | .hbm, ⟨5, _⟩ => ⟨S1024x4096, .f32⟩
  | .hbm, ⟨6, _⟩ => ⟨S1024, .f32⟩
  | .hbm, ⟨7, _⟩ => ⟨S1024, .f32⟩
  | .hbm, ⟨8, _⟩ => ⟨S32x8, .f32⟩
  | .hbm, ⟨9, _⟩ => ⟨S8x8, .f32⟩
  | .hbm, ⟨10, _⟩ => ⟨S8x8, .f32⟩
  | .hbm, ⟨11, _⟩ => ⟨S32x128x8, .f32⟩
  | .hbm, ⟨12, _⟩ => ⟨S4096x8, .f32⟩
  | .hbm, ⟨13, _⟩ => ⟨S4096x8x128, .f32⟩
  | .hbm, ⟨14, _⟩ => ⟨S4096x1024, .f32⟩
  | .hbm, ⟨15, _⟩ => ⟨S4096x1024, .f32⟩
  | .hbm, ⟨16, _⟩ => ⟨S8x4096x4096, .f32⟩
  | .hbm, ⟨17, _⟩ => ⟨S_, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S8x4096x1024, .f32⟩
  | .hbm, ⟨25, _⟩ => ⟨S8x128x8, .f32⟩
  | .hbm, ⟨26, _⟩ => ⟨S1024x8, .f32⟩
  | .hbm, ⟨27, _⟩ => ⟨S1024x8x128, .f32⟩
  | .hbm, ⟨28, _⟩ => ⟨S1024x1024, .f32⟩
  | .hbm, ⟨29, _⟩ => ⟨S1024x1024, .f32⟩
  | .hbm, ⟨30, _⟩ => ⟨S8x4096x1024, .f32⟩
  | .hbm, ⟨31, _⟩ => ⟨S8x128x8, .f32⟩
  | .hbm, ⟨32, _⟩ => ⟨S1024x8, .f32⟩
  | .hbm, ⟨33, _⟩ => ⟨S1024x8x128, .f32⟩
  | .hbm, ⟨34, _⟩ => ⟨S1024x1024, .f32⟩
  | .hbm, ⟨35, _⟩ => ⟨S1024x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x1, .f32⟩
  | .hbm, ⟨60, _⟩ => ⟨S8x4096x1024, .f32⟩
  | .hbm, ⟨61, _⟩ => ⟨S8x4096x1024, .f32⟩
  | .hbm, ⟨62, _⟩ => ⟨S1x1x1024, .f32⟩
  | .hbm, ⟨63, _⟩ => ⟨S8x4096x1024, .f32⟩
  | .hbm, ⟨64, _⟩ => ⟨S8x4096x1024, .f32⟩
  | .hbm, ⟨65, _⟩ => ⟨S1x1x1024, .f32⟩
  | .hbm, ⟨66, _⟩ => ⟨S8x4096x1024, .f32⟩
  | .hbm, ⟨67, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_cst : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_call1_cst : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_1 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]

class Facts₀ : Prop where
  bcast_S32x8_S32x128x8_0_2 : S32x8.BroadcastsInDim S32x128x8 (![0, 2] : Fin 2 → Fin S32x128x8.rank)
  shapeCasts_S32x128x8_S4096x8 : S32x128x8.ShapeCasts S4096x8
  bcast_S4096x8_S4096x8x128_0_1 : S4096x8.BroadcastsInDim S4096x8x128 (![0, 1] : Fin 2 → Fin S4096x8x128.rank)
  shapeCasts_S4096x8x128_S4096x1024 : S4096x8x128.ShapeCasts S4096x1024
  bcast_S_S8x4096x4096 : S_.BroadcastsInDim S8x4096x4096 (![] : Fin 0 → Fin S8x4096x4096.rank)
  bcast_S8x8_S8x128x8_0_2 : S8x8.BroadcastsInDim S8x128x8 (![0, 2] : Fin 2 → Fin S8x128x8.rank)
  shapeCasts_S8x128x8_S1024x8 : S8x128x8.ShapeCasts S1024x8
  bcast_S1024x8_S1024x8x128_0_1 : S1024x8.BroadcastsInDim S1024x8x128 (![0, 1] : Fin 2 → Fin S1024x8x128.rank)
  shapeCasts_S1024x8x128_S1024x1024 : S1024x8x128.ShapeCasts S1024x1024
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S4096x1024_S8x4096x4096_2_1_01_0_n_n_wf : DotDims.WF S8x4096x1024 S4096x1024 S8x4096x4096 [2] [1] [0, 1] [0] [] []
  dot_S8x4096x4096_S4096x4096_S8x4096x4096_2_1_01_0_n_n_wf : DotDims.WF S8x4096x4096 S4096x4096 S8x4096x4096 [2] [1] [0, 1] [0] [] []
  dot_S8x4096x4096_S1024x4096_S8x4096x1024_2_1_01_0_n_n_wf : DotDims.WF S8x4096x4096 S1024x4096 S8x4096x1024 [2] [1] [0, 1] [0] [] []
  dot_S8x4096x1024_S1024x1024_S8x4096x1024_2_1_01_0_n_n_wf : DotDims.WF S8x4096x1024 S1024x1024 S8x4096x1024 [2] [1] [0, 1] [0] [] []

variable [Facts₀]

def dot_S8x4096x1024_S4096x1024_S8x4096x4096_2_1_01_0_n_n : DotDims S8x4096x1024 S4096x1024 S8x4096x4096 where
  lhsContracting := [2]
  rhsContracting := [1]
  lhsNonContracting := [0, 1]
  rhsNonContracting := [0]
  lhsBatch := []
  rhsBatch := []
  wf := dot_S8x4096x1024_S4096x1024_S8x4096x4096_2_1_01_0_n_n_wf
def dot_S8x4096x4096_S4096x4096_S8x4096x4096_2_1_01_0_n_n : DotDims S8x4096x4096 S4096x4096 S8x4096x4096 where
  lhsContracting := [2]
  rhsContracting := [1]
  lhsNonContracting := [0, 1]
  rhsNonContracting := [0]
  lhsBatch := []
  rhsBatch := []
  wf := dot_S8x4096x4096_S4096x4096_S8x4096x4096_2_1_01_0_n_n_wf
def dot_S8x4096x4096_S1024x4096_S8x4096x1024_2_1_01_0_n_n : DotDims S8x4096x4096 S1024x4096 S8x4096x1024 where
  lhsContracting := [2]
  rhsContracting := [1]
  lhsNonContracting := [0, 1]
  rhsNonContracting := [0]
  lhsBatch := []
  rhsBatch := []
  wf := dot_S8x4096x4096_S1024x4096_S8x4096x1024_2_1_01_0_n_n_wf
def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.KB.Common.lean ====
/-
  What the three kernels' runs share, for the program read at any float instance.

  Each kernel is a blocked matrix product that accumulates into a scratch buffer along its last grid axis:
    region 0, grid (32, 4, 1): the accumulator is reset and filled at every point (the contraction is one block); the first
      result (the rectified product against the large weight) is stored at every point, the second (the product against
      the summed small weights) only where the column coordinate j is 0, and its staging buffer then rides unchanged over
      the three following points until it is written back with j = 3;
    region 1, grid (32, 4, 2): reset where the last coordinate k is 0, result stored where k is 1;
    region 2, grid (64, 2): the same, the stored result being the layer norm of accumulator plus residual.
  Here: each branch condition as a proposition on the grid coordinates and where it holds, decided over the grid; where each
  output window is idle; the staging memrefs as the pipeline passes them; and the region invariant of the frame library
  with the region's own scratch buffer split from the other scoped buffers, which ride along unopened.
-/
import proofs.«152862_j64407329571549_2_alg».proof.Proof.Gen.Kernel.Launch
import proofs.«152862_j64407329571549_2_alg».proof.Proof.Gen.Kernel.Skeleton
import proofs.«152862_j64407329571549_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Region 0 -/

/-- The accumulator's reset: the last grid coordinate is 0 (always: that axis has extent 1). -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) :=
  (by decide +kernel : ∀ t : Fin grid0.N, cond0_0 (grid0.coords t))
/-- The first result's store: the last grid coordinate is the last block of the contraction (always). -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))
/-- The second result's store: the column coordinate is 0, that is the points ≡ 0 (mod 4). -/
abbrev cond0_2 (i : grid0.Coords) : Prop := k0_cond3 i = 1#1
theorem hcond0_2 : ∀ t : Fin cfg0.N, cond0_2 (grid0.coords t) ↔ t.val % 4 = 0 :=
  (by decide +kernel : ∀ t : Fin grid0.N, cond0_2 (grid0.coords t) ↔ t.val % 4 = 0)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The second result's window is live exactly where it is stored, -/
theorem liveAt0_4 : ∀ t : Fin cfg0.N, t.val % 4 = 0 → cfg0.idle 4 (grid0.coords t) = false := by decide +kernel
/-- and idle at the three points that follow. -/
theorem idleAt0_4 : ∀ t : Fin cfg0.N, ¬ t.val % 4 = 0 → cfg0.idle 4 (grid0.coords t) = true := by decide +kernel

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
/-- Region 0's accumulator. -/
abbrev scM0 : Memref sig .tc .vmem S1024x1024 .f32 := Memref.whole cc0_scratch0

/-- The scoped buffers that are neither a staging buffer of region 0 nor its accumulator: carried unopened. -/
abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [scM0, owns_whole, bigSepL]; try rfl

/-! ## Region 1 -/

/-- The accumulator's reset: the last grid coordinate k is 0, that is the even points. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- The result's store: k is 1, the odd points. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, t.val % 2 = 1 → cfg1.idle 2 (grid1.coords t) = false := by decide +kernel
theorem idleAt1_2 : ∀ t : Fin cfg1.N, t.val % 2 = 0 → cfg1.idle 2 (grid1.coords t) = true := by decide +kernel
theorem noFlush1_2 : ∀ t : Fin cfg1.N, t.val % 2 = 0 → (cfg1.win 2).flush t = false := by decide +kernel

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
/-- Region 1's accumulator. -/
abbrev scM1 : Memref sig .tc .vmem S1024x1024 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole, bigSepL]; try rfl

/-! ## Region 2 -/

/-- The accumulator's reset: the last grid coordinate k is 0, the even points. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
/-- The result's store: k is 1, the odd points. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, t.val % 2 = 1 → cfg2.idle 5 (grid2.coords t) = false := by decide +kernel
theorem idleAt2_5 : ∀ t : Fin cfg2.N, t.val % 2 = 0 → cfg2.idle 5 (grid2.coords t) = true := by decide +kernel
theorem noFlush2_5 : ∀ t : Fin cfg2.N, t.val % 2 = 0 → (cfg2.win 5).flush t = false := by decide +kernel

abbrev ms2_0 (t : Fin cfg2.N) : Memref sig .tc .vmem S512x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x1024 .f32 := win2_5.stage (cfg2.slots t 5)
abbrev hs2_5 (t : Fin cfg2.N) : (ms2_5 t).IsWhole := hstage2_5 ((cfg2.slots t 5).cast nbuf2_5)
/-- Region 2's accumulator. -/
abbrev scM2 : Memref sig .tc .vmem S512x1024 .f32 := Memref.whole cc2_scratch0

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA
  rw [Pipeline.scopedRest_split_of_list spec2 c [cc2_scratch0] (by decide) (by decide)]
  simp only [scM2, owns_whole, bigSepL]; try rfl

end Cert.Kernel.Hand

end
-- ==== Proof.KB.Run0A.lean ====
/-
  Region 0 at a point whose column coordinate is 0: the accumulator is reset and filled with the block product against the large weight, the first result (its rectification) is stored, and the second result (the block product against the summed small weights) is stored.
-/
import proofs.«152862_j64407329571549_2_alg».proof.Proof.KB.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last store first) in each buffer it stores into, with the proof that, from whole
    memrefs holding the stated contents, the body runs to a continuation given the inputs as they were, an untouched output
    as it was, and each stored buffer with those pieces written over what it held. The pieces are found by running the body. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i)
    (x0 : Vec F S1024x1024 .bf16) (x1 : Vec F S1024x1024 .bf16) (x2 : Vec F S1024x1024 .bf16) :
    Σ' (L3 : List (View.Piece (Elt F) S1024x1024 .bf16)), Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__stageA_kernel i arg3 harg3 arg4 harg4 arg5 harg5 arg6 harg6 arg7 harg7 arg8 harg8) K } := by
  refine ⟨?_, ?_, ?_, fun E K => ?run⟩
  case run =>
    simp only [cc0__stageA_kernel_eq_skeleton]; unfold cc0__stageA_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact H5

end Cert.Kernel.Hand

end
-- ==== Proof.KB.Run0B.lean ====
/-
  Region 0 at a point whose column coordinate is not 0: the accumulator is reset and filled, the first result is stored; the second result's buffer is not touched.
-/
import proofs.«152862_j64407329571549_2_alg».proof.Proof.KB.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last store first) in each buffer it stores into, with the proof that, from whole
    memrefs holding the stated contents, the body runs to a continuation given the inputs as they were, an untouched output
    as it was, and each stored buffer with those pieces written over what it held. The pieces are found by running the body. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : ¬cond0_2 i)
    (x0 : Vec F S1024x1024 .bf16) (x1 : Vec F S1024x1024 .bf16) (x2 : Vec F S1024x1024 .bf16) :
    Σ' (L3 : List (View.Piece (Elt F) S1024x1024 .bf16)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__stageA_kernel i arg3 harg3 arg4 harg4 arg5 harg5 arg6 harg6 arg7 harg7 arg8 harg8) K } := by
  refine ⟨?_, ?_, fun xi4 E K => ?run⟩
  case run =>
    simp only [cc0__stageA_kernel_eq_skeleton]; unfold cc0__stageA_kernel_skel
    unfold owns
    iintro ⟨⟨%f0, %hf0, H0⟩, ⟨%f1, %hf1, H1⟩, ⟨%f2, %hf2, H2⟩, ⟨%d3, %f3, -, H3⟩, ⟨%f4, %hf4, H4⟩, ⟨%d5, %f5, -, H5⟩, Hk⟩
    obtain rfl := harg3.eq_unread hf0; obtain rfl := harg4.eq_unread hf1; obtain rfl := harg5.eq_unread hf2; obtain rfl := harg7.eq_unread hf4
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; isplitr; · ipureintro; exact harg7.read_unread _
      iexact H4
    iexists _; iexact H5

end Cert.Kernel.Hand

end
-- ==== Proof.KB.Region0.lean ====
/-
  Region 0 (the first matrix product, rectified, and the merged small branch): its proof data and its body obligation, at
  the contents `V` the region is entered from and at any float instance.

  The grid is (32, 4, 1): row tile i, column tile j of the large weight, and a contraction axis of one block.  Every point
  resets the accumulator, fills it with the block product of the activations' row tile against column tile j of the large
  weight, and stores its rectification as block (i, j) of the first result, which the pipeline writes back at once.  Only the
  points with j = 0 store the second result's block i (the row tile against the summed small weights); its staging buffer then
  rides untouched through j = 1, 2, 3 and is written back with j = 3.  So what the write-back writes at a point ≡ 3 (mod 4)
  is what the point three before stored: `before0_4` below walks the three idle points back.
  The accumulator carries nothing from point to point (every point resets it), so the region's invariant is the library's
  class invariant throughout.
-/
import proofs.«152862_j64407329571549_2_alg».proof.Proof.KB.Run0A
import proofs.«152862_j64407329571549_2_alg».proof.Proof.KB.Run0B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of each result window, through which its contents are stated (the choice does not matter). -/
abbrev VO0_3 : View sig .tc .vmem S1024x1024 .bf16 := (Memref.whole cc0_stg3_0 : Memref sig .tc .vmem S1024x1024 .bf16).view
abbrev VO0_4 : View sig .tc .vmem S1024x1024 .f32 := (Memref.whole cc0_stg4_0 : Memref sig .tc .vmem S1024x1024 .f32).view

/-! ## What each case leaves in the result windows -/

theorem cover0_A_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i)
    (x0 : Vec F S1024x1024 .bf16) (x1 : Vec F S1024x1024 .bf16) (x2 : Vec F S1024x1024 .bf16) (y : S1024x1024.Idx) :
    ∃ pc ∈ (kernelRun0_A c i arg3 harg3 arg4 harg4 arg5 harg5 arg6 harg6 arg7 harg7 arg8 harg8 hc0 hc1 hc2 x0 x1 x2).1, y ∈ pc.1.set :=
  View.cover_of_tiledL (kernelRun0_A c i arg3 harg3 arg4 harg4 arg5 harg5 arg6 harg6 arg7 harg7 arg8 harg8 hc0 hc1 hc2 x0 x1 x2).1 S1024x1024.size (by sl_kernel_rfl) y
/-- The first result's block, stored where the column coordinate is 0. -/
def out0_A_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i)
    (x0 : Vec F S1024x1024 .bf16) (x1 : Vec F S1024x1024 .bf16) (x2 : Vec F S1024x1024 .bf16) : Vec F S1024x1024 .bf16 :=
  VO0_3.read (Elt F) (VO0_3.writes (Elt F) VO0_3.junk (kernelRun0_A c i arg3 harg3 arg4 harg4 arg5 harg5 arg6 harg6 arg7 harg7 arg8 harg8 hc0 hc1 hc2 x0 x1 x2).1)
theorem cover0_A_4 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i)
    (x0 : Vec F S1024x1024 .bf16) (x1 : Vec F S1024x1024 .bf16) (x2 : Vec F S1024x1024 .bf16) (y : S1024x1024.Idx) :
    ∃ pc ∈ (kernelRun0_A c i arg3 harg3 arg4 harg4 arg5 harg5 arg6 harg6 arg7 harg7 arg8 harg8 hc0 hc1 hc2 x0 x1 x2).2.1, y ∈ pc.1.set :=
  View.cover_of_tiledL (kernelRun0_A c i arg3 harg3 arg4 harg4 arg5 harg5 arg6 harg6 arg7 harg7 arg8 harg8 hc0 hc1 hc2 x0 x1 x2).2.1 S1024x1024.size (by sl_kernel_rfl) y
/-- The second result's block. -/
def out0_A_4 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i)
    (x0 : Vec F S1024x1024 .bf16) (x1 : Vec F S1024x1024 .bf16) (x2 : Vec F S1024x1024 .bf16) : Vec F S1024x1024 .f32 :=
  VO0_4.read (Elt F) (VO0_4.writes (Elt F) VO0_4.junk (kernelRun0_A c i arg3 harg3 arg4 harg4 arg5 harg5 arg6 harg6 arg7 harg7 arg8 harg8 hc0 hc1 hc2 x0 x1 x2).2.1)
theorem cover0_B_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : ¬cond0_2 i)
    (x0 : Vec F S1024x1024 .bf16) (x1 : Vec F S1024x1024 .bf16) (x2 : Vec F S1024x1024 .bf16) (y : S1024x1024.Idx) :
    ∃ pc ∈ (kernelRun0_B c i arg3 harg3 arg4 harg4 arg5 harg5 arg6 harg6 arg7 harg7 arg8 harg8 hc0 hc1 hc2 x0 x1 x2).1, y ∈ pc.1.set :=
  View.cover_of_tiledL (kernelRun0_B c i arg3 harg3 arg4 harg4 arg5 harg5 arg6 harg6 arg7 harg7 arg8 harg8 hc0 hc1 hc2 x0 x1 x2).1 S1024x1024.size (by sl_kernel_rfl) y
/-- The first result's block, stored where the column coordinate is not 0. -/
def out0_B_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : ¬cond0_2 i)
    (x0 : Vec F S1024x1024 .bf16) (x1 : Vec F S1024x1024 .bf16) (x2 : Vec F S1024x1024 .bf16) : Vec F S1024x1024 .bf16 :=
  VO0_3.read (Elt F) (VO0_3.writes (Elt F) VO0_3.junk (kernelRun0_B c i arg3 harg3 arg4 harg4 arg5 harg5 arg6 harg6 arg7 harg7 arg8 harg8 hc0 hc1 hc2 x0 x1 x2).1)

/-! ## Point by point -/

theorem N0_lt (t : Fin cfg0.N) : t.val < 128 := lt_of_lt_of_eq t.isLt (show cfg0.N = 128 from N_0)

/-- The point before. -/
def prev0 (t : Fin cfg0.N) : Fin cfg0.N := ⟨t.val - 1, Nat.lt_of_le_of_lt (Nat.sub_le _ _) t.isLt⟩
/-- The point of the same row tile whose column coordinate is 0. -/
def base0 (t : Fin cfg0.N) : Fin cfg0.N := ⟨t.val - t.val % 4, Nat.lt_of_le_of_lt (Nat.sub_le _ _) t.isLt⟩
theorem base0_mod (t : Fin cfg0.N) : (base0 t).val % 4 = 0 := by
  show (t.val - t.val % 4) % 4 = 0; omega
theorem hcB0_2 (t : Fin cfg0.N) (h : ¬t.val % 4 = 0) : ¬cond0_2 (grid0.coords t) := fun hh => h ((hcond0_2 t).mp hh)

/-- The first result's block after point `t`. -/
def o3At (c : Dev nD) (t : Fin cfg0.N) : Vec F S1024x1024 .bf16 :=
  if h : t.val % 4 = 0 then
    out0_A_3 c (grid0.coords t) (ms0_0 t) (hs0_0 t) (ms0_1 t) (hs0_1 t) (ms0_2 t) (hs0_2 t) (ms0_3 t) (hs0_3 t) (ms0_4 t) (hs0_4 t) scM0 (Memref.isWhole_whole _) (hcond0_0 t) (hcond0_1 t) ((hcond0_2 t).mpr h) (iblk0 V c 0 t) (iblk0 V c 1 t) (iblk0 V c 2 t)
  else
    out0_B_3 c (grid0.coords t) (ms0_0 t) (hs0_0 t) (ms0_1 t) (hs0_1 t) (ms0_2 t) (hs0_2 t) (ms0_3 t) (hs0_3 t) (ms0_4 t) (hs0_4 t) scM0 (Memref.isWhole_whole _) (hcond0_0 t) (hcond0_1 t) (hcB0_2 t h) (iblk0 V c 0 t) (iblk0 V c 1 t) (iblk0 V c 2 t)

/-- The second result's block as a point with column coordinate 0 stores it. -/
def o4A (c : Dev nD) (t : Fin cfg0.N) (h : t.val % 4 = 0) : Vec F S1024x1024 .f32 :=
  out0_A_4 c (grid0.coords t) (ms0_0 t) (hs0_0 t) (ms0_1 t) (hs0_1 t) (ms0_2 t) (hs0_2 t) (ms0_3 t) (hs0_3 t) (ms0_4 t) (hs0_4 t) scM0 (Memref.isWhole_whole _) (hcond0_0 t) (hcond0_1 t) ((hcond0_2 t).mpr h) (iblk0 V c 0 t) (iblk0 V c 1 t) (iblk0 V c 2 t)
theorem o4A_congr (c : Dev nD) {t t' : Fin cfg0.N} (e : t = t') (h : t.val % 4 = 0) (h' : t'.val % 4 = 0) :
    o4A V c t h = o4A V c t' h' := by subst e; rfl
/-- The second result's staging buffer after point `t`: what the row tile's first point stored. -/
def o4At (c : Dev nD) (t : Fin cfg0.N) : Vec F S1024x1024 .f32 := o4A V c (base0 t) (base0_mod t)
theorem o4At_prev (c : Dev nD) (t : Fin cfg0.N) (h : ¬t.val % 4 = 0) : o4At V c (prev0 t) = o4At V c t :=
  o4A_congr V c (Fin.ext (by show (t.val - 1) - (t.val - 1) % 4 = t.val - t.val % 4; omega)) _ _
theorem o4At_base (c : Dev nD) (t : Fin cfg0.N) (h : t.val % 4 = 0) : o4At V c t = o4A V c t h :=
  o4A_congr V c (Fin.ext (by show t.val - t.val % 4 = t.val; omega)) _ _

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => o3At V c t
    | ⟨4, _⟩ => o4At V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = o3At V c t := by dsimp only [dat0]
theorem after0_4 (c : Dev nD) (t : Fin cfg0.N) : (dat0 V c).after 4 t = o4At V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem noFlush0_4 (t : Fin cfg0.N) (h : ¬t.val % 4 = 3) : (cfg0.win 4).flush t = false :=
  Bool.eq_false_iff.mpr fun hf => h ((flush0_4 t).mp hf)

/-- One step back: at a point whose column coordinate is not 0 the second result's buffer holds what the point before left,
    which stored it (column coordinate 0) or itself found it (otherwise). -/
theorem before0_4_step (c : Dev nD) (t : Fin cfg0.N) (h : ¬t.val % 4 = 0) (d) :
    (dat0 V c).before 4 t d
      = if (prev0 t).val % 4 = 0 then (dat0 V c).after 4 (prev0 t) else (dat0 V c).before 4 (prev0 t) d := by
  have ht : t.val ≠ 0 := fun e => h (by rw [e])
  have hfl : (cfg0.win 4).flush (prev0 t) = false := noFlush0_4 (prev0 t) (by show ¬(t.val - 1) % 4 = 3; omega)
  rw [(dat0 V c).before_of_pos 4 t ht ((cfg0.win 4).fetch_out rfl t)]
  show (if (cfg0.win 4).flush (prev0 t) = true then d else (dat0 V c).left 4 (prev0 t) d) = _
  rw [hfl, if_neg Bool.false_ne_true]
  unfold Dat.left
  by_cases hp : (prev0 t).val % 4 = 0
  · rw [if_pos hp, liveAt0_4 (prev0 t) hp]
    show (dat0 V c).kept 4 (prev0 t) d = _
    unfold Dat.kept
    rw [Pipeline.fill_of_clip_none (cfg := cfg0) 4 _ (fun _ => rfl) d ((dat0 V c).after 4 (prev0 t)), Window.fill_cut]
  · rw [if_neg hp, idleAt0_4 (prev0 t) hp]

/-- At every point whose column coordinate is not 0, the second result's buffer holds what the row tile's first point stored. -/
theorem before0_4 (c : Dev nD) (t : Fin cfg0.N) (h : ¬t.val % 4 = 0) (d) : (dat0 V c).before 4 t d = o4At V c t := by
  have hN := N0_lt t
  have h1 : ∀ s : Fin cfg0.N, s.val % 4 = 1 → (dat0 V c).before 4 s d = o4At V c s := fun s hs => by
    rw [before0_4_step V c s (by omega) d, if_pos (by show (s.val - 1) % 4 = 0; omega), after0_4, o4At_prev V c s (by omega)]
  have h2 : ∀ s : Fin cfg0.N, s.val % 4 = 2 → (dat0 V c).before 4 s d = o4At V c s := fun s hs => by
    rw [before0_4_step V c s (by omega) d, if_neg (by show ¬(s.val - 1) % 4 = 0; omega), h1 (prev0 s) (by show (s.val - 1) % 4 = 1; omega), o4At_prev V c s (by omega)]
  have h3 : ∀ s : Fin cfg0.N, s.val % 4 = 3 → (dat0 V c).before 4 s d = o4At V c s := fun s hs => by
    rw [before0_4_step V c s (by omega) d, if_neg (by show ¬(s.val - 1) % 4 = 0; omega), h2 (prev0 s) (by show (s.val - 1) % 4 = 2; omega), o4At_prev V c s (by omega)]
  rcases (by omega : t.val % 4 = 1 ∨ t.val % 4 = 2 ∨ t.val % 4 = 3) with e | e | e
  · exact h1 t e
  · exact h2 t e
  · exact h3 t e

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl, PhiA0_eq]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN := N0_lt t
  by_cases h : t.val % 4 = 0
  · rw [show (dat0 V c).leavesExact 4 t = owns (c : Thread nD τ) (ms0_4 t) fullShare ((dat0 V c).after 4 t) from by
      unfold Dat.leavesExact; rw [liveAt0_4 t h], after0_4, o4At_base V c t h]
    rw [show o3At V c t = out0_A_3 c (grid0.coords t) (ms0_0 t) (hs0_0 t) (ms0_1 t) (hs0_1 t) (ms0_2 t) (hs0_2 t) (ms0_3 t) (hs0_3 t) (ms0_4 t) (hs0_4 t) scM0 (Memref.isWhole_whole _) (hcond0_0 t) (hcond0_1 t) ((hcond0_2 t).mpr h) (iblk0 V c 0 t) (iblk0 V c 1 t) (iblk0 V c 2 t) from dif_pos h]
    unfold o4A out0_A_3 out0_A_4; (try dsimp only)
    iintro ⟨⟨⟨HS0, Hrest⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ (hcond0_0 t) (hcond0_1 t) ((hcond0_2 t).mpr h) (iblk0 V c 0 t) (iblk0 V c 1 t) (iblk0 V c 2 t)).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, ⟨%e3, H3⟩, ⟨%e4, H4⟩, ⟨%es0, HS0⟩⟩
    isplitl [HS0 Hrest Hg]
    · isplitl [HS0 Hrest]
      · isplitl [HS0]
        · iexists _; unfold owns; iexists _; isplitr
          swap; · iexact HS0
          ipureintro; rfl
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _ _ _ _ _)
  · rw [show o3At V c t = out0_B_3 c (grid0.coords t) (ms0_0 t) (hs0_0 t) (ms0_1 t) (hs0_1 t) (ms0_2 t) (hs0_2 t) (ms0_3 t) (hs0_3 t) (ms0_4 t) (hs0_4 t) scM0 (Memref.isWhole_whole _) (hcond0_0 t) (hcond0_1 t) (hcB0_2 t h) (iblk0 V c 0 t) (iblk0 V c 1 t) (iblk0 V c 2 t) from dif_neg h]
    unfold out0_B_3; (try dsimp only)
    simp only [before0_4 V c t h]
    have hpost : iprop(owns (c : Thread nD τ) (ms0_4 t) fullShare (o4At V c t)) ⊢ (dat0 V c).leavesExact 4 t := by
      by_cases h3 : t.val % 4 = 3
      · rw [show (dat0 V c).leavesExact 4 t = owns (c : Thread nD τ) (ms0_4 t) fullShare ((dat0 V c).after 4 t) from by
          unfold Dat.leavesExact; rw [idleAt0_4 t h, (flush0_4 t).mpr h3], after0_4]
      · rw [Dat.leavesExact_idle (dat0 V c) 4 t (idleAt0_4 t h) (noFlush0_4 t h3)]
        simp only [before0_4 V c t h]
        iintro H; iexists (o4At V c t); iexact H
    iintro ⟨⟨⟨HS0, Hrest⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (hcond0_0 t) (hcond0_1 t) (hcB0_2 t h) (iblk0 V c 0 t) (iblk0 V c 1 t) (iblk0 V c 2 t)).2.2 _ Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, ⟨%es0, HS0⟩⟩
    isplitl [HS0 Hrest Hg]
    · isplitl [HS0 Hrest]
      · isplitl [HS0]
        · iexists _; unfold owns; iexists _; isplitr
          swap; · iexact HS0
          ipureintro; rfl
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _)
    iapply hpost; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Idealize.SL.BI.Entails.refl _
theorem hout0 (c : Dev nD) : (dat0 V c).Φ (Fin.last cfg0.N) ⊢ Pipeline.ΦA spec0 c := Idealize.SL.BI.Entails.refl _

end Region0

end Cert.Kernel.Hand

end
-- ==== Proof.KB.Run1A.lean ====
/-
  Region 1 at the first half of the contraction: the accumulator is reset and the first half's block product added; nothing is stored into the result.
-/
import proofs.«152862_j64407329571549_2_alg».proof.Proof.KB.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last store first) in each buffer it stores into, with the proof that, from whole
    memrefs holding the stated contents, the body runs to a continuation given the inputs as they were, an untouched output
    as it was, and each stored buffer with those pieces written over what it held. The pieces are found by running the body. -/
noncomputable def kernelRun1_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x2048 .bf16) (x1 : Vec F S1024x2048 .bf16) :
    { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_act_kernel i arg3 harg3 arg4 harg4 arg5 harg5 arg6 harg6) K } := by
  refine ⟨?_, fun xi2 E K => ?run⟩
  case run =>
    simp only [cc1__matmul_act_kernel_eq_skeleton]; unfold cc1__matmul_act_kernel_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel.Hand

end
-- ==== Proof.KB.Run1B.lean ====
/-
  Region 1 at the second half of the contraction: the second half's block product is added to what the accumulator holds, and the rectified sum is stored as the result.
-/
import proofs.«152862_j64407329571549_2_alg».proof.Proof.KB.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last store first) in each buffer it stores into, with the proof that, from whole
    memrefs holding the stated contents, the body runs to a continuation given the inputs as they were, an untouched output
    as it was, and each stored buffer with those pieces written over what it held. The pieces are found by running the body. -/
noncomputable def kernelRun1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x2048 .bf16) (x1 : Vec F S1024x2048 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_act_kernel i arg3 harg3 arg4 harg4 arg5 harg5 arg6 harg6) K } := by
  refine ⟨?_, ?_, fun E K => ?run⟩
  case run =>
    simp only [cc1__matmul_act_kernel_eq_skeleton]; unfold cc1__matmul_act_kernel_skel
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact H3

end Cert.Kernel.Hand

end
-- ==== Proof.KB.Region1.lean ====
/-
  Region 1 (the second matrix product, rectified): its proof data and its body obligation, at the contents `V` the region
  is entered from and at any float instance.

  The grid is (32, 4, 2), the last coordinate k the half of the contraction.  At an even point (k = 0) the accumulator is
  reset and holds the first half's block product; at the odd point that follows (k = 1) the second half's is added and the
  rectified sum is stored as the result block, which the pipeline then writes back.  So the accumulator after an even point
  depends on that point's input blocks only, and after an odd point on its own input blocks and on what the even point
  before left: no longer recursion than that.
-/
import proofs.«152862_j64407329571549_2_alg».proof.Proof.KB.Run1A
import proofs.«152862_j64407329571549_2_alg».proof.Proof.KB.Run1B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the result window, through which its contents are stated (the choice does not matter). -/
abbrev VO1 : View sig .tc .vmem S1024x1024 .bf16 := (Memref.whole cc1_stg2_0 : Memref sig .tc .vmem S1024x1024 .bf16).view
/-- The accumulator as a view. -/
abbrev VS1 : View sig .tc .vmem S1024x1024 .f32 := scM1.view

/-! ## What each case leaves -/

theorem scover1_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x2048 .bf16) (x1 : Vec F S1024x2048 .bf16) (y : S1024x1024.Idx) :
    ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S1024x1024.size (by sl_kernel_rfl) y

/-- What the first half leaves in the accumulator: its pieces read back. -/
def sout1_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x2048 .bf16) (x1 : Vec F S1024x2048 .bf16) : Vec F S1024x1024 .f32 :=
  VS1.read (Elt F) (VS1.writes (Elt F) VS1.junk (kernelRun1_A c i arg3 harg3 arg4 harg4 arg5 harg5 arg6 harg6 hc0 hc1 x0 x1).1)

theorem cover1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x2048 .bf16) (x1 : Vec F S1024x2048 .bf16) (xs0 : Vec F S1024x1024 .f32) (y : S1024x1024.Idx) :
    ∃ pc ∈ (kernelRun1_B c i arg3 harg3 arg4 harg4 arg5 harg5 arg6 harg6 hc0 hc1 x0 x1 xs0).1, y ∈ pc.1.set :=
  View.cover_of_tiledL (kernelRun1_B c i arg3 harg3 arg4 harg4 arg5 harg5 arg6 harg6 hc0 hc1 x0 x1 xs0).1 S1024x1024.size (by sl_kernel_rfl) y

/-- What the second half leaves in the result's staging buffer. -/
def out1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x2048 .bf16) (x1 : Vec F S1024x2048 .bf16) (xs0 : Vec F S1024x1024 .f32) : Vec F S1024x1024 .bf16 :=
  VO1.read (Elt F) (VO1.writes (Elt F) VO1.junk (kernelRun1_B c i arg3 harg3 arg4 harg4 arg5 harg5 arg6 harg6 hc0 hc1 x0 x1 xs0).1)

theorem scover1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x2048 .bf16) (x1 : Vec F S1024x2048 .bf16) (xs0 : Vec F S1024x1024 .f32) (y : S1024x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1024.size (by sl_kernel_rfl) y

/-- What the second half leaves in the accumulator. -/
def sout1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x2048 .bf16) (x1 : Vec F S1024x2048 .bf16) (xs0 : Vec F S1024x1024 .f32) : Vec F S1024x1024 .f32 :=
  VS1.read (Elt F) (VS1.writes (Elt F) VS1.junk (kernelRun1_B c i arg3 harg3 arg4 harg4 arg5 harg5 arg6 harg6 hc0 hc1 x0 x1 xs0).2.1)

/-! ## Point by point -/

theorem N1_lt (t : Fin cfg1.N) : t.val < 256 := lt_of_lt_of_eq t.isLt (show cfg1.N = 256 from N_1)

/-- The point before. -/
def prev1 (t : Fin cfg1.N) : Fin cfg1.N := ⟨t.val - 1, Nat.lt_of_le_of_lt (Nat.sub_le _ _) t.isLt⟩

theorem hcA1_1 (t : Fin cfg1.N) (h : t.val % 2 = 0) : ¬cond1_1 (grid1.coords t) := fun hh => by
  have := (hcond1_1 t).mp hh; omega
theorem hcB1_0 (t : Fin cfg1.N) (h : ¬t.val % 2 = 0) : ¬cond1_0 (grid1.coords t) := fun hh => h ((hcond1_0 t).mp hh)
theorem hcB1_1 (t : Fin cfg1.N) (h : ¬t.val % 2 = 0) : cond1_1 (grid1.coords t) := (hcond1_1 t).mpr (by omega)
theorem prev1_even (t : Fin cfg1.N) (h : ¬t.val % 2 = 0) : (prev1 t).val % 2 = 0 := by
  show (t.val - 1) % 2 = 0; omega

/-- The accumulator after an even point: the first half's block product of the point's blocks. -/
def sA1 (c : Dev nD) (t : Fin cfg1.N) (h : t.val % 2 = 0) : Vec F S1024x1024 .f32 :=
  sout1_A c (grid1.coords t) (ms1_0 t) (hs1_0 t) (ms1_1 t) (hs1_1 t) (ms1_2 t) (hs1_2 t) scM1 (Memref.isWhole_whole _)
    ((hcond1_0 t).mpr h) (hcA1_1 t h) (iblk1 V c 0 t) (iblk1 V c 1 t)

/-- The accumulator after an odd point: the second half's added to what the even point before left. -/
def sB1 (c : Dev nD) (t : Fin cfg1.N) (h : ¬t.val % 2 = 0) : Vec F S1024x1024 .f32 :=
  sout1_B c (grid1.coords t) (ms1_0 t) (hs1_0 t) (ms1_1 t) (hs1_1 t) (ms1_2 t) (hs1_2 t) scM1 (Memref.isWhole_whole _)
    (hcB1_0 t h) (hcB1_1 t h) (iblk1 V c 0 t) (iblk1 V c 1 t) (sA1 V c (prev1 t) (prev1_even t h))

/-- The result block an odd point stores. -/
def oB1 (c : Dev nD) (t : Fin cfg1.N) (h : ¬t.val % 2 = 0) : Vec F S1024x1024 .bf16 :=
  out1_B c (grid1.coords t) (ms1_0 t) (hs1_0 t) (ms1_1 t) (hs1_1 t) (ms1_2 t) (hs1_2 t) scM1 (Memref.isWhole_whole _)
    (hcB1_0 t h) (hcB1_1 t h) (iblk1 V c 0 t) (iblk1 V c 1 t) (sA1 V c (prev1 t) (prev1_even t h))

/-- The accumulator after point `t`. -/
def sAt1 (c : Dev nD) (t : Fin cfg1.N) : Vec F S1024x1024 .f32 :=
  if h : t.val % 2 = 0 then sA1 V c t h else sB1 V c t h

/-- The result's staging buffer after point `t` (at an even point the body does not touch it and the pipeline neither
    writes it back nor reads it: a placeholder nothing consults). -/
def oAt1 (c : Dev nD) (t : Fin cfg1.N) : Vec F S1024x1024 .bf16 :=
  if h : t.val % 2 = 0 then VO1.read (Elt F) (VO1.writes (Elt F) VO1.junk []) else oB1 V c t h

/-- The region invariant before position `n`: the library's class invariant before the first point; afterwards the
    accumulator at what the point before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare (sAt1 V c ⟨n, hn⟩) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (sAt1 V c ⟨n, hn⟩) ∗ rest1 c) ∗ (∃ r, prngReg c r)) := rfl
theorem PhiS1_pos (c : Dev nD) (t : Fin cfg1.N) (hz : t.val ≠ 0) :
    PhiS1 V c t.val (Nat.le_of_lt t.isLt) = iprop(iprop(owns (c : Thread nD τ) scM1 fullShare (sAt1 V c (prev1 t)) ∗ rest1 c) ∗ (∃ r, prngReg c r)) := by
  obtain ⟨n, hn⟩ := t
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => oAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = oAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN := N1_lt t
  by_cases h : t.val % 2 = 0
  · rw [Dat.leavesExact_idle (dat1 V c) 2 t (idleAt1_2 t h) (noFlush1_2 t h)]
    rw [show sAt1 V c ⟨t.val, t.isLt⟩ = sA1 V c t h from dif_pos h]
    unfold sA1 sout1_A; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h) (hcA1_1 t h) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c t hz]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h) (hcA1_1 t h) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _ _)
          iexact Hrest
        iexact Hg
      isplitl [Ho]; · iexact Ho
      isplitl [H0]; · iexact H0
      isplitl [H1]; · iexact H1
      iexists _; iexact H2
  · rw [show (dat1 V c).leavesExact 2 t = owns (c : Thread nD τ) (ms1_2 t) fullShare ((dat1 V c).after 2 t) from by
      unfold Dat.leavesExact; rw [liveAt1_2 t (by omega)], after1_2]
    rw [show oAt1 V c t = oB1 V c t h from dif_neg h]
    rw [show sAt1 V c ⟨t.val, t.isLt⟩ = sB1 V c t h from dif_neg h]
    unfold sB1 oB1 sout1_B out1_B; (try dsimp only)
    have hz : t.val ≠ 0 := fun e => h (by rw [e])
    rw [PhiS1_castSucc V c t, PhiS1_pos V c t hz]
    rw [show sAt1 V c (prev1 t) = sA1 V c (prev1 t) (prev1_even t h) from dif_pos (prev1_even t h)]
    iintro ⟨⟨⟨HS0, Hrest⟩, Hg⟩, Ho, ⟨%d0, H0⟩, ⟨%d1, H1⟩, ⟨%d2, H2⟩⟩
    iapply ((kernelRun1_B c (grid1.coords t) _ _ _ _ _ _ _ _ (hcB1_0 t h) (hcB1_1 t h) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover1_B c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: the accumulator's contents are forgotten. -/
theorem PhiS1_out (c : Dev nD) (n : ℕ) (h : n ≤ cfg1.N) (hz : n ≠ 0) : PhiS1 V c n h ⊢ Pipeline.ΦA spec1 c := by
  cases n with
  | zero => exact absurd rfl hz
  | succ k =>
    rw [PhiS1_succ, PhiA1_eq]
    iintro ⟨⟨HS0, Hrest⟩, Hg⟩
    isplitl [HS0 Hrest]
    · isplitl [HS0]
      · iexists _; iexact HS0
      iexact Hrest
    iexact Hg

theorem hout1 (c : Dev nD) : (dat1 V c).Φ (Fin.last cfg1.N) ⊢ Pipeline.ΦA spec1 c :=
  PhiS1_out V c (Fin.last cfg1.N).val (Nat.le_of_lt_succ (Fin.last cfg1.N).isLt) (by
    have hN : cfg1.N = 256 := N_1
    rw [Fin.val_last]; omega)

end Region1

end Cert.Kernel.Hand

end
-- ==== Proof.KB.Run2A.lean ====
/-
  Region 2 at the first half of the contraction: the accumulator is reset and the first half's block product added; the residual, the scale and the shift are not read and nothing is stored into the result.
-/
import proofs.«152862_j64407329571549_2_alg».proof.Proof.KB.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last store first) in each buffer it stores into, with the proof that, from whole
    memrefs holding the stated contents, the body runs to a continuation given the inputs as they were, an untouched output
    as it was, and each stored buffer with those pieces written over what it held. The pieces are found by running the body. -/
noncomputable def kernelRun2_A (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond2_0 i) (hc1 : ¬cond2_1 i)
    (x0 : Vec F S512x2048 .bf16) (x1 : Vec F S1024x2048 .bf16) (x2 : Vec F S512x1024 .f32) (x3 : Vec F S1x1024 .f32) (x4 : Vec F S1x1024 .f32) :
    { LS0 : List (View.Piece (Elt F) S512x1024 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__stageC_kernel i arg2 harg2 arg3 harg3 arg4 harg4 arg5 harg5 arg6 harg6 arg7 harg7 arg8 harg8) K } := by
  refine ⟨?_, fun xi5 E K => ?run⟩
  case run =>
    simp only [cc2__stageC_kernel_eq_skeleton]; unfold cc2__stageC_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Hand

end
-- ==== Proof.KB.Run2B.lean ====
/-
  Region 2 at the second half of the contraction: the second half's block product is added to what the accumulator holds, the residual is added, and the layer norm of each row of the sum, scaled and shifted, is stored as the result.
-/
import proofs.«152862_j64407329571549_2_alg».proof.Proof.KB.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last store first) in each buffer it stores into, with the proof that, from whole
    memrefs holding the stated contents, the body runs to a continuation given the inputs as they were, an untouched output
    as it was, and each stored buffer with those pieces written over what it held. The pieces are found by running the body. -/
noncomputable def kernelRun2_B (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond2_0 i) (hc1 : cond2_1 i)
    (x0 : Vec F S512x2048 .bf16) (x1 : Vec F S1024x2048 .bf16) (x2 : Vec F S512x1024 .f32) (x3 : Vec F S1x1024 .f32) (x4 : Vec F S1x1024 .f32) (xs0 : Vec F S512x1024 .f32) :
    Σ' (L5 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2__stageC_kernel i arg2 harg2 arg3 harg3 arg4 harg4 arg5 harg5 arg6 harg6 arg7 harg7 arg8 harg8) K } := by
  refine ⟨?_, ?_, fun E K => ?run⟩
  case run =>
    simp only [cc2__stageC_kernel_eq_skeleton]; unfold cc2__stageC_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.Kernel.Hand

end
-- ==== Proof.KB.Region2.lean ====
/-
  Region 2 (the third matrix product, the residual and the layer norm): its proof data and its body obligation, at the
  contents `V` the region is entered from and at any float instance.

  The grid is (64, 2), the last coordinate k the half of the contraction.  At an even point (k = 0) the accumulator is reset
  and holds the first half's block product; at the odd point that follows the second half's is added, the residual block is
  added to the sum, and each row's layer norm, scaled and shifted, is stored as the result block, which the pipeline then
  writes back.  The residual, the scale and the shift are input windows: the body leaves them as it finds them.
-/
import proofs.«152862_j64407329571549_2_alg».proof.Proof.KB.Run2A
import proofs.«152862_j64407329571549_2_alg».proof.Proof.KB.Run2B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- One staging buffer of the result window, through which its contents are stated (the choice does not matter). -/
abbrev VO2 : View sig .tc .vmem S512x1024 .f32 := (Memref.whole cc2_stg5_0 : Memref sig .tc .vmem S512x1024 .f32).view
/-- The accumulator as a view. -/
abbrev VS2 : View sig .tc .vmem S512x1024 .f32 := scM2.view

/-! ## What each case leaves -/

theorem scover2_A (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond2_0 i) (hc1 : ¬cond2_1 i)
    (x0 : Vec F S512x2048 .bf16) (x1 : Vec F S1024x2048 .bf16) (x2 : Vec F S512x1024 .f32) (x3 : Vec F S1x1024 .f32) (x4 : Vec F S1x1024 .f32) (y : S512x1024.Idx) :
    ∃ pc ∈ (kernelRun2_A c i arg2 harg2 arg3 harg3 arg4 harg4 arg5 harg5 arg6 harg6 arg7 harg7 arg8 harg8 hc0 hc1 x0 x1 x2 x3 x4).1, y ∈ pc.1.set :=
  View.cover_of_tiledL (kernelRun2_A c i arg2 harg2 arg3 harg3 arg4 harg4 arg5 harg5 arg6 harg6 arg7 harg7 arg8 harg8 hc0 hc1 x0 x1 x2 x3 x4).1 S512x1024.size (by sl_kernel_rfl) y

/-- What the first half leaves in the accumulator: its pieces read back. -/
def sout2_A (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond2_0 i) (hc1 : ¬cond2_1 i)
    (x0 : Vec F S512x2048 .bf16) (x1 : Vec F S1024x2048 .bf16) (x2 : Vec F S512x1024 .f32) (x3 : Vec F S1x1024 .f32) (x4 : Vec F S1x1024 .f32) : Vec F S512x1024 .f32 :=
  VS2.read (Elt F) (VS2.writes (Elt F) VS2.junk (kernelRun2_A c i arg2 harg2 arg3 harg3 arg4 harg4 arg5 harg5 arg6 harg6 arg7 harg7 arg8 harg8 hc0 hc1 x0 x1 x2 x3 x4).1)

theorem cover2_B (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond2_0 i) (hc1 : cond2_1 i)
    (x0 : Vec F S512x2048 .bf16) (x1 : Vec F S1024x2048 .bf16) (x2 : Vec F S512x1024 .f32) (x3 : Vec F S1x1024 .f32) (x4 : Vec F S1x1024 .f32) (xs0 : Vec F S512x1024 .f32) (y : S512x1024.Idx) :
    ∃ pc ∈ (kernelRun2_B c i arg2 harg2 arg3 harg3 arg4 harg4 arg5 harg5 arg6 harg6 arg7 harg7 arg8 harg8 hc0 hc1 x0 x1 x2 x3 x4 xs0).1, y ∈ pc.1.set :=
  View.cover_of_tiledL (kernelRun2_B c i arg2 harg2 arg3 harg3 arg4 harg4 arg5 harg5 arg6 harg6 arg7 harg7 arg8 harg8 hc0 hc1 x0 x1 x2 x3 x4 xs0).1 S512x1024.size (by sl_kernel_rfl) y

/-- What the second half leaves in the result's staging buffer. -/
def out2_B (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond2_0 i) (hc1 : cond2_1 i)
    (x0 : Vec F S512x2048 .bf16) (x1 : Vec F S1024x2048 .bf16) (x2 : Vec F S512x1024 .f32) (x3 : Vec F S1x1024 .f32) (x4 : Vec F S1x1024 .f32) (xs0 : Vec F S512x1024 .f32) : Vec F S512x1024 .f32 :=
  VO2.read (Elt F) (VO2.writes (Elt F) VO2.junk (kernelRun2_B c i arg2 harg2 arg3 harg3 arg4 harg4 arg5 harg5 arg6 harg6 arg7 harg7 arg8 harg8 hc0 hc1 x0 x1 x2 x3 x4 xs0).1)

theorem scover2_B (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond2_0 i) (hc1 : cond2_1 i)
    (x0 : Vec F S512x2048 .bf16) (x1 : Vec F S1024x2048 .bf16) (x2 : Vec F S512x1024 .f32) (x3 : Vec F S1x1024 .f32) (x4 : Vec F S1x1024 .f32) (xs0 : Vec F S512x1024 .f32) (y : S512x1024.Idx) :
    ∃ pc ∈ (kernelRun2_B c i arg2 harg2 arg3 harg3 arg4 harg4 arg5 harg5 arg6 harg6 arg7 harg7 arg8 harg8 hc0 hc1 x0 x1 x2 x3 x4 xs0).2.1, y ∈ pc.1.set :=
  View.cover_of_tiledL (kernelRun2_B c i arg2 harg2 arg3 harg3 arg4 harg4 arg5 harg5 arg6 harg6 arg7 harg7 arg8 harg8 hc0 hc1 x0 x1 x2 x3 x4 xs0).2.1 S512x1024.size (by sl_kernel_rfl) y

/-- What the second half leaves in the accumulator. -/
def sout2_B (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond2_0 i) (hc1 : cond2_1 i)
    (x0 : Vec F S512x2048 .bf16) (x1 : Vec F S1024x2048 .bf16) (x2 : Vec F S512x1024 .f32) (x3 : Vec F S1x1024 .f32) (x4 : Vec F S1x1024 .f32) (xs0 : Vec F S512x1024 .f32) : Vec F S512x1024 .f32 :=
  VS2.read (Elt F) (VS2.writes (Elt F) VS2.junk (kernelRun2_B c i arg2 harg2 arg3 harg3 arg4 harg4 arg5 harg5 arg6 harg6 arg7 harg7 arg8 harg8 hc0 hc1 x0 x1 x2 x3 x4 xs0).2.1)

/-! ## Point by point -/

theorem N2_lt (t : Fin cfg2.N) : t.val < 128 := lt_of_lt_of_eq t.isLt (show cfg2.N = 128 from N_2)

/-- The point before. -/
def prev2 (t : Fin cfg2.N) : Fin cfg2.N := ⟨t.val - 1, Nat.lt_of_le_of_lt (Nat.sub_le _ _) t.isLt⟩

theorem hcA2_1 (t : Fin cfg2.N) (h : t.val % 2 = 0) : ¬cond2_1 (grid2.coords t) := fun hh => by
  have := (hcond2_1 t).mp hh; omega
theorem hcB2_0 (t : Fin cfg2.N) (h : ¬t.val % 2 = 0) : ¬cond2_0 (grid2.coords t) := fun hh => h ((hcond2_0 t).mp hh)
theorem hcB2_1 (t : Fin cfg2.N) (h : ¬t.val % 2 = 0) : cond2_1 (grid2.coords t) := (hcond2_1 t).mpr (by omega)
theorem prev2_even (t : Fin cfg2.N) (h : ¬t.val % 2 = 0) : (prev2 t).val % 2 = 0 := by
  show (t.val - 1) % 2 = 0; omega

/-- The accumulator after an even point: the first half's block product of the point's blocks. -/
def sA2 (c : Dev nD) (t : Fin cfg2.N) (h : t.val % 2 = 0) : Vec F S512x1024 .f32 :=
  sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
    ((hcond2_0 t).mpr h) (hcA2_1 t h) (iblk2 V c 0 t) (iblk2 V c 1 t) (iblk2 V c 2 t) (iblk2 V c 3 t) (iblk2 V c 4 t)

/-- The accumulator after an odd point: the second half's added to what the even point before left. -/
def sB2 (c : Dev nD) (t : Fin cfg2.N) (h : ¬t.val % 2 = 0) : Vec F S512x1024 .f32 :=
  sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
    (hcB2_0 t h) (hcB2_1 t h) (iblk2 V c 0 t) (iblk2 V c 1 t) (iblk2 V c 2 t) (iblk2 V c 3 t) (iblk2 V c 4 t) (sA2 V c (prev2 t) (prev2_even t h))

/-- The result block an odd point stores. -/
def oB2 (c : Dev nD) (t : Fin cfg2.N) (h : ¬t.val % 2 = 0) : Vec F S512x1024 .f32 :=
  out2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
    (hcB2_0 t h) (hcB2_1 t h) (iblk2 V c 0 t) (iblk2 V c 1 t) (iblk2 V c 2 t) (iblk2 V c 3 t) (iblk2 V c 4 t) (sA2 V c (prev2 t) (prev2_even t h))

/-- The accumulator after point `t`. -/
def sAt2 (c : Dev nD) (t : Fin cfg2.N) : Vec F S512x1024 .f32 :=
  if h : t.val % 2 = 0 then sA2 V c t h else sB2 V c t h

/-- The result's staging buffer after point `t` (at an even point the body does not touch it and the pipeline neither
    writes it back nor reads it: a placeholder nothing consults). -/
def oAt2 (c : Dev nD) (t : Fin cfg2.N) : Vec F S512x1024 .f32 :=
  if h : t.val % 2 = 0 then VO2.read (Elt F) (VO2.writes (Elt F) VO2.junk []) else oB2 V c t h

/-- The region invariant before position `n`: the library's class invariant before the first point; afterwards the
    accumulator at what the point before left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2 fullShare (sAt2 V c ⟨n, hn⟩) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (sAt2 V c ⟨n, hn⟩) ∗ rest2 c) ∗ (∃ r, prngReg c r)) := rfl
theorem PhiS2_pos (c : Dev nD) (t : Fin cfg2.N) (hz : t.val ≠ 0) :
    PhiS2 V c t.val (Nat.le_of_lt t.isLt) = iprop(iprop(owns (c : Thread nD τ) scM2 fullShare (sAt2 V c (prev2 t)) ∗ rest2 c) ∗ (∃ r, prngReg c r)) := by
  obtain ⟨n, hn⟩ := t
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => oAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = oAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  have hN := N2_lt t
  by_cases h : t.val % 2 = 0
  · rw [Dat.leavesExact_idle (dat2 V c) 5 t (idleAt2_5 t h) (noFlush2_5 t h)]
    rw [show sAt2 V c ⟨t.val, t.isLt⟩ = sA2 V c t h from dif_pos h]
    unfold sA2 sout2_A; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h) (hcA2_1 t h) (iblk2 V c 0 t) (iblk2 V c 1 t) (iblk2 V c 2 t) (iblk2 V c 3 t) (iblk2 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c t hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h) (hcA2_1 t h) (iblk2 V c 0 t) (iblk2 V c 1 t) (iblk2 V c 2 t) (iblk2 V c 3 t) (iblk2 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · rw [show (dat2 V c).leavesExact 5 t = owns (c : Thread nD τ) (ms2_5 t) fullShare ((dat2 V c).after 5 t) from by
      unfold Dat.leavesExact; rw [liveAt2_5 t (by omega)], after2_5]
    rw [show oAt2 V c t = oB2 V c t h from dif_neg h]
    rw [show sAt2 V c ⟨t.val, t.isLt⟩ = sB2 V c t h from dif_neg h]
    unfold sB2 oB2 sout2_B out2_B; (try dsimp only)
    have hz : t.val ≠ 0 := fun e => h (by rw [e])
    rw [PhiS2_castSucc V c t, PhiS2_pos V c t hz]
    rw [show sAt2 V c (prev2 t) = sA2 V c (prev2 t) (prev2_even t h) from dif_pos (prev2_even t h)]
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun2_B c (grid2.coords t) _ _ _ _ _ _ _ _ _ _ _ _ _ _ (hcB2_0 t h) (hcB2_1 t h) (iblk2 V c 0 t) (iblk2 V c 1 t) (iblk2 V c 2 t) (iblk2 V c 3 t) (iblk2 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_B c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover2_B c _ _ _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class invariant back: the accumulator's contents are forgotten. -/
theorem PhiS2_out (c : Dev nD) (n : ℕ) (h : n ≤ cfg2.N) (hz : n ≠ 0) : PhiS2 V c n h ⊢ Pipeline.ΦA spec2 c := by
  cases n with
  | zero => exact absurd rfl hz
  | succ k =>
    rw [PhiS2_succ, PhiA2_eq]
    iintro ⟨⟨HS0, Hrest⟩, Hg⟩
    isplitl [HS0 Hrest]
    · isplitl [HS0]
      · iexists _; iexact HS0
      iexact Hrest
    iexact Hg

theorem hout2 (c : Dev nD) : (dat2 V c).Φ (Fin.last cfg2.N) ⊢ Pipeline.ΦA spec2 c :=
  PhiS2_out V c (Fin.last cfg2.N).val (Nat.le_of_lt_succ (Fin.last cfg2.N).isLt) (by
    have hN : cfg2.N = 128 := N_2
    rw [Fin.val_last]; omega)

end Region2

end Cert.Kernel.Hand

end
-- ==== Proof.KB.Main.lean ====
/-
  The whole program's run, at any float instance: @main is six segments — the host operations that scale and convert the
  weights and flatten the activations, region 0, region 1, two reshapes, region 2, a last reshape — and every weakly fair
  execution runs them to the end, leaving every unscoped buffer at the contents the fold below names: after a host stretch
  what its operations compute, after a region its windows' arrays at what the region's proof data say the write-backs
  leave and every other buffer as it was.
-/
import proofs.«152862_j64407329571549_2_alg».proof.Proof.KB.Region0
import proofs.«152862_j64407329571549_2_alg».proof.Proof.KB.Region1
import proofs.«152862_j64407329571549_2_alg».proof.Proof.KB.Region2
import proofs.«152862_j64407329571549_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Main

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit, which is region 1's entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the two reshapes of the layer norm's scale and shift: region 2's entry. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At region 2's exit. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the last reshape: the end. -/
abbrev W6 : Dev nD → Valuation τ sig (Elt F) := fun c => StableHlo.after hostOps3 (W5 m ρ c)

/-! ## The proof data family and the thread state -/

abbrev adm : (p : Fin 3) → (pcfgs (F := F) p).Adm := fun p => (cfgs p).toPCfg_adm
/-- Every region's proof data, each at its region's entry contents: a literal match on the region. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`.  Its windows' arrays are
    split out of the unscoped buffers and put back at their final contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`.  Its windows' arrays are
    split out of the unscoped buffers and put back at their final contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`.  Its windows' arrays are
    split out of the unscoped buffers and put back at their final contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine BIBase.Entails.trans (hout2 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates, nothing
    faulting, and every final state holds every unscoped buffer at the contents the fold names (`W6`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Main

end Cert.Kernel.Hand

end
-- ==== Proof.KB.Frame.lean ====
/-
  The frame: every argument array ends holding what it was launched with.  No host operation writes an argument (each
  writes only its own result buffer) and no argument is a window's array of any region (the regions read the arguments
  only through the converted, flattened or scaled copies the first host stretch makes), so the contents the run leaves at
  an argument's buffer walk back, segment by segment, to the launch memory.
-/
import proofs.«152862_j64407329571549_2_alg».proof.Proof.KB.Main

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Frame

variable (m : (ℓ : Loc nD τ sig) → Buf (Elt F) ℓ) (ρ : Dev nD → PrngReg)

theorem W1_of (c : Dev nD) (b : Ref sig .tc) (h : b ∉ hostOps0_W) : W1 m ρ c b = W0 m ρ c b :=
  StableHlo.after_of_writes_sub hostOps0 _ hostOps0_writes h
theorem W4_of (c : Dev nD) (b : Ref sig .tc) (h : b ∉ hostOps2_W) : W4 m ρ c b = W3 m ρ c b :=
  StableHlo.after_of_writes_sub hostOps2 _ hostOps2_writes h
theorem W6_of (c : Dev nD) (b : Ref sig .tc) (h : b ∉ hostOps3_W) : W6 m ρ c b = W5 m ρ c b :=
  StableHlo.after_of_writes_sub hostOps3 _ hostOps3_writes h

/-- A buffer that no host stretch writes and no region has as a window's array ends as launched. -/
theorem W6_launch (c : Dev nD) (b : Ref sig .tc) (h0 : b ∉ hostOps0_W) (h2 : b ∉ hostOps2_W) (h3 : b ∉ hostOps3_W)
    (a0 : ∀ w, Pipeline.arrRef spec0 w ≠ b) (a1 : ∀ w, Pipeline.arrRef spec1 w ≠ b) (a2 : ∀ w, Pipeline.arrRef spec2 w ≠ b) :
    W6 m ρ c (Proc.devRef .tc b) = m ((c : Thread nD τ).loc b) :=
  calc W6 m ρ c (Proc.devRef .tc b)
    _ = W5 m ρ c (Proc.devRef .tc b) := W6_of m ρ c b h3
    _ = W4 m ρ c (Proc.devRef .tc b) := W5_of_ne m ρ c b a2
    _ = W3 m ρ c (Proc.devRef .tc b) := W4_of m ρ c b h2
    _ = W2 m ρ c (Proc.devRef .tc b) := W3_of_ne m ρ c b a1
    _ = W1 m ρ c (Proc.devRef .tc b) := W2_of_ne m ρ c b a0
    _ = W0 m ρ c (Proc.devRef .tc b) := W1_of m ρ c b h0
    _ = m ((c : Thread nD τ).loc b) := rfl

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W6_launch m ρ c main_arg0 (by decide) (by decide) (by decide) (by decide) (by decide) (by decide)),
     (h c _ (mem_uc main_arg1 (by decide))).trans (W6_launch m ρ c main_arg1 (by decide) (by decide) (by decide) (by decide) (by decide) (by decide)),
     (h c _ (mem_uc main_arg2 (by decide))).trans (W6_launch m ρ c main_arg2 (by decide) (by decide) (by decide) (by decide) (by decide) (by decide)),
     (h c _ (mem_uc main_arg3 (by decide))).trans (W6_launch m ρ c main_arg3 (by decide) (by decide) (by decide) (by decide) (by decide) (by decide)),
     (h c _ (mem_uc main_arg4 (by decide))).trans (W6_launch m ρ c main_arg4 (by decide) (by decide) (by decide) (by decide) (by decide) (by decide)),
     (h c _ (mem_uc main_arg5 (by decide))).trans (W6_launch m ρ c main_arg5 (by decide) (by decide) (by decide) (by decide) (by decide) (by decide)),
     (h c _ (mem_uc main_arg6 (by decide))).trans (W6_launch m ρ c main_arg6 (by decide) (by decide) (by decide) (by decide) (by decide) (by decide)),
     (h c _ (mem_uc main_arg7 (by decide))).trans (W6_launch m ρ c main_arg7 (by decide) (by decide) (by decide) (by decide) (by decide) (by decide)),
     (h c _ (mem_uc main_arg8 (by decide))).trans (W6_launch m ρ c main_arg8 (by decide) (by decide) (by decide) (by decide) (by decide) (by decide)),
     (h c _ (mem_uc main_arg9 (by decide))).trans (W6_launch m ρ c main_arg9 (by decide) (by decide) (by decide) (by decide) (by decide) (by decide)),
     (h c _ (mem_uc main_arg10 (by decide))).trans (W6_launch m ρ c main_arg10 (by decide) (by decide) (by decide) (by decide) (by decide) (by decide))⟩)
    (run_all m ρ)

end Frame

end Cert.Kernel.Hand

end
-- ==== Proof.KI.Common.lean ====
/-
  What the three kernels' runs share, for the program read at any float instance.

  Each kernel is a blocked matrix product that accumulates into a scratch buffer along its last grid axis:
    region 0, grid (32, 4, 1): the accumulator is reset and filled at every point (the contraction is one block); the first
      result (the rectified product against the large weight) is stored at every point, the second (the product against
      the summed small weights) only where the column coordinate j is 0, and its staging buffer then rides unchanged over
      the three following points until it is written back with j = 3;
    region 1, grid (32, 4, 2): reset where the last coordinate k is 0, result stored where k is 1;
    region 2, grid (64, 2): the same, the stored result being the layer norm of accumulator plus residual.
  Here: each branch condition as a proposition on the grid coordinates and where it holds, decided over the grid; where each
  output window is idle; the staging memrefs as the pipeline passes them; and the region invariant of the frame library
  with the region's own scratch buffer split from the other scoped buffers, which ride along unopened.
-/
import proofs.«152862_j64407329571549_2_alg».proof.Proof.Gen.KernelIdeal.Launch
import proofs.«152862_j64407329571549_2_alg».proof.Proof.Gen.KernelIdeal.Skeleton
import proofs.«152862_j64407329571549_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Region 0 -/

/-- The accumulator's reset: the last grid coordinate is 0 (always: that axis has extent 1). -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) :=
  (by decide +kernel : ∀ t : Fin grid0.N, cond0_0 (grid0.coords t))
/-- The first result's store: the last grid coordinate is the last block of the contraction (always). -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))
/-- The second result's store: the column coordinate is 0, that is the points ≡ 0 (mod 4). -/
abbrev cond0_2 (i : grid0.Coords) : Prop := k0_cond3 i = 1#1
theorem hcond0_2 : ∀ t : Fin cfg0.N, cond0_2 (grid0.coords t) ↔ t.val % 4 = 0 :=
  (by decide +kernel : ∀ t : Fin grid0.N, cond0_2 (grid0.coords t) ↔ t.val % 4 = 0)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The second result's window is live exactly where it is stored, -/
theorem liveAt0_4 : ∀ t : Fin cfg0.N, t.val % 4 = 0 → cfg0.idle 4 (grid0.coords t) = false := by decide +kernel
/-- and idle at the three points that follow. -/
theorem idleAt0_4 : ∀ t : Fin cfg0.N, ¬ t.val % 4 = 0 → cfg0.idle 4 (grid0.coords t) = true := by decide +kernel

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
/-- Region 0's accumulator. -/
abbrev scM0 : Memref sig .tc .vmem S1024x1024 .f32 := Memref.whole cc0_scratch0

/-- The scoped buffers that are neither a staging buffer of region 0 nor its accumulator: carried unopened. -/
abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [scM0, owns_whole, bigSepL]; try rfl

/-! ## Region 1 -/

/-- The accumulator's reset: the last grid coordinate k is 0, that is the even points. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- The result's store: k is 1, the odd points. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, t.val % 2 = 1 → cfg1.idle 2 (grid1.coords t) = false := by decide +kernel
theorem idleAt1_2 : ∀ t : Fin cfg1.N, t.val % 2 = 0 → cfg1.idle 2 (grid1.coords t) = true := by decide +kernel
theorem noFlush1_2 : ∀ t : Fin cfg1.N, t.val % 2 = 0 → (cfg1.win 2).flush t = false := by decide +kernel

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
/-- Region 1's accumulator. -/
abbrev scM1 : Memref sig .tc .vmem S1024x1024 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole, bigSepL]; try rfl

/-! ## Region 2 -/

/-- The accumulator's reset: the last grid coordinate k is 0, the even points. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
/-- The result's store: k is 1, the odd points. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, t.val % 2 = 1 → cfg2.idle 5 (grid2.coords t) = false := by decide +kernel
theorem idleAt2_5 : ∀ t : Fin cfg2.N, t.val % 2 = 0 → cfg2.idle 5 (grid2.coords t) = true := by decide +kernel
theorem noFlush2_5 : ∀ t : Fin cfg2.N, t.val % 2 = 0 → (cfg2.win 5).flush t = false := by decide +kernel

abbrev ms2_0 (t : Fin cfg2.N) : Memref sig .tc .vmem S512x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x1024 .f32 := win2_5.stage (cfg2.slots t 5)
abbrev hs2_5 (t : Fin cfg2.N) : (ms2_5 t).IsWhole := hstage2_5 ((cfg2.slots t 5).cast nbuf2_5)
/-- Region 2's accumulator. -/
abbrev scM2 : Memref sig .tc .vmem S512x1024 .f32 := Memref.whole cc2_scratch0

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA
  rw [Pipeline.scopedRest_split_of_list spec2 c [cc2_scratch0] (by decide) (by decide)]
  simp only [scM2, owns_whole, bigSepL]; try rfl

end Cert.KernelIdeal.Hand

end
-- ==== Proof.KI.Run0A.lean ====
/-
  Region 0 at a point whose column coordinate is 0: the accumulator is reset and filled with the block product against the large weight, the first result (its rectification) is stored, and the second result (the block product against the summed small weights) is stored.
-/
import proofs.«152862_j64407329571549_2_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last store first) in each buffer it stores into, with the proof that, from whole
    memrefs holding the stated contents, the body runs to a continuation given the inputs as they were, an untouched output
    as it was, and each stored buffer with those pieces written over what it held. The pieces are found by running the body. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i)
    (x0 : Vec F S1024x1024 .bf16) (x1 : Vec F S1024x1024 .bf16) (x2 : Vec F S1024x1024 .bf16) :
    Σ' (L3 : List (View.Piece (Elt F) S1024x1024 .bf16)), Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__stageA_kernel i arg3 harg3 arg4 harg4 arg5 harg5 arg6 harg6 arg7 harg7 arg8 harg8) K } := by
  refine ⟨?_, ?_, ?_, fun E K => ?run⟩
  case run =>
    simp only [cc0__stageA_kernel_eq_skeleton]; unfold cc0__stageA_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact H5

end Cert.KernelIdeal.Hand

end
-- ==== Proof.KI.Run0B.lean ====
/-
  Region 0 at a point whose column coordinate is not 0: the accumulator is reset and filled, the first result is stored; the second result's buffer is not touched.
-/
import proofs.«152862_j64407329571549_2_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last store first) in each buffer it stores into, with the proof that, from whole
    memrefs holding the stated contents, the body runs to a continuation given the inputs as they were, an untouched output
    as it was, and each stored buffer with those pieces written over what it held. The pieces are found by running the body. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : ¬cond0_2 i)
    (x0 : Vec F S1024x1024 .bf16) (x1 : Vec F S1024x1024 .bf16) (x2 : Vec F S1024x1024 .bf16) :
    Σ' (L3 : List (View.Piece (Elt F) S1024x1024 .bf16)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__stageA_kernel i arg3 harg3 arg4 harg4 arg5 harg5 arg6 harg6 arg7 harg7 arg8 harg8) K } := by
  refine ⟨?_, ?_, fun xi4 E K => ?run⟩
  case run =>
    simp only [cc0__stageA_kernel_eq_skeleton]; unfold cc0__stageA_kernel_skel
    unfold owns
    iintro ⟨⟨%f0, %hf0, H0⟩, ⟨%f1, %hf1, H1⟩, ⟨%f2, %hf2, H2⟩, ⟨%d3, %f3, -, H3⟩, ⟨%f4, %hf4, H4⟩, ⟨%d5, %f5, -, H5⟩, Hk⟩
    obtain rfl := harg3.eq_unread hf0; obtain rfl := harg4.eq_unread hf1; obtain rfl := harg5.eq_unread hf2; obtain rfl := harg7.eq_unread hf4
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; isplitr; · ipureintro; exact harg7.read_unread _
      iexact H4
    iexists _; iexact H5

end Cert.KernelIdeal.Hand

end
-- ==== Proof.KI.Region0.lean ====
/-
  Region 0 (the first matrix product, rectified, and the merged small branch): its proof data and its body obligation, at
  the contents `V` the region is entered from and at any float instance.

  The grid is (32, 4, 1): row tile i, column tile j of the large weight, and a contraction axis of one block.  Every point
  resets the accumulator, fills it with the block product of the activations' row tile against column tile j of the large
  weight, and stores its rectification as block (i, j) of the first result, which the pipeline writes back at once.  Only the
  points with j = 0 store the second result's block i (the row tile against the summed small weights); its staging buffer then
  rides untouched through j = 1, 2, 3 and is written back with j = 3.  So what the write-back writes at a point ≡ 3 (mod 4)
  is what the point three before stored: `before0_4` below walks the three idle points back.
  The accumulator carries nothing from point to point (every point resets it), so the region's invariant is the library's
  class invariant throughout.
-/
import proofs.«152862_j64407329571549_2_alg».proof.Proof.KI.Run0A
import proofs.«152862_j64407329571549_2_alg».proof.Proof.KI.Run0B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of each result window, through which its contents are stated (the choice does not matter). -/
abbrev VO0_3 : View sig .tc .vmem S1024x1024 .bf16 := (Memref.whole cc0_stg3_0 : Memref sig .tc .vmem S1024x1024 .bf16).view
abbrev VO0_4 : View sig .tc .vmem S1024x1024 .f32 := (Memref.whole cc0_stg4_0 : Memref sig .tc .vmem S1024x1024 .f32).view

/-! ## What each case leaves in the result windows -/

theorem cover0_A_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i)
    (x0 : Vec F S1024x1024 .bf16) (x1 : Vec F S1024x1024 .bf16) (x2 : Vec F S1024x1024 .bf16) (y : S1024x1024.Idx) :
    ∃ pc ∈ (kernelRun0_A c i arg3 harg3 arg4 harg4 arg5 harg5 arg6 harg6 arg7 harg7 arg8 harg8 hc0 hc1 hc2 x0 x1 x2).1, y ∈ pc.1.set :=
  View.cover_of_tiledL (kernelRun0_A c i arg3 harg3 arg4 harg4 arg5 harg5 arg6 harg6 arg7 harg7 arg8 harg8 hc0 hc1 hc2 x0 x1 x2).1 S1024x1024.size (by sl_kernel_rfl) y
/-- The first result's block, stored where the column coordinate is 0. -/
def out0_A_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i)
    (x0 : Vec F S1024x1024 .bf16) (x1 : Vec F S1024x1024 .bf16) (x2 : Vec F S1024x1024 .bf16) : Vec F S1024x1024 .bf16 :=
  VO0_3.read (Elt F) (VO0_3.writes (Elt F) VO0_3.junk (kernelRun0_A c i arg3 harg3 arg4 harg4 arg5 harg5 arg6 harg6 arg7 harg7 arg8 harg8 hc0 hc1 hc2 x0 x1 x2).1)
theorem cover0_A_4 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i)
    (x0 : Vec F S1024x1024 .bf16) (x1 : Vec F S1024x1024 .bf16) (x2 : Vec F S1024x1024 .bf16) (y : S1024x1024.Idx) :
    ∃ pc ∈ (kernelRun0_A c i arg3 harg3 arg4 harg4 arg5 harg5 arg6 harg6 arg7 harg7 arg8 harg8 hc0 hc1 hc2 x0 x1 x2).2.1, y ∈ pc.1.set :=
  View.cover_of_tiledL (kernelRun0_A c i arg3 harg3 arg4 harg4 arg5 harg5 arg6 harg6 arg7 harg7 arg8 harg8 hc0 hc1 hc2 x0 x1 x2).2.1 S1024x1024.size (by sl_kernel_rfl) y
/-- The second result's block. -/
def out0_A_4 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i)
    (x0 : Vec F S1024x1024 .bf16) (x1 : Vec F S1024x1024 .bf16) (x2 : Vec F S1024x1024 .bf16) : Vec F S1024x1024 .f32 :=
  VO0_4.read (Elt F) (VO0_4.writes (Elt F) VO0_4.junk (kernelRun0_A c i arg3 harg3 arg4 harg4 arg5 harg5 arg6 harg6 arg7 harg7 arg8 harg8 hc0 hc1 hc2 x0 x1 x2).2.1)
theorem cover0_B_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : ¬cond0_2 i)
    (x0 : Vec F S1024x1024 .bf16) (x1 : Vec F S1024x1024 .bf16) (x2 : Vec F S1024x1024 .bf16) (y : S1024x1024.Idx) :
    ∃ pc ∈ (kernelRun0_B c i arg3 harg3 arg4 harg4 arg5 harg5 arg6 harg6 arg7 harg7 arg8 harg8 hc0 hc1 hc2 x0 x1 x2).1, y ∈ pc.1.set :=
  View.cover_of_tiledL (kernelRun0_B c i arg3 harg3 arg4 harg4 arg5 harg5 arg6 harg6 arg7 harg7 arg8 harg8 hc0 hc1 hc2 x0 x1 x2).1 S1024x1024.size (by sl_kernel_rfl) y
/-- The first result's block, stored where the column coordinate is not 0. -/
def out0_B_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : ¬cond0_2 i)
    (x0 : Vec F S1024x1024 .bf16) (x1 : Vec F S1024x1024 .bf16) (x2 : Vec F S1024x1024 .bf16) : Vec F S1024x1024 .bf16 :=
  VO0_3.read (Elt F) (VO0_3.writes (Elt F) VO0_3.junk (kernelRun0_B c i arg3 harg3 arg4 harg4 arg5 harg5 arg6 harg6 arg7 harg7 arg8 harg8 hc0 hc1 hc2 x0 x1 x2).1)

/-! ## Point by point -/

theorem N0_lt (t : Fin cfg0.N) : t.val < 128 := lt_of_lt_of_eq t.isLt (show cfg0.N = 128 from N_0)

/-- The point before. -/
def prev0 (t : Fin cfg0.N) : Fin cfg0.N := ⟨t.val - 1, Nat.lt_of_le_of_lt (Nat.sub_le _ _) t.isLt⟩
/-- The point of the same row tile whose column coordinate is 0. -/
def base0 (t : Fin cfg0.N) : Fin cfg0.N := ⟨t.val - t.val % 4, Nat.lt_of_le_of_lt (Nat.sub_le _ _) t.isLt⟩
theorem base0_mod (t : Fin cfg0.N) : (base0 t).val % 4 = 0 := by
  show (t.val - t.val % 4) % 4 = 0; omega
theorem hcB0_2 (t : Fin cfg0.N) (h : ¬t.val % 4 = 0) : ¬cond0_2 (grid0.coords t) := fun hh => h ((hcond0_2 t).mp hh)

/-- The first result's block after point `t`. -/
def o3At (c : Dev nD) (t : Fin cfg0.N) : Vec F S1024x1024 .bf16 :=
  if h : t.val % 4 = 0 then
    out0_A_3 c (grid0.coords t) (ms0_0 t) (hs0_0 t) (ms0_1 t) (hs0_1 t) (ms0_2 t) (hs0_2 t) (ms0_3 t) (hs0_3 t) (ms0_4 t) (hs0_4 t) scM0 (Memref.isWhole_whole _) (hcond0_0 t) (hcond0_1 t) ((hcond0_2 t).mpr h) (iblk0 V c 0 t) (iblk0 V c 1 t) (iblk0 V c 2 t)
  else
    out0_B_3 c (grid0.coords t) (ms0_0 t) (hs0_0 t) (ms0_1 t) (hs0_1 t) (ms0_2 t) (hs0_2 t) (ms0_3 t) (hs0_3 t) (ms0_4 t) (hs0_4 t) scM0 (Memref.isWhole_whole _) (hcond0_0 t) (hcond0_1 t) (hcB0_2 t h) (iblk0 V c 0 t) (iblk0 V c 1 t) (iblk0 V c 2 t)

/-- The second result's block as a point with column coordinate 0 stores it. -/
def o4A (c : Dev nD) (t : Fin cfg0.N) (h : t.val % 4 = 0) : Vec F S1024x1024 .f32 :=
  out0_A_4 c (grid0.coords t) (ms0_0 t) (hs0_0 t) (ms0_1 t) (hs0_1 t) (ms0_2 t) (hs0_2 t) (ms0_3 t) (hs0_3 t) (ms0_4 t) (hs0_4 t) scM0 (Memref.isWhole_whole _) (hcond0_0 t) (hcond0_1 t) ((hcond0_2 t).mpr h) (iblk0 V c 0 t) (iblk0 V c 1 t) (iblk0 V c 2 t)
theorem o4A_congr (c : Dev nD) {t t' : Fin cfg0.N} (e : t = t') (h : t.val % 4 = 0) (h' : t'.val % 4 = 0) :
    o4A V c t h = o4A V c t' h' := by subst e; rfl
/-- The second result's staging buffer after point `t`: what the row tile's first point stored. -/
def o4At (c : Dev nD) (t : Fin cfg0.N) : Vec F S1024x1024 .f32 := o4A V c (base0 t) (base0_mod t)
theorem o4At_prev (c : Dev nD) (t : Fin cfg0.N) (h : ¬t.val % 4 = 0) : o4At V c (prev0 t) = o4At V c t :=
  o4A_congr V c (Fin.ext (by show (t.val - 1) - (t.val - 1) % 4 = t.val - t.val % 4; omega)) _ _
theorem o4At_base (c : Dev nD) (t : Fin cfg0.N) (h : t.val % 4 = 0) : o4At V c t = o4A V c t h :=
  o4A_congr V c (Fin.ext (by show t.val - t.val % 4 = t.val; omega)) _ _

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => o3At V c t
    | ⟨4, _⟩ => o4At V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = o3At V c t := by dsimp only [dat0]
theorem after0_4 (c : Dev nD) (t : Fin cfg0.N) : (dat0 V c).after 4 t = o4At V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem noFlush0_4 (t : Fin cfg0.N) (h : ¬t.val % 4 = 3) : (cfg0.win 4).flush t = false :=
  Bool.eq_false_iff.mpr fun hf => h ((flush0_4 t).mp hf)

/-- One step back: at a point whose column coordinate is not 0 the second result's buffer holds what the point before left,
    which stored it (column coordinate 0) or itself found it (otherwise). -/
theorem before0_4_step (c : Dev nD) (t : Fin cfg0.N) (h : ¬t.val % 4 = 0) (d) :
    (dat0 V c).before 4 t d
      = if (prev0 t).val % 4 = 0 then (dat0 V c).after 4 (prev0 t) else (dat0 V c).before 4 (prev0 t) d := by
  have ht : t.val ≠ 0 := fun e => h (by rw [e])
  have hfl : (cfg0.win 4).flush (prev0 t) = false := noFlush0_4 (prev0 t) (by show ¬(t.val - 1) % 4 = 3; omega)
  rw [(dat0 V c).before_of_pos 4 t ht ((cfg0.win 4).fetch_out rfl t)]
  show (if (cfg0.win 4).flush (prev0 t) = true then d else (dat0 V c).left 4 (prev0 t) d) = _
  rw [hfl, if_neg Bool.false_ne_true]
  unfold Dat.left
  by_cases hp : (prev0 t).val % 4 = 0
  · rw [if_pos hp, liveAt0_4 (prev0 t) hp]
    show (dat0 V c).kept 4 (prev0 t) d = _
    unfold Dat.kept
    rw [Pipeline.fill_of_clip_none (cfg := cfg0) 4 _ (fun _ => rfl) d ((dat0 V c).after 4 (prev0 t)), Window.fill_cut]
  · rw [if_neg hp, idleAt0_4 (prev0 t) hp]

/-- At every point whose column coordinate is not 0, the second result's buffer holds what the row tile's first point stored. -/
theorem before0_4 (c : Dev nD) (t : Fin cfg0.N) (h : ¬t.val % 4 = 0) (d) : (dat0 V c).before 4 t d = o4At V c t := by
  have hN := N0_lt t
  have h1 : ∀ s : Fin cfg0.N, s.val % 4 = 1 → (dat0 V c).before 4 s d = o4At V c s := fun s hs => by
    rw [before0_4_step V c s (by omega) d, if_pos (by show (s.val - 1) % 4 = 0; omega), after0_4, o4At_prev V c s (by omega)]
  have h2 : ∀ s : Fin cfg0.N, s.val % 4 = 2 → (dat0 V c).before 4 s d = o4At V c s := fun s hs => by
    rw [before0_4_step V c s (by omega) d, if_neg (by show ¬(s.val - 1) % 4 = 0; omega), h1 (prev0 s) (by show (s.val - 1) % 4 = 1; omega), o4At_prev V c s (by omega)]
  have h3 : ∀ s : Fin cfg0.N, s.val % 4 = 3 → (dat0 V c).before 4 s d = o4At V c s := fun s hs => by
    rw [before0_4_step V c s (by omega) d, if_neg (by show ¬(s.val - 1) % 4 = 0; omega), h2 (prev0 s) (by show (s.val - 1) % 4 = 2; omega), o4At_prev V c s (by omega)]
  rcases (by omega : t.val % 4 = 1 ∨ t.val % 4 = 2 ∨ t.val % 4 = 3) with e | e | e
  · exact h1 t e
  · exact h2 t e
  · exact h3 t e

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl, PhiA0_eq]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN := N0_lt t
  by_cases h : t.val % 4 = 0
  · rw [show (dat0 V c).leavesExact 4 t = owns (c : Thread nD τ) (ms0_4 t) fullShare ((dat0 V c).after 4 t) from by
      unfold Dat.leavesExact; rw [liveAt0_4 t h], after0_4, o4At_base V c t h]
    rw [show o3At V c t = out0_A_3 c (grid0.coords t) (ms0_0 t) (hs0_0 t) (ms0_1 t) (hs0_1 t) (ms0_2 t) (hs0_2 t) (ms0_3 t) (hs0_3 t) (ms0_4 t) (hs0_4 t) scM0 (Memref.isWhole_whole _) (hcond0_0 t) (hcond0_1 t) ((hcond0_2 t).mpr h) (iblk0 V c 0 t) (iblk0 V c 1 t) (iblk0 V c 2 t) from dif_pos h]
    unfold o4A out0_A_3 out0_A_4; (try dsimp only)
    iintro ⟨⟨⟨HS0, Hrest⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ (hcond0_0 t) (hcond0_1 t) ((hcond0_2 t).mpr h) (iblk0 V c 0 t) (iblk0 V c 1 t) (iblk0 V c 2 t)).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, ⟨%e3, H3⟩, ⟨%e4, H4⟩, ⟨%es0, HS0⟩⟩
    isplitl [HS0 Hrest Hg]
    · isplitl [HS0 Hrest]
      · isplitl [HS0]
        · iexists _; unfold owns; iexists _; isplitr
          swap; · iexact HS0
          ipureintro; rfl
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _ _ _ _ _)
  · rw [show o3At V c t = out0_B_3 c (grid0.coords t) (ms0_0 t) (hs0_0 t) (ms0_1 t) (hs0_1 t) (ms0_2 t) (hs0_2 t) (ms0_3 t) (hs0_3 t) (ms0_4 t) (hs0_4 t) scM0 (Memref.isWhole_whole _) (hcond0_0 t) (hcond0_1 t) (hcB0_2 t h) (iblk0 V c 0 t) (iblk0 V c 1 t) (iblk0 V c 2 t) from dif_neg h]
    unfold out0_B_3; (try dsimp only)
    simp only [before0_4 V c t h]
    have hpost : iprop(owns (c : Thread nD τ) (ms0_4 t) fullShare (o4At V c t)) ⊢ (dat0 V c).leavesExact 4 t := by
      by_cases h3 : t.val % 4 = 3
      · rw [show (dat0 V c).leavesExact 4 t = owns (c : Thread nD τ) (ms0_4 t) fullShare ((dat0 V c).after 4 t) from by
          unfold Dat.leavesExact; rw [idleAt0_4 t h, (flush0_4 t).mpr h3], after0_4]
      · rw [Dat.leavesExact_idle (dat0 V c) 4 t (idleAt0_4 t h) (noFlush0_4 t h3)]
        simp only [before0_4 V c t h]
        iintro H; iexists (o4At V c t); iexact H
    iintro ⟨⟨⟨HS0, Hrest⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (hcond0_0 t) (hcond0_1 t) (hcB0_2 t h) (iblk0 V c 0 t) (iblk0 V c 1 t) (iblk0 V c 2 t)).2.2 _ Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, ⟨%es0, HS0⟩⟩
    isplitl [HS0 Hrest Hg]
    · isplitl [HS0 Hrest]
      · isplitl [HS0]
        · iexists _; unfold owns; iexists _; isplitr
          swap; · iexact HS0
          ipureintro; rfl
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _)
    iapply hpost; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Idealize.SL.BI.Entails.refl _
theorem hout0 (c : Dev nD) : (dat0 V c).Φ (Fin.last cfg0.N) ⊢ Pipeline.ΦA spec0 c := Idealize.SL.BI.Entails.refl _

end Region0

end Cert.KernelIdeal.Hand

end
-- ==== Proof.KI.Run1A.lean ====
/-
  Region 1 at the first half of the contraction: the accumulator is reset and the first half's block product added; nothing is stored into the result.
-/
import proofs.«152862_j64407329571549_2_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last store first) in each buffer it stores into, with the proof that, from whole
    memrefs holding the stated contents, the body runs to a continuation given the inputs as they were, an untouched output
    as it was, and each stored buffer with those pieces written over what it held. The pieces are found by running the body. -/
noncomputable def kernelRun1_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x2048 .bf16) (x1 : Vec F S1024x2048 .bf16) :
    { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_act_kernel i arg3 harg3 arg4 harg4 arg5 harg5 arg6 harg6) K } := by
  refine ⟨?_, fun xi2 E K => ?run⟩
  case run =>
    simp only [cc1__matmul_act_kernel_eq_skeleton]; unfold cc1__matmul_act_kernel_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Hand

end
-- ==== Proof.KI.Run1B.lean ====
/-
  Region 1 at the second half of the contraction: the second half's block product is added to what the accumulator holds, and the rectified sum is stored as the result.
-/
import proofs.«152862_j64407329571549_2_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last store first) in each buffer it stores into, with the proof that, from whole
    memrefs holding the stated contents, the body runs to a continuation given the inputs as they were, an untouched output
    as it was, and each stored buffer with those pieces written over what it held. The pieces are found by running the body. -/
noncomputable def kernelRun1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x2048 .bf16) (x1 : Vec F S1024x2048 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_act_kernel i arg3 harg3 arg4 harg4 arg5 harg5 arg6 harg6) K } := by
  refine ⟨?_, ?_, fun E K => ?run⟩
  case run =>
    simp only [cc1__matmul_act_kernel_eq_skeleton]; unfold cc1__matmul_act_kernel_skel
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact H3

end Cert.KernelIdeal.Hand

end
-- ==== Proof.KI.Region1.lean ====
/-
  Region 1 (the second matrix product, rectified): its proof data and its body obligation, at the contents `V` the region
  is entered from and at any float instance.

  The grid is (32, 4, 2), the last coordinate k the half of the contraction.  At an even point (k = 0) the accumulator is
  reset and holds the first half's block product; at the odd point that follows (k = 1) the second half's is added and the
  rectified sum is stored as the result block, which the pipeline then writes back.  So the accumulator after an even point
  depends on that point's input blocks only, and after an odd point on its own input blocks and on what the even point
  before left: no longer recursion than that.
-/
import proofs.«152862_j64407329571549_2_alg».proof.Proof.KI.Run1A
import proofs.«152862_j64407329571549_2_alg».proof.Proof.KI.Run1B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the result window, through which its contents are stated (the choice does not matter). -/
abbrev VO1 : View sig .tc .vmem S1024x1024 .bf16 := (Memref.whole cc1_stg2_0 : Memref sig .tc .vmem S1024x1024 .bf16).view
/-- The accumulator as a view. -/
abbrev VS1 : View sig .tc .vmem S1024x1024 .f32 := scM1.view

/-! ## What each case leaves -/

theorem scover1_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x2048 .bf16) (x1 : Vec F S1024x2048 .bf16) (y : S1024x1024.Idx) :
    ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S1024x1024.size (by sl_kernel_rfl) y

/-- What the first half leaves in the accumulator: its pieces read back. -/
def sout1_A (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x2048 .bf16) (x1 : Vec F S1024x2048 .bf16) : Vec F S1024x1024 .f32 :=
  VS1.read (Elt F) (VS1.writes (Elt F) VS1.junk (kernelRun1_A c i arg3 harg3 arg4 harg4 arg5 harg5 arg6 harg6 hc0 hc1 x0 x1).1)

theorem cover1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x2048 .bf16) (x1 : Vec F S1024x2048 .bf16) (xs0 : Vec F S1024x1024 .f32) (y : S1024x1024.Idx) :
    ∃ pc ∈ (kernelRun1_B c i arg3 harg3 arg4 harg4 arg5 harg5 arg6 harg6 hc0 hc1 x0 x1 xs0).1, y ∈ pc.1.set :=
  View.cover_of_tiledL (kernelRun1_B c i arg3 harg3 arg4 harg4 arg5 harg5 arg6 harg6 hc0 hc1 x0 x1 xs0).1 S1024x1024.size (by sl_kernel_rfl) y

/-- What the second half leaves in the result's staging buffer. -/
def out1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x2048 .bf16) (x1 : Vec F S1024x2048 .bf16) (xs0 : Vec F S1024x1024 .f32) : Vec F S1024x1024 .bf16 :=
  VO1.read (Elt F) (VO1.writes (Elt F) VO1.junk (kernelRun1_B c i arg3 harg3 arg4 harg4 arg5 harg5 arg6 harg6 hc0 hc1 x0 x1 xs0).1)

theorem scover1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x2048 .bf16) (x1 : Vec F S1024x2048 .bf16) (xs0 : Vec F S1024x1024 .f32) (y : S1024x1024.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x1024.size (by sl_kernel_rfl) y

/-- What the second half leaves in the accumulator. -/
def sout1_B (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x2048 .bf16) (x1 : Vec F S1024x2048 .bf16) (xs0 : Vec F S1024x1024 .f32) : Vec F S1024x1024 .f32 :=
  VS1.read (Elt F) (VS1.writes (Elt F) VS1.junk (kernelRun1_B c i arg3 harg3 arg4 harg4 arg5 harg5 arg6 harg6 hc0 hc1 x0 x1 xs0).2.1)

/-! ## Point by point -/

theorem N1_lt (t : Fin cfg1.N) : t.val < 256 := lt_of_lt_of_eq t.isLt (show cfg1.N = 256 from N_1)

/-- The point before. -/
def prev1 (t : Fin cfg1.N) : Fin cfg1.N := ⟨t.val - 1, Nat.lt_of_le_of_lt (Nat.sub_le _ _) t.isLt⟩

theorem hcA1_1 (t : Fin cfg1.N) (h : t.val % 2 = 0) : ¬cond1_1 (grid1.coords t) := fun hh => by
  have := (hcond1_1 t).mp hh; omega
theorem hcB1_0 (t : Fin cfg1.N) (h : ¬t.val % 2 = 0) : ¬cond1_0 (grid1.coords t) := fun hh => h ((hcond1_0 t).mp hh)
theorem hcB1_1 (t : Fin cfg1.N) (h : ¬t.val % 2 = 0) : cond1_1 (grid1.coords t) := (hcond1_1 t).mpr (by omega)
theorem prev1_even (t : Fin cfg1.N) (h : ¬t.val % 2 = 0) : (prev1 t).val % 2 = 0 := by
  show (t.val - 1) % 2 = 0; omega

/-- The accumulator after an even point: the first half's block product of the point's blocks. -/
def sA1 (c : Dev nD) (t : Fin cfg1.N) (h : t.val % 2 = 0) : Vec F S1024x1024 .f32 :=
  sout1_A c (grid1.coords t) (ms1_0 t) (hs1_0 t) (ms1_1 t) (hs1_1 t) (ms1_2 t) (hs1_2 t) scM1 (Memref.isWhole_whole _)
    ((hcond1_0 t).mpr h) (hcA1_1 t h) (iblk1 V c 0 t) (iblk1 V c 1 t)

/-- The accumulator after an odd point: the second half's added to what the even point before left. -/
def sB1 (c : Dev nD) (t : Fin cfg1.N) (h : ¬t.val % 2 = 0) : Vec F S1024x1024 .f32 :=
  sout1_B c (grid1.coords t) (ms1_0 t) (hs1_0 t) (ms1_1 t) (hs1_1 t) (ms1_2 t) (hs1_2 t) scM1 (Memref.isWhole_whole _)
    (hcB1_0 t h) (hcB1_1 t h) (iblk1 V c 0 t) (iblk1 V c 1 t) (sA1 V c (prev1 t) (prev1_even t h))

/-- The result block an odd point stores. -/
def oB1 (c : Dev nD) (t : Fin cfg1.N) (h : ¬t.val % 2 = 0) : Vec F S1024x1024 .bf16 :=
  out1_B c (grid1.coords t) (ms1_0 t) (hs1_0 t) (ms1_1 t) (hs1_1 t) (ms1_2 t) (hs1_2 t) scM1 (Memref.isWhole_whole _)
    (hcB1_0 t h) (hcB1_1 t h) (iblk1 V c 0 t) (iblk1 V c 1 t) (sA1 V c (prev1 t) (prev1_even t h))

/-- The accumulator after point `t`. -/
def sAt1 (c : Dev nD) (t : Fin cfg1.N) : Vec F S1024x1024 .f32 :=
  if h : t.val % 2 = 0 then sA1 V c t h else sB1 V c t h

/-- The result's staging buffer after point `t` (at an even point the body does not touch it and the pipeline neither
    writes it back nor reads it: a placeholder nothing consults). -/
def oAt1 (c : Dev nD) (t : Fin cfg1.N) : Vec F S1024x1024 .bf16 :=
  if h : t.val % 2 = 0 then VO1.read (Elt F) (VO1.writes (Elt F) VO1.junk []) else oB1 V c t h

/-- The region invariant before position `n`: the library's class invariant before the first point; afterwards the
    accumulator at what the point before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare (sAt1 V c ⟨n, hn⟩) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (sAt1 V c ⟨n, hn⟩) ∗ rest1 c) ∗ (∃ r, prngReg c r)) := rfl
theorem PhiS1_pos (c : Dev nD) (t : Fin cfg1.N) (hz : t.val ≠ 0) :
    PhiS1 V c t.val (Nat.le_of_lt t.isLt) = iprop(iprop(owns (c : Thread nD τ) scM1 fullShare (sAt1 V c (prev1 t)) ∗ rest1 c) ∗ (∃ r, prngReg c r)) := by
  obtain ⟨n, hn⟩ := t
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => oAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = oAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN := N1_lt t
  by_cases h : t.val % 2 = 0
  · rw [Dat.leavesExact_idle (dat1 V c) 2 t (idleAt1_2 t h) (noFlush1_2 t h)]
    rw [show sAt1 V c ⟨t.val, t.isLt⟩ = sA1 V c t h from dif_pos h]
    unfold sA1 sout1_A; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h) (hcA1_1 t h) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c t hz]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h) (hcA1_1 t h) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A c _ _ _ _ _ _ _ _ _ _ _ _ _)
          iexact Hrest
        iexact Hg
      isplitl [Ho]; · iexact Ho
      isplitl [H0]; · iexact H0
      isplitl [H1]; · iexact H1
      iexists _; iexact H2
  · rw [show (dat1 V c).leavesExact 2 t = owns (c : Thread nD τ) (ms1_2 t) fullShare ((dat1 V c).after 2 t) from by
      unfold Dat.leavesExact; rw [liveAt1_2 t (by omega)], after1_2]
    rw [show oAt1 V c t = oB1 V c t h from dif_neg h]
    rw [show sAt1 V c ⟨t.val, t.isLt⟩ = sB1 V c t h from dif_neg h]
    unfold sB1 oB1 sout1_B out1_B; (try dsimp only)
    have hz : t.val ≠ 0 := fun e => h (by rw [e])
    rw [PhiS1_castSucc V c t, PhiS1_pos V c t hz]
    rw [show sAt1 V c (prev1 t) = sA1 V c (prev1 t) (prev1_even t h) from dif_pos (prev1_even t h)]
    iintro ⟨⟨⟨HS0, Hrest⟩, Hg⟩, Ho, ⟨%d0, H0⟩, ⟨%d1, H1⟩, ⟨%d2, H2⟩⟩
    iapply ((kernelRun1_B c (grid1.coords t) _ _ _ _ _ _ _ _ (hcB1_0 t h) (hcB1_1 t h) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover1_B c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: the accumulator's contents are forgotten. -/
theorem PhiS1_out (c : Dev nD) (n : ℕ) (h : n ≤ cfg1.N) (hz : n ≠ 0) : PhiS1 V c n h ⊢ Pipeline.ΦA spec1 c := by
  cases n with
  | zero => exact absurd rfl hz
  | succ k =>
    rw [PhiS1_succ, PhiA1_eq]
    iintro ⟨⟨HS0, Hrest⟩, Hg⟩
    isplitl [HS0 Hrest]
    · isplitl [HS0]
      · iexists _; iexact HS0
      iexact Hrest
    iexact Hg

theorem hout1 (c : Dev nD) : (dat1 V c).Φ (Fin.last cfg1.N) ⊢ Pipeline.ΦA spec1 c :=
  PhiS1_out V c (Fin.last cfg1.N).val (Nat.le_of_lt_succ (Fin.last cfg1.N).isLt) (by
    have hN : cfg1.N = 256 := N_1
    rw [Fin.val_last]; omega)

end Region1

end Cert.KernelIdeal.Hand

end
-- ==== Proof.KI.Run2A.lean ====
/-
  Region 2 at the first half of the contraction: the accumulator is reset and the first half's block product added; the residual, the scale and the shift are not read and nothing is stored into the result.
-/
import proofs.«152862_j64407329571549_2_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last store first) in each buffer it stores into, with the proof that, from whole
    memrefs holding the stated contents, the body runs to a continuation given the inputs as they were, an untouched output
    as it was, and each stored buffer with those pieces written over what it held. The pieces are found by running the body. -/
noncomputable def kernelRun2_A (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond2_0 i) (hc1 : ¬cond2_1 i)
    (x0 : Vec F S512x2048 .bf16) (x1 : Vec F S1024x2048 .bf16) (x2 : Vec F S512x1024 .f32) (x3 : Vec F S1x1024 .f32) (x4 : Vec F S1x1024 .f32) :
    { LS0 : List (View.Piece (Elt F) S512x1024 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__stageC_kernel i arg2 harg2 arg3 harg3 arg4 harg4 arg5 harg5 arg6 harg6 arg7 harg7 arg8 harg8) K } := by
  refine ⟨?_, fun xi5 E K => ?run⟩
  case run =>
    simp only [cc2__stageC_kernel_eq_skeleton]; unfold cc2__stageC_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Hand

end
-- ==== Proof.KI.Run2B.lean ====
/-
  Region 2 at the second half of the contraction: the second half's block product is added to what the accumulator holds, the residual is added, and the layer norm of each row of the sum, scaled and shifted, is stored as the result.
-/
import proofs.«152862_j64407329571549_2_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last store first) in each buffer it stores into, with the proof that, from whole
    memrefs holding the stated contents, the body runs to a continuation given the inputs as they were, an untouched output
    as it was, and each stored buffer with those pieces written over what it held. The pieces are found by running the body. -/
noncomputable def kernelRun2_B (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond2_0 i) (hc1 : cond2_1 i)
    (x0 : Vec F S512x2048 .bf16) (x1 : Vec F S1024x2048 .bf16) (x2 : Vec F S512x1024 .f32) (x3 : Vec F S1x1024 .f32) (x4 : Vec F S1x1024 .f32) (xs0 : Vec F S512x1024 .f32) :
    Σ' (L5 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2__stageC_kernel i arg2 harg2 arg3 harg3 arg4 harg4 arg5 harg5 arg6 harg6 arg7 harg7 arg8 harg8) K } := by
  refine ⟨?_, ?_, fun E K => ?run⟩
  case run =>
    simp only [cc2__stageC_kernel_eq_skeleton]; unfold cc2__stageC_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.KernelIdeal.Hand

end
-- ==== Proof.KI.Region2.lean ====
/-
  Region 2 (the third matrix product, the residual and the layer norm): its proof data and its body obligation, at the
  contents `V` the region is entered from and at any float instance.

  The grid is (64, 2), the last coordinate k the half of the contraction.  At an even point (k = 0) the accumulator is reset
  and holds the first half's block product; at the odd point that follows the second half's is added, the residual block is
  added to the sum, and each row's layer norm, scaled and shifted, is stored as the result block, which the pipeline then
  writes back.  The residual, the scale and the shift are input windows: the body leaves them as it finds them.
-/
import proofs.«152862_j64407329571549_2_alg».proof.Proof.KI.Run2A
import proofs.«152862_j64407329571549_2_alg».proof.Proof.KI.Run2B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- One staging buffer of the result window, through which its contents are stated (the choice does not matter). -/
abbrev VO2 : View sig .tc .vmem S512x1024 .f32 := (Memref.whole cc2_stg5_0 : Memref sig .tc .vmem S512x1024 .f32).view
/-- The accumulator as a view. -/
abbrev VS2 : View sig .tc .vmem S512x1024 .f32 := scM2.view

/-! ## What each case leaves -/

theorem scover2_A (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond2_0 i) (hc1 : ¬cond2_1 i)
    (x0 : Vec F S512x2048 .bf16) (x1 : Vec F S1024x2048 .bf16) (x2 : Vec F S512x1024 .f32) (x3 : Vec F S1x1024 .f32) (x4 : Vec F S1x1024 .f32) (y : S512x1024.Idx) :
    ∃ pc ∈ (kernelRun2_A c i arg2 harg2 arg3 harg3 arg4 harg4 arg5 harg5 arg6 harg6 arg7 harg7 arg8 harg8 hc0 hc1 x0 x1 x2 x3 x4).1, y ∈ pc.1.set :=
  View.cover_of_tiledL (kernelRun2_A c i arg2 harg2 arg3 harg3 arg4 harg4 arg5 harg5 arg6 harg6 arg7 harg7 arg8 harg8 hc0 hc1 x0 x1 x2 x3 x4).1 S512x1024.size (by sl_kernel_rfl) y

/-- What the first half leaves in the accumulator: its pieces read back. -/
def sout2_A (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond2_0 i) (hc1 : ¬cond2_1 i)
    (x0 : Vec F S512x2048 .bf16) (x1 : Vec F S1024x2048 .bf16) (x2 : Vec F S512x1024 .f32) (x3 : Vec F S1x1024 .f32) (x4 : Vec F S1x1024 .f32) : Vec F S512x1024 .f32 :=
  VS2.read (Elt F) (VS2.writes (Elt F) VS2.junk (kernelRun2_A c i arg2 harg2 arg3 harg3 arg4 harg4 arg5 harg5 arg6 harg6 arg7 harg7 arg8 harg8 hc0 hc1 x0 x1 x2 x3 x4).1)

theorem cover2_B (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond2_0 i) (hc1 : cond2_1 i)
    (x0 : Vec F S512x2048 .bf16) (x1 : Vec F S1024x2048 .bf16) (x2 : Vec F S512x1024 .f32) (x3 : Vec F S1x1024 .f32) (x4 : Vec F S1x1024 .f32) (xs0 : Vec F S512x1024 .f32) (y : S512x1024.Idx) :
    ∃ pc ∈ (kernelRun2_B c i arg2 harg2 arg3 harg3 arg4 harg4 arg5 harg5 arg6 harg6 arg7 harg7 arg8 harg8 hc0 hc1 x0 x1 x2 x3 x4 xs0).1, y ∈ pc.1.set :=
  View.cover_of_tiledL (kernelRun2_B c i arg2 harg2 arg3 harg3 arg4 harg4 arg5 harg5 arg6 harg6 arg7 harg7 arg8 harg8 hc0 hc1 x0 x1 x2 x3 x4 xs0).1 S512x1024.size (by sl_kernel_rfl) y

/-- What the second half leaves in the result's staging buffer. -/
def out2_B (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond2_0 i) (hc1 : cond2_1 i)
    (x0 : Vec F S512x2048 .bf16) (x1 : Vec F S1024x2048 .bf16) (x2 : Vec F S512x1024 .f32) (x3 : Vec F S1x1024 .f32) (x4 : Vec F S1x1024 .f32) (xs0 : Vec F S512x1024 .f32) : Vec F S512x1024 .f32 :=
  VO2.read (Elt F) (VO2.writes (Elt F) VO2.junk (kernelRun2_B c i arg2 harg2 arg3 harg3 arg4 harg4 arg5 harg5 arg6 harg6 arg7 harg7 arg8 harg8 hc0 hc1 x0 x1 x2 x3 x4 xs0).1)

theorem scover2_B (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond2_0 i) (hc1 : cond2_1 i)
    (x0 : Vec F S512x2048 .bf16) (x1 : Vec F S1024x2048 .bf16) (x2 : Vec F S512x1024 .f32) (x3 : Vec F S1x1024 .f32) (x4 : Vec F S1x1024 .f32) (xs0 : Vec F S512x1024 .f32) (y : S512x1024.Idx) :
    ∃ pc ∈ (kernelRun2_B c i arg2 harg2 arg3 harg3 arg4 harg4 arg5 harg5 arg6 harg6 arg7 harg7 arg8 harg8 hc0 hc1 x0 x1 x2 x3 x4 xs0).2.1, y ∈ pc.1.set :=
  View.cover_of_tiledL (kernelRun2_B c i arg2 harg2 arg3 harg3 arg4 harg4 arg5 harg5 arg6 harg6 arg7 harg7 arg8 harg8 hc0 hc1 x0 x1 x2 x3 x4 xs0).2.1 S512x1024.size (by sl_kernel_rfl) y

/-- What the second half leaves in the accumulator. -/
def sout2_B (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond2_0 i) (hc1 : cond2_1 i)
    (x0 : Vec F S512x2048 .bf16) (x1 : Vec F S1024x2048 .bf16) (x2 : Vec F S512x1024 .f32) (x3 : Vec F S1x1024 .f32) (x4 : Vec F S1x1024 .f32) (xs0 : Vec F S512x1024 .f32) : Vec F S512x1024 .f32 :=
  VS2.read (Elt F) (VS2.writes (Elt F) VS2.junk (kernelRun2_B c i arg2 harg2 arg3 harg3 arg4 harg4 arg5 harg5 arg6 harg6 arg7 harg7 arg8 harg8 hc0 hc1 x0 x1 x2 x3 x4 xs0).2.1)

/-! ## Point by point -/

theorem N2_lt (t : Fin cfg2.N) : t.val < 128 := lt_of_lt_of_eq t.isLt (show cfg2.N = 128 from N_2)

/-- The point before. -/
def prev2 (t : Fin cfg2.N) : Fin cfg2.N := ⟨t.val - 1, Nat.lt_of_le_of_lt (Nat.sub_le _ _) t.isLt⟩

theorem hcA2_1 (t : Fin cfg2.N) (h : t.val % 2 = 0) : ¬cond2_1 (grid2.coords t) := fun hh => by
  have := (hcond2_1 t).mp hh; omega
theorem hcB2_0 (t : Fin cfg2.N) (h : ¬t.val % 2 = 0) : ¬cond2_0 (grid2.coords t) := fun hh => h ((hcond2_0 t).mp hh)
theorem hcB2_1 (t : Fin cfg2.N) (h : ¬t.val % 2 = 0) : cond2_1 (grid2.coords t) := (hcond2_1 t).mpr (by omega)
theorem prev2_even (t : Fin cfg2.N) (h : ¬t.val % 2 = 0) : (prev2 t).val % 2 = 0 := by
  show (t.val - 1) % 2 = 0; omega

/-- The accumulator after an even point: the first half's block product of the point's blocks. -/
def sA2 (c : Dev nD) (t : Fin cfg2.N) (h : t.val % 2 = 0) : Vec F S512x1024 .f32 :=
  sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
    ((hcond2_0 t).mpr h) (hcA2_1 t h) (iblk2 V c 0 t) (iblk2 V c 1 t) (iblk2 V c 2 t) (iblk2 V c 3 t) (iblk2 V c 4 t)

/-- The accumulator after an odd point: the second half's added to what the even point before left. -/
def sB2 (c : Dev nD) (t : Fin cfg2.N) (h : ¬t.val % 2 = 0) : Vec F S512x1024 .f32 :=
  sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
    (hcB2_0 t h) (hcB2_1 t h) (iblk2 V c 0 t) (iblk2 V c 1 t) (iblk2 V c 2 t) (iblk2 V c 3 t) (iblk2 V c 4 t) (sA2 V c (prev2 t) (prev2_even t h))

/-- The result block an odd point stores. -/
def oB2 (c : Dev nD) (t : Fin cfg2.N) (h : ¬t.val % 2 = 0) : Vec F S512x1024 .f32 :=
  out2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
    (hcB2_0 t h) (hcB2_1 t h) (iblk2 V c 0 t) (iblk2 V c 1 t) (iblk2 V c 2 t) (iblk2 V c 3 t) (iblk2 V c 4 t) (sA2 V c (prev2 t) (prev2_even t h))

/-- The accumulator after point `t`. -/
def sAt2 (c : Dev nD) (t : Fin cfg2.N) : Vec F S512x1024 .f32 :=
  if h : t.val % 2 = 0 then sA2 V c t h else sB2 V c t h

/-- The result's staging buffer after point `t` (at an even point the body does not touch it and the pipeline neither
    writes it back nor reads it: a placeholder nothing consults). -/
def oAt2 (c : Dev nD) (t : Fin cfg2.N) : Vec F S512x1024 .f32 :=
  if h : t.val % 2 = 0 then VO2.read (Elt F) (VO2.writes (Elt F) VO2.junk []) else oB2 V c t h

/-- The region invariant before position `n`: the library's class invariant before the first point; afterwards the
    accumulator at what the point before left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2 fullShare (sAt2 V c ⟨n, hn⟩) ∗ rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (sAt2 V c ⟨n, hn⟩) ∗ rest2 c) ∗ (∃ r, prngReg c r)) := rfl
theorem PhiS2_pos (c : Dev nD) (t : Fin cfg2.N) (hz : t.val ≠ 0) :
    PhiS2 V c t.val (Nat.le_of_lt t.isLt) = iprop(iprop(owns (c : Thread nD τ) scM2 fullShare (sAt2 V c (prev2 t)) ∗ rest2 c) ∗ (∃ r, prngReg c r)) := by
  obtain ⟨n, hn⟩ := t
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => oAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = oAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  have hN := N2_lt t
  by_cases h : t.val % 2 = 0
  · rw [Dat.leavesExact_idle (dat2 V c) 5 t (idleAt2_5 t h) (noFlush2_5 t h)]
    rw [show sAt2 V c ⟨t.val, t.isLt⟩ = sA2 V c t h from dif_pos h]
    unfold sA2 sout2_A; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h) (hcA2_1 t h) (iblk2 V c 0 t) (iblk2 V c 1 t) (iblk2 V c 2 t) (iblk2 V c 3 t) (iblk2 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c t hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h) (hcA2_1 t h) (iblk2 V c 0 t) (iblk2 V c 1 t) (iblk2 V c 2 t) (iblk2 V c 3 t) (iblk2 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · rw [show (dat2 V c).leavesExact 5 t = owns (c : Thread nD τ) (ms2_5 t) fullShare ((dat2 V c).after 5 t) from by
      unfold Dat.leavesExact; rw [liveAt2_5 t (by omega)], after2_5]
    rw [show oAt2 V c t = oB2 V c t h from dif_neg h]
    rw [show sAt2 V c ⟨t.val, t.isLt⟩ = sB2 V c t h from dif_neg h]
    unfold sB2 oB2 sout2_B out2_B; (try dsimp only)
    have hz : t.val ≠ 0 := fun e => h (by rw [e])
    rw [PhiS2_castSucc V c t, PhiS2_pos V c t hz]
    rw [show sAt2 V c (prev2 t) = sA2 V c (prev2 t) (prev2_even t h) from dif_pos (prev2_even t h)]
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun2_B c (grid2.coords t) _ _ _ _ _ _ _ _ _ _ _ _ _ _ (hcB2_0 t h) (hcB2_1 t h) (iblk2 V c 0 t) (iblk2 V c 1 t) (iblk2 V c 2 t) (iblk2 V c 3 t) (iblk2 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_B c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover2_B c _ _ _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class invariant back: the accumulator's contents are forgotten. -/
theorem PhiS2_out (c : Dev nD) (n : ℕ) (h : n ≤ cfg2.N) (hz : n ≠ 0) : PhiS2 V c n h ⊢ Pipeline.ΦA spec2 c := by
  cases n with
  | zero => exact absurd rfl hz
  | succ k =>
    rw [PhiS2_succ, PhiA2_eq]
    iintro ⟨⟨HS0, Hrest⟩, Hg⟩
    isplitl [HS0 Hrest]
    · isplitl [HS0]
      · iexists _; iexact HS0
      iexact Hrest
    iexact Hg

theorem hout2 (c : Dev nD) : (dat2 V c).Φ (Fin.last cfg2.N) ⊢ Pipeline.ΦA spec2 c :=
  PhiS2_out V c (Fin.last cfg2.N).val (Nat.le_of_lt_succ (Fin.last cfg2.N).isLt) (by
    have hN : cfg2.N = 128 := N_2
    rw [Fin.val_last]; omega)

end Region2

end Cert.KernelIdeal.Hand

end
-- ==== Proof.KI.Main.lean ====
/-
  The whole program's run, at any float instance: @main is six segments — the host operations that scale and convert the
  weights and flatten the activations, region 0, region 1, two reshapes, region 2, a last reshape — and every weakly fair
  execution runs them to the end, leaving every unscoped buffer at the contents the fold below names: after a host stretch
  what its operations compute, after a region its windows' arrays at what the region's proof data say the write-backs
  leave and every other buffer as it was.
-/
import proofs.«152862_j64407329571549_2_alg».proof.Proof.KI.Region0
import proofs.«152862_j64407329571549_2_alg».proof.Proof.KI.Region1
import proofs.«152862_j64407329571549_2_alg».proof.Proof.KI.Region2
import proofs.«152862_j64407329571549_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Main

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit, which is region 1's entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the two reshapes of the layer norm's scale and shift: region 2's entry. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At region 2's exit. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the last reshape: the end. -/
abbrev W6 : Dev nD → Valuation τ sig (Elt F) := fun c => StableHlo.after hostOps3 (W5 m ρ c)

/-! ## The proof data family and the thread state -/

abbrev adm : (p : Fin 3) → (pcfgs (F := F) p).Adm := fun p => (cfgs p).toPCfg_adm
/-- Every region's proof data, each at its region's entry contents: a literal match on the region. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`.  Its windows' arrays are
    split out of the unscoped buffers and put back at their final contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`.  Its windows' arrays are
    split out of the unscoped buffers and put back at their final contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`.  Its windows' arrays are
    split out of the unscoped buffers and put back at their final contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine BIBase.Entails.trans (hout2 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates, nothing
    faulting, and every final state holds every unscoped buffer at the contents the fold names (`W6`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Main

end Cert.KernelIdeal.Hand

end
-- ==== Proof.KI.Frame.lean ====
/-
  The frame: every argument array ends holding what it was launched with.  No host operation writes an argument (each
  writes only its own result buffer) and no argument is a window's array of any region (the regions read the arguments
  only through the converted, flattened or scaled copies the first host stretch makes), so the contents the run leaves at
  an argument's buffer walk back, segment by segment, to the launch memory.
-/
import proofs.«152862_j64407329571549_2_alg».proof.Proof.KI.Main

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Frame

variable (m : (ℓ : Loc nD τ sig) → Buf (Elt F) ℓ) (ρ : Dev nD → PrngReg)

theorem W1_of (c : Dev nD) (b : Ref sig .tc) (h : b ∉ hostOps0_W) : W1 m ρ c b = W0 m ρ c b :=
  StableHlo.after_of_writes_sub hostOps0 _ hostOps0_writes h
theorem W4_of (c : Dev nD) (b : Ref sig .tc) (h : b ∉ hostOps2_W) : W4 m ρ c b = W3 m ρ c b :=
  StableHlo.after_of_writes_sub hostOps2 _ hostOps2_writes h
theorem W6_of (c : Dev nD) (b : Ref sig .tc) (h : b ∉ hostOps3_W) : W6 m ρ c b = W5 m ρ c b :=
  StableHlo.after_of_writes_sub hostOps3 _ hostOps3_writes h

/-- A buffer that no host stretch writes and no region has as a window's array ends as launched. -/
theorem W6_launch (c : Dev nD) (b : Ref sig .tc) (h0 : b ∉ hostOps0_W) (h2 : b ∉ hostOps2_W) (h3 : b ∉ hostOps3_W)
    (a0 : ∀ w, Pipeline.arrRef spec0 w ≠ b) (a1 : ∀ w, Pipeline.arrRef spec1 w ≠ b) (a2 : ∀ w, Pipeline.arrRef spec2 w ≠ b) :
    W6 m ρ c (Proc.devRef .tc b) = m ((c : Thread nD τ).loc b) :=
  calc W6 m ρ c (Proc.devRef .tc b)
    _ = W5 m ρ c (Proc.devRef .tc b) := W6_of m ρ c b h3
    _ = W4 m ρ c (Proc.devRef .tc b) := W5_of_ne m ρ c b a2
    _ = W3 m ρ c (Proc.devRef .tc b) := W4_of m ρ c b h2
    _ = W2 m ρ c (Proc.devRef .tc b) := W3_of_ne m ρ c b a1
    _ = W1 m ρ c (Proc.devRef .tc b) := W2_of_ne m ρ c b a0
    _ = W0 m ρ c (Proc.devRef .tc b) := W1_of m ρ c b h0
    _ = m ((c : Thread nD τ).loc b) := rfl

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W6_launch m ρ c main_arg0 (by decide) (by decide) (by decide) (by decide) (by decide) (by decide)),
     (h c _ (mem_uc main_arg1 (by decide))).trans (W6_launch m ρ c main_arg1 (by decide) (by decide) (by decide) (by decide) (by decide) (by decide)),
     (h c _ (mem_uc main_arg2 (by decide))).trans (W6_launch m ρ c main_arg2 (by decide) (by decide) (by decide) (by decide) (by decide) (by decide)),
     (h c _ (mem_uc main_arg3 (by decide))).trans (W6_launch m ρ c main_arg3 (by decide) (by decide) (by decide) (by decide) (by decide) (by decide)),
     (h c _ (mem_uc main_arg4 (by decide))).trans (W6_launch m ρ c main_arg4 (by decide) (by decide) (by decide) (by decide) (by decide) (by decide)),
     (h c _ (mem_uc main_arg5 (by decide))).trans (W6_launch m ρ c main_arg5 (by decide) (by decide) (by decide) (by decide) (by decide) (by decide)),
     (h c _ (mem_uc main_arg6 (by decide))).trans (W6_launch m ρ c main_arg6 (by decide) (by decide) (by decide) (by decide) (by decide) (by decide)),
     (h c _ (mem_uc main_arg7 (by decide))).trans (W6_launch m ρ c main_arg7 (by decide) (by decide) (by decide) (by decide) (by decide) (by decide)),
     (h c _ (mem_uc main_arg8 (by decide))).trans (W6_launch m ρ c main_arg8 (by decide) (by decide) (by decide) (by decide) (by decide) (by decide)),
     (h c _ (mem_uc main_arg9 (by decide))).trans (W6_launch m ρ c main_arg9 (by decide) (by decide) (by decide) (by decide) (by decide) (by decide)),
     (h c _ (mem_uc main_arg10 (by decide))).trans (W6_launch m ρ c main_arg10 (by decide) (by decide) (by decide) (by decide) (by decide) (by decide))⟩)
    (run_all m ρ)

end Frame

end Cert.KernelIdeal.Hand

end
-- ==== Proof.Spec.lean ====
/-
  The mathematical content of the certificate, stated once as plain functions on extended reals over literal index
  types, so that the kernel's side and the reference's side can each be proved equal to the SAME term.

  Notation.  x is the activation array [8, 4096, 1024]; its 32768 rows are numbered r = b * 4096 + t.  Dl [4096, 1024],
  D1 and D2 [1024, 1024] are the three block-scaled weight matrices AFTER the scales have been multiplied in (both
  programs compute them by the same chain of host operations, so they are carried here as opaque arrays), Wc1 [4096, 4096]
  and Wc2 [1024, 4096] the two dense weights, γ and β the layer norm's scale and shift.

    big1[r, o] = max (Σ_h x[r, h] · Dl[o, h]) 0                       o < 4096, h < 1024
    big2[r, o] = max (Σ_l big1[r, l] · Wc1[o, l]) 0                   o, l < 4096
    big3[r, h] = Σ_l big2[r, l] · Wc2[h, l]                            h < 1024, l < 4096
    ssum[r, s] = Σ_h x[r, h] · (D1[s, h] + D2[s, h])                   s, h < 1024
    z[r, ·]    = big3[r, ·] + ssum[r, ·]
    out[b, t, h] = ((z[r, h] − μ) · rsqrt (σ² + ε)) · γ[h] + β[h],   μ = (Σ_k z[r, k]) / 1024,  σ² = (Σ_k (z[r, k] − μ)²) / 1024.

  The divisor 1024 and ε are kept as the extended reals their float words denote: the same two words stand in both
  programs, so they are never evaluated.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![8, 4096, 1024]⟩
abbrev SL : Shape := ⟨2, ![4096, 1024]⟩
abbrev SS : Shape := ⟨2, ![1024, 1024]⟩
abbrev SC1 : Shape := ⟨2, ![4096, 4096]⟩
abbrev SC2 : Shape := ⟨2, ![1024, 4096]⟩
abbrev SV : Shape := ⟨1, ![1024]⟩

/-- The divisor of both means: the extended real the f32 word of 1024.0 denotes. -/
def c1024 : EReal := Ideal.ofBits .f32 0x44800000#32
/-- The layer norm's ε: the extended real the f32 word 0x3727C5AC (the float nearest 1e-5) denotes. -/
def ceps : EReal := Ideal.ofBits .f32 0x3727C5AC#32

/-- Row r = b · 4096 + t of the activations, as the pair (b, t). -/
def rowB (r : Fin 32768) : Fin 8 := ⟨r.val / 4096, by have := r.isLt; omega⟩
def rowT (r : Fin 32768) : Fin 4096 := ⟨r.val % 4096, Nat.mod_lt _ (by decide)⟩

/-- The activations as a matrix of 32768 rows. -/
def xrow (x : SX.Idx → EReal) (r : Fin 32768) (h : Fin 1024) : EReal := x (ix3 (rowB r) (rowT r) h)

def big1 (x : SX.Idx → EReal) (Dl : SL.Idx → EReal) (r : Fin 32768) (o : Fin 4096) : EReal :=
  max (∑ h : Fin 1024, xrow x r h * Dl (ix2 o h)) 0

def big2 (x : SX.Idx → EReal) (Dl : SL.Idx → EReal) (Wc1 : SC1.Idx → EReal) (r : Fin 32768) (o : Fin 4096) : EReal :=
  max (∑ l : Fin 4096, big1 x Dl r l * Wc1 (ix2 o l)) 0

def big3 (x : SX.Idx → EReal) (Dl : SL.Idx → EReal) (Wc1 : SC1.Idx → EReal) (Wc2 : SC2.Idx → EReal)
    (r : Fin 32768) (h : Fin 1024) : EReal :=
  ∑ l : Fin 4096, big2 x Dl Wc1 r l * Wc2 (ix2 h l)

/-- The two small branches merged: one product against the SUM of the two scaled weight matrices. -/
def ssum (x : SX.Idx → EReal) (D1 D2 : SS.Idx → EReal) (r : Fin 32768) (s : Fin 1024) : EReal :=
  ∑ h : Fin 1024, xrow x r h * (D1 (ix2 s h) + D2 (ix2 s h))

/-- The layer norm's input, one row. -/
def zrow (x : SX.Idx → EReal) (Dl : SL.Idx → EReal) (D1 D2 : SS.Idx → EReal) (Wc1 : SC1.Idx → EReal) (Wc2 : SC2.Idx → EReal)
    (r : Fin 32768) (h : Fin 1024) : EReal :=
  big3 x Dl Wc1 Wc2 r h + ssum x D1 D2 r h

/-- The mean of a row of 1024 entries. -/
def mean (v : Fin 1024 → EReal) : EReal := Ideal.div (∑ k : Fin 1024, v k) c1024

/-- Layer norm of one row, at column h. -/
def lnorm (v : Fin 1024 → EReal) (γ β : SV.Idx → EReal) (h : Fin 1024) : EReal :=
  ((v h - mean v) * Ideal.rsqrt (mean (fun k => (v k - mean v) * (v k - mean v)) + ceps)) * γ (ix1 h) + β (ix1 h)

/-- The whole result, as a function of the argument arrays (the three scaled weights already formed). -/
def out (x : SX.Idx → EReal) (Dl : SL.Idx → EReal) (D1 D2 : SS.Idx → EReal) (Wc1 : SC1.Idx → EReal) (Wc2 : SC2.Idx → EReal)
    (γ β : SV.Idx → EReal) : SX.Idx → EReal := fun i =>
  lnorm (zrow x Dl D1 D2 Wc1 Wc2 ⟨(i 0).val * 4096 + (i 1).val, by
    have h0 : (i 0).val < 8 := (i 0).isLt; have h1 : (i 1).val < 4096 := (i 1).isLt; omega⟩) γ β (i 2)

end Cert.Spec

end
-- ==== Proof.KI.HostVals.lean ====
/-
  What the host operations before the regions leave, at the ideal instance, read at an index:
    the flattened activations are the activations' rows (row r = b · 4096 + t);
    the scaled large weight and the two scaled small weights are the SAME chains of host operations as the reference's
      (broadcast the scale table over 128 × 128 tiles, multiply), so they are stated as the reference's own stage terms
      and never opened; the summed small weights are their entrywise sum;
    the conversions to the narrower float format are the identity on extended reals.
-/
import proofs.«152862_j64407329571549_2_alg».proof.Proof.KI.Frame
import proofs.«152862_j64407329571549_2_alg».proof.Proof.Gen.ReferenceIdeal.Read
import proofs.«152862_j64407329571549_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section HostVals

variable (m : (ℓ : Loc nD τ sig) → Buf (Elt Ideal) ℓ) (ρ : Dev nD → PrngReg)

/-- The k-th argument's launch contents on core c. -/
abbrev M0 (c : Dev nD) := m ((c : Thread nD τ).loc main_arg0)
abbrev M1 (c : Dev nD) := m ((c : Thread nD τ).loc main_arg1)
abbrev M2 (c : Dev nD) := m ((c : Thread nD τ).loc main_arg2)
abbrev M3 (c : Dev nD) := m ((c : Thread nD τ).loc main_arg3)
abbrev M4 (c : Dev nD) := m ((c : Thread nD τ).loc main_arg4)
abbrev M5 (c : Dev nD) := m ((c : Thread nD τ).loc main_arg5)
abbrev M6 (c : Dev nD) := m ((c : Thread nD τ).loc main_arg6)
abbrev M7 (c : Dev nD) := m ((c : Thread nD τ).loc main_arg7)
abbrev M8 (c : Dev nD) := m ((c : Thread nD τ).loc main_arg8)
abbrev M9 (c : Dev nD) := m ((c : Thread nD τ).loc main_arg9)
abbrev M10 (c : Dev nD) := m ((c : Thread nD τ).loc main_arg10)

theorem W1_v21 (c : Dev nD) :
    (W1 m ρ c main_v21 : S32768x1024.Idx → EReal) = (truncf (F := Ideal) .bf16 (shapeCast S32768x1024 (M0 m c : FVec Ideal S8x4096x1024 .f32) shapeCasts_S8x4096x1024_S32768x1024) bitsLt_bf16_f32 : FVec Ideal S32768x1024 .bf16) := by
  show StableHlo.after hostOps0 (fun b => m ((c : Dev nD), b)) (Proc.devRef .tc main_v21) = _
  after_results
  rfl

theorem W1_v5 (c : Dev nD) :
    (W1 m ρ c main_v5 : S4096x1024.Idx → EReal) = (truncf (F := Ideal) .bf16 (Cert.ReferenceIdeal.Read.val_main_v4 (F := Ideal) (M1 m c) (M8 m c) : FVec Ideal S4096x1024 .f32) bitsLt_bf16_f32 : FVec Ideal S4096x1024 .bf16) := by
  show StableHlo.after hostOps0 (fun b => m ((c : Dev nD), b)) (Proc.devRef .tc main_v5) = _
  after_results
  rfl

set_option maxHeartbeats 4000000 in
/-- The summed small weights, as the host operations spell it. -/
theorem W1_v17_raw (c : Dev nD) :
    (W1 m ρ c main_v17 : S1024x1024.Idx → EReal) = (truncf (F := Ideal) .bf16 (addf (mulf (M2 m c : FVec Ideal S1024x1024 .f32) (shapeCast _ (broadcastInDim S1024x8x128 ![0, 1] bcast_S1024x8_S1024x8x128_0_1 (shapeCast _ (broadcastInDim S8x128x8 ![0, 2] bcast_S8x8_S8x128x8_0_2 (M9 m c : FVec Ideal S8x8 .f32)) shapeCasts_S8x128x8_S1024x8)) shapeCasts_S1024x8x128_S1024x1024))
      (mulf (M3 m c : FVec Ideal S1024x1024 .f32) (shapeCast _ (broadcastInDim S1024x8x128 ![0, 1] bcast_S1024x8_S1024x8x128_0_1 (shapeCast _ (broadcastInDim S8x128x8 ![0, 2] bcast_S8x8_S8x128x8_0_2 (M10 m c : FVec Ideal S8x8 .f32)) shapeCasts_S8x128x8_S1024x8)) shapeCasts_S1024x8x128_S1024x1024))) bitsLt_bf16_f32 : FVec Ideal S1024x1024 .bf16) := by
  show StableHlo.after hostOps0 (fun b => m ((c : Dev nD), b)) (Proc.devRef .tc main_v17) = _
  after_results_simp <;> rfl

/-- Each scaled small weight is the reference's stage term: the same operations in the same order. -/
theorem scaled_eq (w : FVec Ideal S1024x1024 .f32) (s : FVec Ideal S8x8 .f32) :
    (mulf (w : FVec Ideal S1024x1024 .f32) (shapeCast _ (broadcastInDim S1024x8x128 ![0, 1] bcast_S1024x8_S1024x8x128_0_1 (shapeCast _ (broadcastInDim S8x128x8 ![0, 2] bcast_S8x8_S8x128x8_0_2 (s : FVec Ideal S8x8 .f32)) shapeCasts_S8x128x8_S1024x8)) shapeCasts_S1024x8x128_S1024x1024)) = Cert.ReferenceIdeal.Read.val_main_v14 (F := Ideal) w s := by
  unfold Cert.ReferenceIdeal.Read.val_main_v14 Cert.ReferenceIdeal.Read.val_main_v13 Cert.ReferenceIdeal.Read.val_main_v12
    Cert.ReferenceIdeal.Read.val_main_v11 Cert.ReferenceIdeal.Read.val_main_v10
  rfl
theorem scaled_eq' (w : FVec Ideal S1024x1024 .f32) (s : FVec Ideal S8x8 .f32) :
    (mulf (w : FVec Ideal S1024x1024 .f32) (shapeCast _ (broadcastInDim S1024x8x128 ![0, 1] bcast_S1024x8_S1024x8x128_0_1 (shapeCast _ (broadcastInDim S8x128x8 ![0, 2] bcast_S8x8_S8x128x8_0_2 (s : FVec Ideal S8x8 .f32)) shapeCasts_S8x128x8_S1024x8)) shapeCasts_S1024x8x128_S1024x1024)) = Cert.ReferenceIdeal.Read.val_main_v20 (F := Ideal) w s := by
  unfold Cert.ReferenceIdeal.Read.val_main_v20 Cert.ReferenceIdeal.Read.val_main_v19 Cert.ReferenceIdeal.Read.val_main_v18
    Cert.ReferenceIdeal.Read.val_main_v17 Cert.ReferenceIdeal.Read.val_main_v16
  rfl

theorem W1_v17 (c : Dev nD) :
    (W1 m ρ c main_v17 : S1024x1024.Idx → EReal) = (truncf (F := Ideal) .bf16 (addf (Cert.ReferenceIdeal.Read.val_main_v14 (F := Ideal) (M2 m c) (M9 m c) : FVec Ideal S1024x1024 .f32)
      (Cert.ReferenceIdeal.Read.val_main_v20 (F := Ideal) (M3 m c) (M10 m c))) bitsLt_bf16_f32 : FVec Ideal S1024x1024 .bf16) := by
  rw [W1_v17_raw, scaled_eq, scaled_eq']

theorem W1_v18 (c : Dev nD) : (W1 m ρ c main_v18 : S4096x4096.Idx → EReal) = (truncf (F := Ideal) .bf16 (M4 m c : FVec Ideal S4096x4096 .f32) bitsLt_bf16_f32 : FVec Ideal S4096x4096 .bf16) := by
  show StableHlo.after hostOps0 (fun b => m ((c : Dev nD), b)) (Proc.devRef .tc main_v18) = _
  after_results

theorem W1_v19 (c : Dev nD) : (W1 m ρ c main_v19 : S1024x4096.Idx → EReal) = (truncf (F := Ideal) .bf16 (M5 m c : FVec Ideal S1024x4096 .f32) bitsLt_bf16_f32 : FVec Ideal S1024x4096 .bf16) := by
  show StableHlo.after hostOps0 (fun b => m ((c : Dev nD), b)) (Proc.devRef .tc main_v19) = _
  after_results

end HostVals

end Cert.KernelIdeal.Hand

end
-- ==== Proof.KI.Pieces0.lean ====
/-
  Region 0: what the found pieces are, as values.  Each store covers its whole buffer, so what a buffer holds after the
  body is its last store's payload, and a load of the accumulator reads the payload of the store before it: the first
  result's block is the rectification of (zero block + block product), the second's the block product against the summed
  small weights.  At any float instance.
-/
import proofs.«152862_j64407329571549_2_alg».proof.Proof.KI.Region0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A load through the whole rectangle, after a list of stores whose LAST covers the whole buffer, reads that store's payload. -/
theorem readCov_cons_unit_zero {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

section Pieces0

theorem out0_A_3_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i)
    (x0 : Vec F S1024x1024 .bf16) (x1 : Vec F S1024x1024 .bf16) (x2 : Vec F S1024x1024 .bf16) : out0_A_3 c i arg3 harg3 arg4 harg4 arg5 harg5 arg6 harg6 arg7 harg7 arg8 harg8 hc0 hc1 hc2 x0 x1 x2 = k0_pay4 (k0_pay3 x0 x1 (k0_pay1 (F := F))) := by
  unfold out0_A_3
  rw [View.read_writes_eq_canon _ _ _ (cover0_A_3 c i arg3 harg3 arg4 harg4 arg5 harg5 arg6 harg6 arg7 harg7 arg8 harg8 hc0 hc1 hc2 x0 x1 x2)]
  unfold kernelRun0_A
  dsimp only
  sl_unfold_words
  rw [View.canon_unit_zero hz2, readCov_cons_unit_zero _ hz2, View.readCov_unit_zero _ hz2]
  simp only [View.readAt_eq_ld, harg3.read_unread, harg4.read_unread, View.ld_unit_zero (S := S1024x1024) hz2]

theorem out0_B_3_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : ¬cond0_2 i)
    (x0 : Vec F S1024x1024 .bf16) (x1 : Vec F S1024x1024 .bf16) (x2 : Vec F S1024x1024 .bf16) : out0_B_3 c i arg3 harg3 arg4 harg4 arg5 harg5 arg6 harg6 arg7 harg7 arg8 harg8 hc0 hc1 hc2 x0 x1 x2 = k0_pay4 (k0_pay3 x0 x1 (k0_pay1 (F := F))) := by
  unfold out0_B_3
  rw [View.read_writes_eq_canon _ _ _ (cover0_B_3 c i arg3 harg3 arg4 harg4 arg5 harg5 arg6 harg6 arg7 harg7 arg8 harg8 hc0 hc1 hc2 x0 x1 x2)]
  unfold kernelRun0_B
  dsimp only
  sl_unfold_words
  rw [View.canon_unit_zero hz2, readCov_cons_unit_zero _ hz2, View.readCov_unit_zero _ hz2]
  simp only [View.readAt_eq_ld, harg3.read_unread, harg4.read_unread, View.ld_unit_zero (S := S1024x1024) hz2]

theorem out0_A_4_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : cond0_1 i) (hc2 : cond0_2 i)
    (x0 : Vec F S1024x1024 .bf16) (x1 : Vec F S1024x1024 .bf16) (x2 : Vec F S1024x1024 .bf16) : out0_A_4 c i arg3 harg3 arg4 harg4 arg5 harg5 arg6 harg6 arg7 harg7 arg8 harg8 hc0 hc1 hc2 x0 x1 x2 = k0_pay5 x0 x2 := by
  unfold out0_A_4
  rw [View.read_writes_eq_canon _ _ _ (cover0_A_4 c i arg3 harg3 arg4 harg4 arg5 harg5 arg6 harg6 arg7 harg7 arg8 harg8 hc0 hc1 hc2 x0 x1 x2)]
  unfold kernelRun0_A
  dsimp only
  rw [View.canon_unit_zero hz2]
  simp only [View.readAt_eq_ld, harg3.read_unread, harg5.read_unread, View.ld_unit_zero (S := S1024x1024) hz2]

end Pieces0

end Cert.KernelIdeal.Hand

end
-- ==== Proof.KI.PayMatmul.lean ====
/-
  The three matrix products of the kernel bodies, read at an index.

  Each product contracts axis 1 of its left operand [M, K] against axis 1 of its right operand [N, K] into [M, N], with no
  batch axis, and accumulates into a splat of the zero word.  On the extended reals the zero word is 0 and the product has
  no rounding and no order, so entry (p, q) is Σ_k left[p, k] · right[q, k]: the contraction shape has the one axis of
  length K, its indices are the numbers below K, and the operand indices at output (p, q) and contraction k are (p, k) and
  (q, k).
-/
import proofs.«152862_j64407329571549_2_alg».proof.Proof.Gen.KernelIdeal.Skeleton
import Idealize.ShloMosaic.Lib.ValueIdx
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ### S1024x1024 × S1024x1024 → S1024x1024 -/

theorem lhs0_A (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs1_A (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs0_A (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs1_A (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product into the zero splat, at (p, q): row p of the left operand against row q of the right. -/
theorem matmul_A {φ₁ φ₂ : FTy} (lhs : FVec Ideal S1024x1024 φ₁) (rhs : FVec Ideal S1024x1024 φ₂) (p : Fin 1024) (q : Fin 1024) :
    matmul dot_S1024x1024_S1024x1024_S1024x1024_1_1_0_0_n_n none lhs rhs (constant (F := Ideal) S1024x1024 .f32 0x00000000#32) (ix2 p q)
      = ∑ k : Fin 1024, lhs (ix2 p k) * rhs (ix2 q k) := by
  show FloatOps.matmul dot_S1024x1024_S1024x1024_S1024x1024_1_1_0_0_n_n none lhs rhs (constant (F := Ideal) S1024x1024 .f32 0x00000000#32) (ix2 p q) = _
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs0_A _ _
    | ⟨1, _⟩ => exact (lhs1_A _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs0_A _ _
    | ⟨1, _⟩ => exact (rhs1_A _ _).trans hk)
  rw [el, er]

/-! ### S1024x2048 × S1024x2048 → S1024x1024 -/

theorem lhs0_B (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem lhs1_B (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
theorem rhs0_B (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem rhs1_B (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The product into the zero splat, at (p, q): row p of the left operand against row q of the right. -/
theorem matmul_B {φ₁ φ₂ : FTy} (lhs : FVec Ideal S1024x2048 φ₁) (rhs : FVec Ideal S1024x2048 φ₂) (p : Fin 1024) (q : Fin 1024) :
    matmul dot_S1024x2048_S1024x2048_S1024x1024_1_1_0_0_n_n none lhs rhs (constant (F := Ideal) S1024x1024 .f32 0x00000000#32) (ix2 p q)
      = ∑ k : Fin 2048, lhs (ix2 p k) * rhs (ix2 q k) := by
  show FloatOps.matmul dot_S1024x2048_S1024x2048_S1024x1024_1_1_0_0_n_n none lhs rhs (constant (F := Ideal) S1024x1024 .f32 0x00000000#32) (ix2 p q) = _
  rw [Ideal.matmul_constant_zero_apply, ← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 p q) ((contrEquiv1 dot_S1024x2048_S1024x2048_S1024x1024_1_1_0_0_n_n 2048 rfl rfl).symm k) = ix2 p k := funext fun a => Fin.ext (by
    match a with
    | ⟨0, _⟩ => exact lhs0_B _ _
    | ⟨1, _⟩ => exact (lhs1_B _ _).trans hk)
  have er : dot_S1024x2048_S1024x2048_S1024x1024_1_1_0_0_n_n.rhsIdx (ix2 p q) ((contrEquiv1 dot_S1024x2048_S1024x2048_S1024x1024_1_1_0_0_n_n 2048 rfl rfl).symm k) = ix2 q k := funext fun a => Fin.ext (by
    match a with
    | ⟨0, _⟩ => exact rhs0_B _ _
    | ⟨1, _⟩ => exact (rhs1_B _ _).trans hk)
  rw [el, er]

/-! ### S512x2048 × S1024x2048 → S512x1024 -/

theorem lhs0_C (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem lhs1_C (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
theorem rhs0_C (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem rhs1_C (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-- The product into the zero splat, at (p, q): row p of the left operand against row q of the right. -/
theorem matmul_C {φ₁ φ₂ : FTy} (lhs : FVec Ideal S512x2048 φ₁) (rhs : FVec Ideal S1024x2048 φ₂) (p : Fin 512) (q : Fin 1024) :
    matmul dot_S512x2048_S1024x2048_S512x1024_1_1_0_0_n_n none lhs rhs (constant (F := Ideal) S512x1024 .f32 0x00000000#32) (ix2 p q)
      = ∑ k : Fin 2048, lhs (ix2 p k) * rhs (ix2 q k) := by
  show FloatOps.matmul dot_S512x2048_S1024x2048_S512x1024_1_1_0_0_n_n none lhs rhs (constant (F := Ideal) S512x1024 .f32 0x00000000#32) (ix2 p q) = _
  rw [Ideal.matmul_constant_zero_apply, ← Equiv.sum_comp (contrEquiv1 dot_S512x2048_S1024x2048_S512x1024_1_1_0_0_n_n 2048 rfl rfl).symm]
  refine Finset.sum_congr rfl fun k _ => ?_
  have hk := contrEquiv1_symm_val dot_S512x2048_S1024x2048_S512x1024_1_1_0_0_n_n 2048 rfl rfl k
  have el : dot_S512x2048_S1024x2048_S512x1024_1_1_0_0_n_n.lhsIdx (ix2 p q) ((contrEquiv1 dot_S512x2048_S1024x2048_S512x1024_1_1_0_0_n_n 2048 rfl rfl).symm k) = ix2 p k := funext fun a => Fin.ext (by
    match a with
    | ⟨0, _⟩ => exact lhs0_C _ _
    | ⟨1, _⟩ => exact (lhs1_C _ _).trans hk)
  have er : dot_S512x2048_S1024x2048_S512x1024_1_1_0_0_n_n.rhsIdx (ix2 p q) ((contrEquiv1 dot_S512x2048_S1024x2048_S512x1024_1_1_0_0_n_n 2048 rfl rfl).symm k) = ix2 q k := funext fun a => Fin.ext (by
    match a with
    | ⟨0, _⟩ => exact rhs0_C _ _
    | ⟨1, _⟩ => exact (rhs1_C _ _).trans hk)
  rw [el, er]

end Cert.KernelIdeal.Pay

end
-- ==== Proof.KI.Pay0.lean ====
/-
  The first kernel body's values, read at an index.

  A shape cast to the same shape is the identity; the zero word denotes 0; a change of float format is the identity on the
  extended reals.  So the initial value of the accumulator is 0 everywhere, one accumulation step adds to the accumulator at
  (p, q) the sum over k of left[p, k] · right[q, k], the activation is the maximum with 0, and the second product (into
  the zero splat) is that sum alone.
-/
import proofs.«152862_j64407329571549_2_alg».proof.Proof.Gen.KernelIdeal.Skeleton
import proofs.«152862_j64407329571549_2_alg».proof.Proof.Spec
import proofs.«152862_j64407329571549_2_alg».proof.Proof.KI.PayMatmul
import Idealize.ShloMosaic.Lib.ValueIdx
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

theorem k0_pay1_apply (p q : Fin 1024) : k0_pay1 (F := Ideal) (ix2 p q) = (0 : EReal) := by
  unfold k0_pay1
  rw [shapeCast_self, broadcast_apply, Ideal.ofBits_def, Ideal.ofBits_zero_f32]

theorem k0_pay3_apply (v3 v5 : Vec Ideal S1024x1024 .bf16) (v7 : Vec Ideal S1024x1024 .f32) (p q : Fin 1024) :
    k0_pay3 v3 v5 v7 (ix2 p q) = v7 (ix2 p q) + ∑ k : Fin 1024, v3 (ix2 p k) * v5 (ix2 q k) := by
  unfold k0_pay3 k0_pay2
  dsimp only
  simp only [shapeCast_self]
  rw [addf_apply, matmul_A]

theorem k0_pay4_apply (v19 : Vec Ideal S1024x1024 .f32) (p q : Fin 1024) :
    k0_pay4 v19 (ix2 p q) = max (v19 (ix2 p q)) 0 := by
  unfold k0_pay4
  rw [truncf_apply, maximumf_apply, broadcast_apply, Ideal.ofBits_def, Ideal.ofBits_zero_f32]

theorem k0_pay5_apply (v3 v19 : Vec Ideal S1024x1024 .bf16) (p q : Fin 1024) :
    k0_pay5 v3 v19 (ix2 p q) = ∑ k : Fin 1024, v3 (ix2 p k) * v19 (ix2 q k) := by
  unfold k0_pay5 k0_pay2
  dsimp only
  simp only [shapeCast_self]
  rw [matmul_A]

end Cert.KernelIdeal.Pay

end
-- ==== Proof.KI.Value0.lean ====
/-
  Region 0's two result arrays after the run, at the ideal instance, as whole-array functions of the arrays the region is
  entered with: X [32768, 1024] (the flattened activations), WL [4096, 1024] (the scaled large weight), WS [1024, 1024]
  (the sum of the two scaled small weights):

    first result  [r, o] = max (Σ_h X[r, h] · WL[o, h]) 0          r < 32768, o < 4096
    second result [r, s] = Σ_h X[r, h] · WS[s, h]                   r < 32768, s < 1024.

  Point t of the grid is (i, j) = (t / 4, t mod 4).  It stores block (i, j) of the first result from rows i·1024 … of X and
  rows j·1024 … of WL; the points with j = 0 store block i of the second, which the point (i, 3) writes back.  Every entry of
  either array lies in exactly one written-back block, so the arrays end as the two formulas.
-/
import proofs.«152862_j64407329571549_2_alg».proof.Proof.KI.Pieces0
import proofs.«152862_j64407329571549_2_alg».proof.Proof.KI.Pay0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.KernelIdeal.Pay

section Value0

variable (V : (c : Dev nD) → (b : Ref sig .tc) → Buf (Elt Ideal) ((c : Thread nD τ).loc b))

/-- The index maps as functions of the point, decided over the grid. -/
theorem idx0 : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = t.val % 4
    ∧ win0_4.index t (0 : Fin 2) = t.val / 4 ∧ win0_4.index t (1 : Fin 2) = 0 :=
  (by decide +kernel : ∀ t : Fin grid0.N, _)

/-- The arrays the region is entered with, as plain functions into the extended reals. -/
abbrev aX (c : Dev nD) : S32768x1024.Idx → EReal := V c main_v21
abbrev aWL (c : Dev nD) : S4096x1024.Idx → EReal := V c main_v5
abbrev aWS (c : Dev nD) : S1024x1024.Idx → EReal := V c main_v17

/-- The first result, entry (r, o). -/
def g3 (c : Dev nD) (r : Fin 32768) (o : Fin 4096) : EReal :=
  max (∑ h : Fin 1024, aX V c (ix2 r h) * aWL V c (ix2 o h)) 0
/-- The second result, entry (r, s). -/
def g4 (c : Dev nD) (r : Fin 32768) (s : Fin 1024) : EReal :=
  ∑ h : Fin 1024, aX V c (ix2 r h) * aWS V c (ix2 s h)
def G3 (c : Dev nD) : S32768x4096.Idx → EReal := fun i => g3 V c ⟨(i 0).val, idx2_lt0 i⟩ ⟨(i 1).val, idx2_lt1 i⟩
def G4 (c : Dev nD) : S32768x1024.Idx → EReal := fun i => g4 V c ⟨(i 0).val, idx2_lt0 i⟩ ⟨(i 1).val, idx2_lt1 i⟩

/-- What every point leaves in the first result's buffer. -/
theorem o3At_eq (c : Dev nD) (t : Fin cfg0.N) :
    o3At V c t = k0_pay4 (k0_pay3 (iblk0 V c 0 t) (iblk0 V c 1 t) (k0_pay1 (F := Ideal))) := by
  unfold o3At
  by_cases h : t.val % 4 = 0
  · rw [dif_pos h]; exact out0_A_3_eq ..
  · rw [dif_neg h]; exact out0_B_3_eq ..

/-- Rows of the activations' block at a point. -/
theorem blk0_0 (c : Dev nD) (t : Fin cfg0.N) (p k : Fin 1024) (hb : t.val / 4 * 1024 + p.val < 32768) :
    iblk0 V c 0 t (ix2 p k) = aX V c (ix2 ⟨t.val / 4 * 1024 + p.val, hb⟩ k) := by
  obtain ⟨e0, e1, -⟩ := idx0 t
  show aX V c (((cfg0.win 0).blk t).view.emb (ix2 p k)) = _
  refine congrArg _ (funext fun a => Fin.ext ?_)
  match a with
  | ⟨0, _⟩ => show win0_0.index t (0 : Fin 2) * 1024 + 1 * p.val = t.val / 4 * 1024 + p.val; rw [e0]; omega
  | ⟨1, _⟩ => show win0_0.index t (1 : Fin 2) * 1024 + 1 * k.val = k.val; rw [e1]; omega

/-- Rows of the large weight's block at a point. -/
theorem blk0_1 (c : Dev nD) (t : Fin cfg0.N) (q k : Fin 1024) (hb : t.val % 4 * 1024 + q.val < 4096) :
    iblk0 V c 1 t (ix2 q k) = aWL V c (ix2 ⟨t.val % 4 * 1024 + q.val, hb⟩ k) := by
  obtain ⟨-, -, e0, e1, -⟩ := idx0 t
  show aWL V c (((cfg0.win 1).blk t).view.emb (ix2 q k)) = _
  refine congrArg _ (funext fun a => Fin.ext ?_)
  match a with
  | ⟨0, _⟩ => show win0_1.index t (0 : Fin 2) * 1024 + 1 * q.val = t.val % 4 * 1024 + q.val; rw [e0]; omega
  | ⟨1, _⟩ => show win0_1.index t (1 : Fin 2) * 1024 + 1 * k.val = k.val; rw [e1]; omega

/-- The summed small weights' block is the whole matrix at every point. -/
theorem blk0_2 (c : Dev nD) (t : Fin cfg0.N) (s k : Fin 1024) :
    iblk0 V c 2 t (ix2 s k) = aWS V c (ix2 s k) := by
  obtain ⟨-, -, -, -, e0, e1, -⟩ := idx0 t
  show aWS V c (((cfg0.win 2).blk t).view.emb (ix2 s k)) = _
  refine congrArg _ (funext fun a => Fin.ext ?_)
  match a with
  | ⟨0, _⟩ => show win0_2.index t (0 : Fin 2) * 1024 + 1 * s.val = s.val; rw [e0]; omega
  | ⟨1, _⟩ => show win0_2.index t (1 : Fin 2) * 1024 + 1 * k.val = k.val; rw [e1]; omega

/-- WHAT POINT t WRITES BACK of the first result is block t of the formula. -/
theorem flushed0_3_eq (c : Dev nD) (t : Fin cfg0.N) :
    (dat0 V c).flushed 3 t = ((cfg0.win 3).blk t).view.read (Elt Ideal) (G3 V c) := by
  have hN := N0_lt t
  show (cfg0.win 3).cut (grid0.coords t) ((dat0 V c).after 3 t) = _
  rw [after0_3, o3At_eq]
  funext j
  obtain ⟨p, q, rfl⟩ : ∃ (p : Fin 1024) (q : Fin 1024), j = ix2 p q := ⟨j 0, j 1, eq_ix2 j⟩
  have hp : t.val / 4 * 1024 + p.val < 32768 := by have := p.isLt; omega
  have hq : t.val % 4 * 1024 + q.val < 4096 := by have := q.isLt; omega
  show k0_pay4 (k0_pay3 (iblk0 V c 0 t) (iblk0 V c 1 t) (k0_pay1 (F := Ideal))) (ix2 p q)
    = G3 V c (((cfg0.win 3).blk t).view.emb (ix2 p q))
  have hR : (((cfg0.win 3).blk t).view.emb (ix2 p q) : S32768x4096.Idx)
      = ix2 (⟨t.val / 4 * 1024 + p.val, hp⟩ : Fin 32768) (⟨t.val % 4 * 1024 + q.val, hq⟩ : Fin 4096) := by
    obtain ⟨-, -, -, -, -, -, e0, e1, -⟩ := idx0 t
    funext a; apply Fin.ext
    match a with
    | ⟨0, _⟩ => show win0_3.index t (0 : Fin 2) * 1024 + 1 * p.val = t.val / 4 * 1024 + p.val; rw [e0]; omega
    | ⟨1, _⟩ => show win0_3.index t (1 : Fin 2) * 1024 + 1 * q.val = t.val % 4 * 1024 + q.val; rw [e1]; omega
  rw [hR, k0_pay4_apply, k0_pay3_apply, k0_pay1_apply, zero_add]
  simp only [blk0_0 V c t p _ hp, blk0_1 V c t q _ hq]
  rfl

theorem mem_blk0_3 (t : Fin cfg0.N) (i : S32768x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v22_0).slice (win0_3.rect t)).set ↔ _
  rw [View.set_slice_whole, Rect.mem_set_unit]
  exact Iff.rfl

theorem cover0_3 (i : S32768x4096.Idx) : ∃ t : Fin cfg0.N, (cfg0.win 3).flush t = true ∧ i ∈ ((cfg0.win 3).blk t).view.set := by
  have h0 : (i 0).val < 32768 := (i 0).isLt
  have h1 : (i 1).val < 4096 := (i 1).isLt
  have hN : cfg0.N = 128 := N_0
  let t : Fin cfg0.N := ⟨(i 0).val / 1024 * 4 + (i 1).val / 1024, by rw [hN]; omega⟩
  refine ⟨t, flush0_3 t, ?_⟩
  rw [mem_blk0_3]
  obtain ⟨-, -, -, -, -, -, e0, e1, -⟩ := idx0 t
  have ht : t.val = (i 0).val / 1024 * 4 + (i 1).val / 1024 := rfl
  intro a
  match a with
  | ⟨0, _⟩ => show win0_3.index t (0 : Fin 2) * 1024 ≤ (i 0).val ∧ (i 0).val < win0_3.index t (0 : Fin 2) * 1024 + 1024; rw [e0, ht]; omega
  | ⟨1, _⟩ => show win0_3.index t (1 : Fin 2) * 1024 ≤ (i 1).val ∧ (i 1).val < win0_3.index t (1 : Fin 2) * 1024 + 1024; rw [e1, ht]; omega

/-- THE FIRST RESULT after the run. -/
theorem final0_3 (c : Dev nD) (r : Fin 32768) (o : Fin 4096) :
    (dat0 V c).arrAt 3 cfg0.N (ix2 r o) = (max (∑ h : Fin 1024, aX V c (ix2 r h) * aWL V c (ix2 o h)) 0 : EReal) := by
  rw [(dat0 V c).arrAt_eq_of_cover 3 (G3 V c) (fun t _ => flushed0_3_eq V c t) cover0_3]
  rfl

/-- WHAT A POINT WITH COLUMN COORDINATE 3 WRITES BACK of the second result is block i of the formula. -/
theorem flushed0_4_eq (c : Dev nD) (t : Fin cfg0.N) :
    (dat0 V c).flushed 4 t = ((cfg0.win 4).blk t).view.read (Elt Ideal) (G4 V c) := by
  have hN := N0_lt t
  show (cfg0.win 4).cut (grid0.coords t) ((dat0 V c).after 4 t) = _
  rw [after0_4]
  unfold o4At o4A
  rw [out0_A_4_eq]
  funext j
  obtain ⟨p, s, rfl⟩ : ∃ (p : Fin 1024) (s : Fin 1024), j = ix2 p s := ⟨j 0, j 1, eq_ix2 j⟩
  have hb : (base0 t).val / 4 * 1024 + p.val < 32768 := by
    have := p.isLt; show (t.val - t.val % 4) / 4 * 1024 + p.val < 32768; omega
  have hp : t.val / 4 * 1024 + p.val < 32768 := by have := p.isLt; omega
  show k0_pay5 (iblk0 V c 0 (base0 t)) (iblk0 V c 2 (base0 t)) (ix2 p s)
    = G4 V c (((cfg0.win 4).blk t).view.emb (ix2 p s))
  have hR : (((cfg0.win 4).blk t).view.emb (ix2 p s) : S32768x1024.Idx)
      = ix2 (⟨t.val / 4 * 1024 + p.val, hp⟩ : Fin 32768) s := by
    obtain ⟨-, -, -, -, -, -, -, -, e0, e1⟩ := idx0 t
    funext a; apply Fin.ext
    match a with
    | ⟨0, _⟩ => show win0_4.index t (0 : Fin 2) * 1024 + 1 * p.val = t.val / 4 * 1024 + p.val; rw [e0]; omega
    | ⟨1, _⟩ => show win0_4.index t (1 : Fin 2) * 1024 + 1 * s.val = s.val; rw [e1]; omega
  have hrow : (⟨(base0 t).val / 4 * 1024 + p.val, hb⟩ : Fin 32768) = ⟨t.val / 4 * 1024 + p.val, hp⟩ :=
    Fin.ext (by show (t.val - t.val % 4) / 4 * 1024 + p.val = t.val / 4 * 1024 + p.val; omega)
  rw [hR, k0_pay5_apply]
  simp only [blk0_0 V c (base0 t) p _ hb, blk0_2 V c (base0 t) s, hrow]
  rfl

theorem mem_blk0_4 (t : Fin cfg0.N) (i : S32768x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v22_1).slice (win0_4.rect t)).set ↔ _
  rw [View.set_slice_whole, Rect.mem_set_unit]
  exact Iff.rfl

theorem cover0_4 (i : S32768x1024.Idx) : ∃ t : Fin cfg0.N, (cfg0.win 4).flush t = true ∧ i ∈ ((cfg0.win 4).blk t).view.set := by
  have h0 : (i 0).val < 32768 := (i 0).isLt
  have h1 : (i 1).val < 1024 := (i 1).isLt
  have hN : cfg0.N = 128 := N_0
  let t : Fin cfg0.N := ⟨(i 0).val / 1024 * 4 + 3, by rw [hN]; omega⟩
  have ht : t.val = (i 0).val / 1024 * 4 + 3 := rfl
  refine ⟨t, (flush0_4 t).mpr (by rw [ht]; omega), ?_⟩
  rw [mem_blk0_4]
  obtain ⟨-, -, -, -, -, -, -, -, e0, e1⟩ := idx0 t
  intro a
  match a with
  | ⟨0, _⟩ => show win0_4.index t (0 : Fin 2) * 1024 ≤ (i 0).val ∧ (i 0).val < win0_4.index t (0 : Fin 2) * 1024 + 1024; rw [e0, ht]; omega
  | ⟨1, _⟩ => show win0_4.index t (1 : Fin 2) * 1024 ≤ (i 1).val ∧ (i 1).val < win0_4.index t (1 : Fin 2) * 1024 + 1024; rw [e1]; omega

/-- THE SECOND RESULT after the run. -/
theorem final0_4 (c : Dev nD) (r : Fin 32768) (s : Fin 1024) :
    (dat0 V c).arrAt 4 cfg0.N (ix2 r s) = (∑ h : Fin 1024, aX V c (ix2 r h) * aWS V c (ix2 s h) : EReal) := by
  rw [(dat0 V c).arrAt_eq_of_cover 4 (G4 V c) (fun t _ => flushed0_4_eq V c t) cover0_4]
  rfl

end Value0

end Cert.KernelIdeal.Hand

end
-- ==== Proof.KI.Chain0.lean ====
/-
  The first links of the chain from the kernel's run to the specification, at the ideal instance: the flattened
  activations are the activations' rows; region 0's first result is `Spec.big1` of the activations and the scaled large
  weight; its second result is `Spec.ssum` of the activations and the two scaled small weights.
-/
import proofs.«152862_j64407329571549_2_alg».proof.Proof.KI.HostVals
import proofs.«152862_j64407329571549_2_alg».proof.Proof.KI.Value0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section Chain0

variable (m : (ℓ : Loc nD τ sig) → Buf (Elt Ideal) ℓ) (ρ : Dev nD → PrngReg)

/-- The three scaled weights, as the reference's stage terms of the kernel's own argument buffers. -/
abbrev Dl (c : Dev nD) : Cert.Spec.SL.Idx → EReal := Cert.ReferenceIdeal.Read.val_main_v4 (F := Ideal) (M1 m c) (M8 m c)
abbrev D1 (c : Dev nD) : Cert.Spec.SS.Idx → EReal := Cert.ReferenceIdeal.Read.val_main_v14 (F := Ideal) (M2 m c) (M9 m c)
abbrev D2 (c : Dev nD) : Cert.Spec.SS.Idx → EReal := Cert.ReferenceIdeal.Read.val_main_v20 (F := Ideal) (M3 m c) (M10 m c)

/-- Row r of the flattened activations is row (r / 4096, r mod 4096) of the activations. -/
theorem x2row (c : Dev nD) (r : Fin 32768) (h : Fin 1024) :
    aX (V1 m ρ) c (ix2 r h) = Cert.Spec.xrow (M0 m c) r h := by
  show (W1 m ρ c main_v21 : S32768x1024.Idx → EReal) (ix2 r h) = _
  rw [W1_v21]
  show shapeCast S32768x1024 (M0 m c : FVec Ideal S8x4096x1024 .f32) shapeCasts_S8x4096x1024_S32768x1024 (ix2 r h) = _
  exact shapeCast_apply _ _ (ix2 r h) (ix3 (Cert.Spec.rowB r) (Cert.Spec.rowT r) h) (by
    rewrite [Shape.rowMajor_val_three, Shape.rowMajor_val_two]
    show (r.val / 4096 * 4096 + r.val % 4096) * 1024 + h.val = r.val * 1024 + h.val
    omega)

theorem wl_eq (c : Dev nD) (o : Fin 4096) (h : Fin 1024) : aWL (V1 m ρ) c (ix2 o h) = Dl m c (ix2 o h) := by
  show (W1 m ρ c main_v5 : S4096x1024.Idx → EReal) (ix2 o h) = _
  rw [W1_v5]; rfl

theorem ws_eq (c : Dev nD) (s h : Fin 1024) : aWS (V1 m ρ) c (ix2 s h) = D1 m c (ix2 s h) + D2 m c (ix2 s h) := by
  show (W1 m ρ c main_v17 : S1024x1024.Idx → EReal) (ix2 s h) = _
  rw [W1_v17]; rfl

/-- Region 0's first result. -/
theorem big1_eq (c : Dev nD) (r : Fin 32768) (o : Fin 4096) :
    (dat0 (V1 m ρ) c).arrAt 3 cfg0.N (ix2 r o) = Cert.Spec.big1 (M0 m c) (Dl m c) r o := by
  rw [final0_3]
  unfold Cert.Spec.big1
  refine congrArg (fun s => max s (0 : EReal)) (Finset.sum_congr rfl fun h _ => ?_)
  rw [x2row, wl_eq]

/-- Region 0's second result. -/
theorem ssum_eq (c : Dev nD) (r : Fin 32768) (s : Fin 1024) :
    (dat0 (V1 m ρ) c).arrAt 4 cfg0.N (ix2 r s) = Cert.Spec.ssum (M0 m c) (D1 m c) (D2 m c) r s := by
  rw [final0_4]
  unfold Cert.Spec.ssum
  show (∑ h : Fin 1024, aX (V1 m ρ) c (ix2 r h) * aWS (V1 m ρ) c (ix2 s h) : EReal)
    = ∑ h : Fin 1024, Cert.Spec.xrow (M0 m c) r h * (D1 m c (ix2 s h) + D2 m c (ix2 s h))
  refine Finset.sum_congr rfl fun h _ => ?_
  rw [x2row, ws_eq]

end Chain0

end Cert.KernelIdeal.Hand

end
-- ==== Proof.KI.Walk.lean ====
/-
  Walking the buffer fold, at the ideal instance: which earlier contents each region's inputs are, the two reshapes of
  the layer norm's scale and shift read at an index, and the last reshape of the result read at an index.
-/
import proofs.«152862_j64407329571549_2_alg».proof.Proof.KI.HostVals

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section Walk

variable (m : (ℓ : Loc nD τ sig) → Buf (Elt Ideal) ℓ) (ρ : Dev nD → PrngReg)

/-- Region 1 reads the second dense weight as launched (its conversion is the identity). -/
theorem W2_v18 (c : Dev nD) (i : S4096x4096.Idx) : (W2 m ρ c main_v18 : S4096x4096.Idx → EReal) i = M4 m c i := by
  have e : W2 m ρ c (Proc.devRef .tc main_v18) = W1 m ρ c (Proc.devRef .tc main_v18) := W2_of_ne m ρ c main_v18 (by decide)
  refine (congrFun e i).trans ?_
  rw [W1_v18]; rfl

/-- Region 2 reads the third dense weight as launched. -/
theorem W4_v19 (c : Dev nD) (i : S1024x4096.Idx) : (W4 m ρ c main_v19 : S1024x4096.Idx → EReal) i = M5 m c i := by
  have e4 : W4 m ρ c (Proc.devRef .tc main_v19) = W3 m ρ c (Proc.devRef .tc main_v19) := W4_of m ρ c main_v19 (by decide)
  have e3 : W3 m ρ c (Proc.devRef .tc main_v19) = W2 m ρ c (Proc.devRef .tc main_v19) := W3_of_ne m ρ c main_v19 (by decide)
  have e2 : W2 m ρ c (Proc.devRef .tc main_v19) = W1 m ρ c (Proc.devRef .tc main_v19) := W2_of_ne m ρ c main_v19 (by decide)
  refine (congrFun (e4.trans (e3.trans e2)) i).trans ?_
  rw [W1_v19]; rfl

/-- Region 2 reads region 1's result, -/
theorem W4_v23 (c : Dev nD) : W4 m ρ c (Proc.devRef .tc main_v23) = (dat1 (V2 m ρ) c).arrAt 2 cfg1.N :=
  (W4_of m ρ c main_v23 (by decide)).trans (W3_arr m ρ c 2)

/-- and region 0's second result. -/
theorem W4_v22_1 (c : Dev nD) : W4 m ρ c (Proc.devRef .tc main_v22_1) = (dat0 (V1 m ρ) c).arrAt 4 cfg0.N :=
  (W4_of m ρ c main_v22_1 (by decide)).trans ((W3_of_ne m ρ c main_v22_1 (by decide)).trans (W2_arr m ρ c 4))

/-- Region 1 reads region 0's first result. -/
theorem W2_v22_0 (c : Dev nD) : W2 m ρ c (Proc.devRef .tc main_v22_0) = (dat0 (V1 m ρ) c).arrAt 3 cfg0.N := W2_arr m ρ c 3

/-- An argument no earlier segment writes is still as launched when region 2 is entered. -/
theorem W3_arg (c : Dev nD) (b : Ref sig .tc) (h0 : b ∉ hostOps0_W) (a0 : ∀ w, Pipeline.arrRef spec0 w ≠ b) (a1 : ∀ w, Pipeline.arrRef spec1 w ≠ b) :
    W3 m ρ c (Proc.devRef .tc b) = m ((c : Thread nD τ).loc b) :=
  (W3_of_ne m ρ c b a1).trans ((W2_of_ne m ρ c b a0).trans ((W1_of m ρ c b h0).trans rfl))

/-- The layer norm's scale as a one-row matrix, read at its column. -/
theorem W4_v24 (c : Dev nD) (j : Fin 1024) :
    (W4 m ρ c main_v24 : S1x1024.Idx → EReal) (ix2 (0 : Fin 1) j) = M6 m c (ix1 j) := by
  have e : (W4 m ρ c main_v24 : S1x1024.Idx → EReal)
      = shapeCast S1x1024 (W3 m ρ c main_arg6 : FVec Ideal S1024 .f32) shapeCasts_S1024_S1x1024 := by
    show StableHlo.after hostOps2 (W3 m ρ c) (Proc.devRef .tc main_v24) = _
    after_results <;> rfl
  rw [e, shapeCast_apply _ _ (ix2 (0 : Fin 1) j) (ix1 j) (by
    rewrite [Shape.rowMajor_val_one, Shape.rowMajor_val_two]
    show j.val = 0 * 1024 + j.val
    omega)]
  exact congrFun (W3_arg m ρ c main_arg6 (by decide) (by decide) (by decide)) (ix1 j)

/-- The layer norm's shift as a one-row matrix, read at its column. -/
theorem W4_v25 (c : Dev nD) (j : Fin 1024) :
    (W4 m ρ c main_v25 : S1x1024.Idx → EReal) (ix2 (0 : Fin 1) j) = M7 m c (ix1 j) := by
  have e : (W4 m ρ c main_v25 : S1x1024.Idx → EReal)
      = shapeCast S1x1024 (W3 m ρ c main_arg7 : FVec Ideal S1024 .f32) shapeCasts_S1024_S1x1024 := by
    show StableHlo.after hostOps2 (W3 m ρ c) (Proc.devRef .tc main_v25) = _
    after_results <;> rfl
  rw [e, shapeCast_apply _ _ (ix2 (0 : Fin 1) j) (ix1 j) (by
    rewrite [Shape.rowMajor_val_one, Shape.rowMajor_val_two]
    show j.val = 0 * 1024 + j.val
    omega)]
  exact congrFun (W3_arg m ρ c main_arg7 (by decide) (by decide) (by decide)) (ix1 j)

/-- The result: row b · 4096 + t of region 2's result. -/
theorem W6_v27 (c : Dev nD) (b : Fin 8) (t : Fin 4096) (h : Fin 1024) (hr : b.val * 4096 + t.val < 32768) :
    (W6 m ρ c main_v27 : S8x4096x1024.Idx → EReal) (ix3 b t h)
      = (dat2 (V4 m ρ) c).arrAt 5 cfg2.N (ix2 (⟨b.val * 4096 + t.val, hr⟩ : Fin 32768) h) := by
  have e : (W6 m ρ c main_v27 : S8x4096x1024.Idx → EReal)
      = shapeCast S8x4096x1024 (W5 m ρ c main_v26 : FVec Ideal S32768x1024 .f32) shapeCasts_S32768x1024_S8x4096x1024 := by
    show StableHlo.after hostOps3 (W5 m ρ c) (Proc.devRef .tc main_v27) = _
    after_results <;> rfl
  rw [e, shapeCast_apply _ _ (ix3 b t h) (ix2 (⟨b.val * 4096 + t.val, hr⟩ : Fin 32768) h) (by
    rewrite [Shape.rowMajor_val_three, Shape.rowMajor_val_two]
    show (b.val * 4096 + t.val) * 1024 + h.val = (b.val * 4096 + t.val) * 1024 + h.val
    rfl)]
  exact congrFun (W5_arr m ρ c 5) _

end Walk

end Cert.KernelIdeal.Hand

end
-- ==== Proof.KI.Pieces1.lean ====
/-
  Region 1: what the found pieces are, as values.  Each store covers its whole buffer, so what a buffer holds after the
  body is its last store's payload, and a load of the accumulator reads the payload of the store before it (or, where no
  store came before, what the accumulator held on entry).  At the first half the accumulator ends as one accumulation step
  from the zero block; at the second half as one step from what it held, and the result block is the rectification of that.
  At any float instance.
-/
import proofs.«152862_j64407329571549_2_alg».proof.Proof.KI.Region1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 rectangle, as the constant function. -/
theorem hzero2 : (![0, 0] : Fin 2 → Nat) = fun _ => 0 := funext fun a => by fin_cases a <;> rfl

section Pieces1

theorem sout1_A_eq (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 : Vec F S1024x2048 .bf16) (x1 : Vec F S1024x2048 .bf16) :
    sout1_A c i arg3 harg3 arg4 harg4 arg5 harg5 arg6 harg6 hc0 hc1 x0 x1 = k1_pay2 x0 x1 (k1_pay1 (F := F)) := by
  unfold sout1_A
  rw [View.read_writes_eq_canon _ _ _ (scover1_A c i arg3 harg3 arg4 harg4 arg5 harg5 arg6 harg6 hc0 hc1 x0 x1)]
  unfold kernelRun1_A
  dsimp only
  sl_unfold_words
  rw [View.canon_cons_unit_zero hzero2, View.readCov_unit_zero _ hzero2]
  simp only [View.readAt_eq_ld, harg3.read_unread, harg4.read_unread, View.ld_unit_zero (S := S1024x2048) hzero2]

theorem sout1_B_eq (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x2048 .bf16) (x1 : Vec F S1024x2048 .bf16) (xs0 : Vec F S1024x1024 .f32) :
    sout1_B c i arg3 harg3 arg4 harg4 arg5 harg5 arg6 harg6 hc0 hc1 x0 x1 xs0 = k1_pay2 x0 x1 xs0 := by
  unfold sout1_B
  rw [View.read_writes_eq_canon _ _ _ (scover1_B c i arg3 harg3 arg4 harg4 arg5 harg5 arg6 harg6 hc0 hc1 x0 x1 xs0)]
  unfold kernelRun1_B
  dsimp only
  sl_unfold_words
  rw [View.canon_unit_zero hzero2]
  simp only [View.readAt_eq_ld, harg3.read_unread, harg4.read_unread, harg6.read_unread,
    View.ld_unit_zero (S := S1024x2048) hzero2, View.ld_unit_zero (S := S1024x1024) hzero2]

theorem out1_B_eq (c : Dev nD) (i : grid1.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 : Vec F S1024x2048 .bf16) (x1 : Vec F S1024x2048 .bf16) (xs0 : Vec F S1024x1024 .f32) :
    out1_B c i arg3 harg3 arg4 harg4 arg5 harg5 arg6 harg6 hc0 hc1 x0 x1 xs0 = k1_pay3 (k1_pay2 x0 x1 xs0) := by
  unfold out1_B
  rw [View.read_writes_eq_canon _ _ _ (cover1_B c i arg3 harg3 arg4 harg4 arg5 harg5 arg6 harg6 hc0 hc1 x0 x1 xs0)]
  unfold kernelRun1_B
  dsimp only
  sl_unfold_words
  rw [View.canon_unit_zero hzero2, View.readCov_unit_zero _ hzero2]
  simp only [View.readAt_eq_ld, harg3.read_unread, harg4.read_unread, harg6.read_unread,
    View.ld_unit_zero (S := S1024x2048) hzero2, View.ld_unit_zero (S := S1024x1024) hzero2]

end Pieces1

end Cert.KernelIdeal.Hand

end
-- ==== Proof.KI.Pay1.lean ====
/-
  The second kernel body's values, read at an index: the accumulator starts at 0, one accumulation step adds at (p, q) the
  sum over the 2048 contracted entries of left[p, k] · right[q, k], and the activation is the maximum with 0 (the change of
  float format after it is the identity on the extended reals).
-/
import proofs.«152862_j64407329571549_2_alg».proof.Proof.Gen.KernelIdeal.Skeleton
import proofs.«152862_j64407329571549_2_alg».proof.Proof.Spec
import proofs.«152862_j64407329571549_2_alg».proof.Proof.KI.PayMatmul
import Idealize.ShloMosaic.Lib.ValueIdx
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

theorem k1_pay1_apply (p q : Fin 1024) : k1_pay1 (F := Ideal) (ix2 p q) = (0 : EReal) := by
  unfold k1_pay1
  rw [shapeCast_self, broadcast_apply, Ideal.ofBits_def, Ideal.ofBits_zero_f32]

theorem k1_pay2_apply (v3 v5 : Vec Ideal S1024x2048 .bf16) (v7 : Vec Ideal S1024x1024 .f32) (p q : Fin 1024) :
    k1_pay2 v3 v5 v7 (ix2 p q) = v7 (ix2 p q) + ∑ k : Fin 2048, v3 (ix2 p k) * v5 (ix2 q k) := by
  unfold k1_pay2
  simp only [shapeCast_self]
  rw [addf_apply, matmul_B]

theorem k1_pay3_apply (v16 : Vec Ideal S1024x1024 .f32) (p q : Fin 1024) :
    k1_pay3 v16 (ix2 p q) = max (v16 (ix2 p q)) 0 := by
  unfold k1_pay3
  rw [truncf_apply, maximumf_apply, broadcast_apply, Ideal.ofBits_def, Ideal.ofBits_zero_f32]

end Cert.KernelIdeal.Pay

end
-- ==== Proof.KI.Value1.lean ====
/-
  Region 1: from what each grid point leaves to the whole result array, at the ideal values.

  The grid point number is t = (i · 4 + j) · 2 + k with i < 32 the row block, j < 4 the column block of the result and
  k < 2 the half of the contraction.  Window 0's block at t is rows i · 1024 … of the left array and columns k · 2048 … ;
  window 1's is rows j · 1024 … of the right array and the same columns; the result's is rows i · 1024 …, columns
  j · 1024 ….  At an odd point (k = 1) the stored block is, at (p, q),

      max ((0 + Σ_{k' < 2048} A[r, k'] · B[o, k']) + Σ_{k' < 2048} A[r, 2048 + k'] · B[o, 2048 + k']) 0

  with r = i · 1024 + p and o = j · 1024 + q, the first sum being what the even point before (same i and j, k = 0) left in
  the accumulator.  A sum over 4096 terms is the sum of its two halves, so the block is the block of the one function
  G(r, o) = max (Σ_{l < 4096} A[r, l] · B[o, l]) 0, and the odd points' blocks tile the result array.
-/
import proofs.«152862_j64407329571549_2_alg».proof.Proof.KI.Pieces1
import proofs.«152862_j64407329571549_2_alg».proof.Proof.KI.Pay1
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.KernelIdeal.Pay
open scoped BigOperators

/-- A sum over 4096 terms is the sum of its first 2048 and its last 2048. -/
theorem sum_4096 (f : Fin 4096 → EReal) :
    ∑ l : Fin 4096, f l
      = (∑ k : Fin 2048, f ⟨k.val, by have := k.isLt; omega⟩) + ∑ k : Fin 2048, f ⟨2048 + k.val, by have := k.isLt; omega⟩ :=
  Fin.sum_univ_add (a := 2048) (b := 2048) f

section Value1

variable (V : (c : Dev nD) → (b : Ref sig .tc) → Buf (Elt Ideal) ((c : Thread nD τ).loc b))

/-- The left array the region is entered with, on its literal index type. -/
abbrev arr1_A (c : Dev nD) : S32768x4096.Idx → EReal := V c main_v22_0
/-- The right array the region is entered with, on its literal index type. -/
abbrev arr1_B (c : Dev nD) : S4096x4096.Idx → EReal := V c main_v18

/-- The index maps as closed forms of the point number. -/
theorem idx1 : ∀ t : Fin cfg1.N,
    win1_0.index t (0 : Fin 2) = t.val / 8 ∧ win1_0.index t (1 : Fin 2) = t.val % 2
    ∧ win1_1.index t (0 : Fin 2) = t.val / 2 % 4 ∧ win1_1.index t (1 : Fin 2) = t.val % 2
    ∧ win1_2.index t (0 : Fin 2) = t.val / 8 ∧ win1_2.index t (1 : Fin 2) = t.val / 2 % 4 :=
  (by decide +kernel : ∀ t : Fin grid1.N, _)

/-- Window 0's block at point t, read where the left array says. -/
theorem iblk1_0_apply (c : Dev nD) (t : Fin cfg1.N) (x : S1024x2048.Idx) (k : S32768x4096.Idx)
    (hk0 : (k 0).val = t.val / 8 * 1024 + (x 0).val) (hk1 : (k 1).val = t.val % 2 * 2048 + (x 1).val) :
    (iblk1 V c 0 t : Vec Ideal S1024x2048 .bf16) x = arr1_A V c k := by
  obtain ⟨e0, e1, -, -, -, -⟩ := idx1 t
  unfold iblk1
  rw [View.read_apply]
  show V c main_v22_0 _ = V c main_v22_0 _
  congr 1
  funext a
  apply Fin.ext
  match a with
  | ⟨0, _⟩ => show win1_0.index t 0 * 1024 + 1 * (x 0).val = (k 0).val; rw [e0, hk0]; omega
  | ⟨1, _⟩ => show win1_0.index t 1 * 2048 + 1 * (x 1).val = (k 1).val; rw [e1, hk1]; omega

/-- Window 1's block at point t, read where the right array says. -/
theorem iblk1_1_apply (c : Dev nD) (t : Fin cfg1.N) (x : S1024x2048.Idx) (k : S4096x4096.Idx)
    (hk0 : (k 0).val = t.val / 2 % 4 * 1024 + (x 0).val) (hk1 : (k 1).val = t.val % 2 * 2048 + (x 1).val) :
    (iblk1 V c 1 t : Vec Ideal S1024x2048 .bf16) x = arr1_B V c k := by
  obtain ⟨-, -, e0, e1, -, -⟩ := idx1 t
  unfold iblk1
  rw [View.read_apply]
  show V c main_v18 _ = V c main_v18 _
  congr 1
  funext a
  apply Fin.ext
  match a with
  | ⟨0, _⟩ => show win1_1.index t 0 * 1024 + 1 * (x 0).val = (k 0).val; rw [e0, hk0]; omega
  | ⟨1, _⟩ => show win1_1.index t 1 * 2048 + 1 * (x 1).val = (k 1).val; rw [e1, hk1]; omega

/-- Entry (r, o) of what the result array ends holding: the rectified product of row r of the left array against row o of
    the right array. -/
def g1 (c : Dev nD) (r : Fin 32768) (o : Fin 4096) : EReal :=
  max (∑ l : Fin 4096, arr1_A V c (ix2 r l) * arr1_B V c (ix2 o l)) 0

/-- What the result array ends holding, as one function of its index. -/
def G1 (c : Dev nD) : S32768x4096.Idx → EReal := fun i => g1 V c (i 0) (i 1)

/-- Two accumulation steps from the zero block, rectified, at (p, q). -/
theorem point1 (X0 X1 X0' X1' : Vec Ideal S1024x2048 .bf16) (p q : Fin 1024) :
    k1_pay3 (k1_pay2 X0 X1 (k1_pay2 X0' X1' (k1_pay1 (F := Ideal)))) (ix2 p q)
      = max ((0 + ∑ k : Fin 2048, X0' (ix2 p k) * X1' (ix2 q k)) + ∑ k : Fin 2048, X0 (ix2 p k) * X1 (ix2 q k)) 0 := by
  rw [k1_pay3_apply, k1_pay2_apply, k1_pay2_apply, k1_pay1_apply]

/-- The block an odd point stores is the block of g1 at the point's row and column blocks. -/
theorem block1 (c : Dev nD) (t : Fin cfg1.N) (h : ¬t.val % 2 = 0) (p q : Fin 1024) :
    k1_pay3 (k1_pay2 (iblk1 V c 0 t) (iblk1 V c 1 t)
        (k1_pay2 (iblk1 V c 0 (prev1 t)) (iblk1 V c 1 (prev1 t)) (k1_pay1 (F := Ideal)))) (ix2 p q)
      = g1 V c ⟨t.val / 8 * 1024 + p.val, by have := N1_lt t; have := p.isLt; omega⟩
          ⟨t.val / 2 % 4 * 1024 + q.val, by have := q.isLt; omega⟩ := by
  refine (point1 _ _ _ _ p q).trans ?_
  unfold g1
  rw [sum_4096, zero_add]
  have hp : (prev1 t).val = t.val - 1 := rfl
  refine congrArg (max · 0) (congrArg₂ (· + ·) (Finset.sum_congr rfl fun k _ => ?_) (Finset.sum_congr rfl fun k _ => ?_))
  · refine congrArg₂ (· * ·) (iblk1_0_apply V c (prev1 t) _ _ ?_ ?_) (iblk1_1_apply V c (prev1 t) _ _ ?_ ?_)
    · show t.val / 8 * 1024 + p.val = (prev1 t).val / 8 * 1024 + p.val; rw [hp]; omega
    · show k.val = (prev1 t).val % 2 * 2048 + k.val; rw [hp]; omega
    · show t.val / 2 % 4 * 1024 + q.val = (prev1 t).val / 2 % 4 * 1024 + q.val; rw [hp]; omega
    · show k.val = (prev1 t).val % 2 * 2048 + k.val; rw [hp]; omega
  · refine congrArg₂ (· * ·) (iblk1_0_apply V c t _ _ ?_ ?_) (iblk1_1_apply V c t _ _ ?_ ?_)
    · rfl
    · show 2048 + k.val = t.val % 2 * 2048 + k.val; omega
    · rfl
    · show 2048 + k.val = t.val % 2 * 2048 + k.val; omega

/-- The result window's blocks tile its array, so the part of a block the write-back moves is the whole block. -/
theorem cut1_2 (t : Fin cfg1.N) (X : Vec Ideal S1024x1024 .bf16) : (cfg1.win 2).cut (grid1.coords t) X = X := rfl

/-- What an odd point writes back is its block of G1. -/
theorem flushed1_eq (c : Dev nD) (t : Fin cfg1.N) (hf : (cfg1.win 2).flush t = true) :
    (dat1 V c).flushed 2 t = ((cfg1.win 2).blk t).view.read (Elt Ideal) (G1 V c) := by
  have h : ¬t.val % 2 = 0 := by have := (flush1_2 t).mp hf; omega
  obtain ⟨-, -, -, -, e0, e1⟩ := idx1 t
  show (cfg1.win 2).cut (grid1.coords t) ((dat1 V c).after 2 t) = _
  rw [after1_2, show oAt1 V c t = oB1 V c t h from dif_neg h]
  unfold oB1 sA1
  rw [out1_B_eq, sout1_A_eq]
  refine (cut1_2 t _).trans ?_
  funext j
  obtain ⟨p, q, rfl⟩ : ∃ (p : Fin 1024) (q : Fin 1024), j = ix2 p q := ⟨j 0, j 1, eq_ix2 j⟩
  refine (block1 V c t h p q).trans ?_
  rw [View.read_apply]
  unfold G1
  show g1 V c _ _ = g1 V c _ _
  refine congrArg₂ (g1 V c) (Fin.ext ?_) (Fin.ext ?_)
  · show t.val / 8 * 1024 + p.val = win1_2.index t 0 * 1024 + 1 * p.val; rw [e0]; omega
  · show t.val / 2 % 4 * 1024 + q.val = win1_2.index t 1 * 1024 + 1 * q.val; rw [e1]; omega

/-- An index of the result array is in point t's block iff each coordinate is in the block's range on its axis. -/
theorem mem_blk1 (t : Fin cfg1.N) (i : S32768x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v23).slice (win1_2.rect t)).set ↔ _
  rw [View.set_slice_whole, Rect.mem_set_unit]
  exact Iff.rfl

/-- Every index of the result array is in the block of an odd point: the one with i = r / 1024 and j = o / 1024. -/
theorem cover1 (i : S32768x4096.Idx) : ∃ t : Fin cfg1.N, (cfg1.win 2).flush t = true ∧ i ∈ ((cfg1.win 2).blk t).view.set := by
  have h0 : (i 0).val < 32768 := (i 0).isLt
  have h1 : (i 1).val < 4096 := (i 1).isLt
  have hN : cfg1.N = 256 := N_1
  let t : Fin cfg1.N := ⟨((i 0).val / 1024 * 4 + (i 1).val / 1024) * 2 + 1, by rw [hN]; omega⟩
  have ht : t.val = ((i 0).val / 1024 * 4 + (i 1).val / 1024) * 2 + 1 := rfl
  obtain ⟨-, -, -, -, e0, e1⟩ := idx1 t
  refine ⟨t, (flush1_2 t).mpr (by rw [ht]; omega), ?_⟩
  rw [mem_blk1]
  intro a
  match a with
  | ⟨0, _⟩ => show win1_2.index t 0 * 1024 ≤ (i 0).val ∧ (i 0).val < win1_2.index t 0 * 1024 + 1024; rw [e0, ht]; omega
  | ⟨1, _⟩ => show win1_2.index t 1 * 1024 ≤ (i 1).val ∧ (i 1).val < win1_2.index t 1 * 1024 + 1024; rw [e1, ht]; omega

/-- The result array after the region: the rectified product, entry by entry. -/
theorem final1 (c : Dev nD) (r : Fin 32768) (o : Fin 4096) :
    (dat1 V c).arrAt 2 cfg1.N (ix2 r o)
      = (max (∑ l : Fin 4096, arr1_A V c (ix2 r l) * arr1_B V c (ix2 o l)) 0 : EReal) := by
  rw [(dat1 V c).arrAt_eq_of_cover 2 (G1 V c) (flushed1_eq V c) cover1]
  rfl

end Value1

end Cert.KernelIdeal.Hand

end
-- ==== Proof.KI.Pieces2.lean ====
/-
  Region 2: what the found pieces are, as values.  Each store covers its whole buffer, so what a buffer holds after the
  body is its last store's payload, and a load of the accumulator reads the payload of the store before it (or what the
  accumulator held on entry).  At the first half the accumulator ends as one accumulation step from the zero block; at the
  second half as one step from what it held, and the result block is the layer norm of that plus the residual block, with
  the scale and shift rows.  At any float instance.
-/
import proofs.«152862_j64407329571549_2_alg».proof.Proof.KI.Region2
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 rectangle, as the constant function. -/
theorem hzero2' : (![0, 0] : Fin 2 → Nat) = fun _ => 0 := funext fun a => by fin_cases a <;> rfl

section Pieces2

theorem sout2_A_eq (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond2_0 i) (hc1 : ¬cond2_1 i)
    (x0 : Vec F S512x2048 .bf16) (x1 : Vec F S1024x2048 .bf16) (x2 : Vec F S512x1024 .f32) (x3 : Vec F S1x1024 .f32) (x4 : Vec F S1x1024 .f32) :
    sout2_A c i arg2 harg2 arg3 harg3 arg4 harg4 arg5 harg5 arg6 harg6 arg7 harg7 arg8 harg8 hc0 hc1 x0 x1 x2 x3 x4 = k2_pay2 x0 x1 (k2_pay1 (F := F)) := by
  unfold sout2_A
  rw [View.read_writes_eq_canon _ _ _ (scover2_A c i arg2 harg2 arg3 harg3 arg4 harg4 arg5 harg5 arg6 harg6 arg7 harg7 arg8 harg8 hc0 hc1 x0 x1 x2 x3 x4)]
  unfold kernelRun2_A
  dsimp only
  sl_unfold_words
  rw [View.canon_cons_unit_zero hzero2', View.readCov_unit_zero _ hzero2']
  simp only [View.readAt_eq_ld, harg2.read_unread, harg3.read_unread, harg4.read_unread, harg5.read_unread, harg6.read_unread,
    harg8.read_unread, View.ld_unit_zero (S := S512x2048) hzero2', View.ld_unit_zero (S := S1024x2048) hzero2',
    View.ld_unit_zero (S := S512x1024) hzero2', View.ld_unit_zero (S := S1x1024) hzero2']

theorem sout2_B_eq (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond2_0 i) (hc1 : cond2_1 i)
    (x0 : Vec F S512x2048 .bf16) (x1 : Vec F S1024x2048 .bf16) (x2 : Vec F S512x1024 .f32) (x3 : Vec F S1x1024 .f32) (x4 : Vec F S1x1024 .f32) (xs0 : Vec F S512x1024 .f32) :
    sout2_B c i arg2 harg2 arg3 harg3 arg4 harg4 arg5 harg5 arg6 harg6 arg7 harg7 arg8 harg8 hc0 hc1 x0 x1 x2 x3 x4 xs0 = k2_pay2 x0 x1 xs0 := by
  unfold sout2_B
  rw [View.read_writes_eq_canon _ _ _ (scover2_B c i arg2 harg2 arg3 harg3 arg4 harg4 arg5 harg5 arg6 harg6 arg7 harg7 arg8 harg8 hc0 hc1 x0 x1 x2 x3 x4 xs0)]
  unfold kernelRun2_B
  dsimp only
  sl_unfold_words
  rw [View.canon_unit_zero hzero2']
  simp only [View.readAt_eq_ld, harg2.read_unread, harg3.read_unread, harg4.read_unread, harg5.read_unread, harg6.read_unread,
    harg8.read_unread, View.ld_unit_zero (S := S512x2048) hzero2', View.ld_unit_zero (S := S1024x2048) hzero2',
    View.ld_unit_zero (S := S512x1024) hzero2', View.ld_unit_zero (S := S1x1024) hzero2']

theorem out2_B_eq (c : Dev nD) (i : grid2.Coords) (arg2 : Memref sig .tc .vmem S512x2048 .bf16) (harg2 : arg2.IsWhole) (arg3 : Memref sig .tc .vmem S1024x2048 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond2_0 i) (hc1 : cond2_1 i)
    (x0 : Vec F S512x2048 .bf16) (x1 : Vec F S1024x2048 .bf16) (x2 : Vec F S512x1024 .f32) (x3 : Vec F S1x1024 .f32) (x4 : Vec F S1x1024 .f32) (xs0 : Vec F S512x1024 .f32) :
    out2_B c i arg2 harg2 arg3 harg3 arg4 harg4 arg5 harg5 arg6 harg6 arg7 harg7 arg8 harg8 hc0 hc1 x0 x1 x2 x3 x4 xs0 = k2_pay3 (k2_pay2 x0 x1 xs0) x2 x3 x4 := by
  unfold out2_B
  rw [View.read_writes_eq_canon _ _ _ (cover2_B c i arg2 harg2 arg3 harg3 arg4 harg4 arg5 harg5 arg6 harg6 arg7 harg7 arg8 harg8 hc0 hc1 x0 x1 x2 x3 x4 xs0)]
  unfold kernelRun2_B
  dsimp only
  sl_unfold_words
  rw [View.canon_unit_zero hzero2', View.readCov_unit_zero _ hzero2']
  simp only [View.readAt_eq_ld, harg2.read_unread, harg3.read_unread, harg4.read_unread, harg5.read_unread, harg6.read_unread,
    harg8.read_unread, View.ld_unit_zero (S := S512x2048) hzero2', View.ld_unit_zero (S := S1024x2048) hzero2',
    View.ld_unit_zero (S := S512x1024) hzero2', View.ld_unit_zero (S := S1x1024) hzero2']

end Pieces2

end Cert.KernelIdeal.Hand

end
-- ==== Proof.KI.PayLayout.lean ====
/-
  The layout operations of the layer-norm body that the library does not read at an index, and its lane sum.

  A vector [a] viewed as a column [a, 1] has at (p, 0) the entry p (the two have the same row-major position p · 1 + 0).
  A column [a, 1] broadcast along a new last axis to [a, b] has at (p, c) the column's entry (p, 0).  A sum over the last
  axis of an [a, b] array, into [a], is at p the sum over k of the entries (p, k); its accumulator is the zero word, the
  neutral element of the sum, and contributes nothing.
-/
import proofs.«152862_j64407329571549_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- A vector viewed as a column reads, at (p, 0), its entry p. -/
theorem shapeCast_a_a1_apply {α : Type} {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- A column broadcast along a new last axis reads, at (p, c), the column's entry (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the last axis of a [512, 1024] array, at p.  The three side conditions are variables, so that the lemma
    applies whatever proofs of them a term carries; the accumulator's condition is spelt as the equation of the zero word
    with itself, which is what the neutral element of the sum unfolds to. -/
theorem rowSum_apply (src : FVec Ideal S512x1024 .f32) (h : S512x1024.Reduces [1] S512) (hφ : FKind.Formats .f32)
    (hacc : (0x00000000#32 : BitVec FTy.f32.bits) = 0x00000000#32) (p : Fin 512) :
    multiReduction .add [1] S512 src 0x00000000#32 h hφ hacc (ix1 p) = ∑ k : Fin 1024, src (ix2 p k) := by
  refine (Ideal.multiReduction_add_single src 0x00000000#32 h hφ hacc (ix1 p)).trans ?_
  show ∑ k : Fin 1024, src (h.lift (ix1 p) k) = _
  refine Finset.sum_congr rfl fun k _ => congrArg src (funext fun c => Fin.ext ?_)
  show Shape.Reduces.liftVal h (ix1 p) k.val c = (ix2 p k c).val
  match c with
  | ⟨0, _⟩ => rfl
  | ⟨1, _⟩ => rfl

/-- A reciprocal square root at an index is the reciprocal square root of the entry. -/
theorem rsqrt_apply {s : Shape} {φ : FTy} (x : FVec Ideal s φ) (i : s.Idx) : rsqrt x i = Ideal.rsqrt (x i) := rfl

end Cert.KernelIdeal.Pay

end
-- ==== Proof.KI.Pay2.lean ====
/-
  The third kernel body's values, read at an index.

  The accumulator starts at 0 and one accumulation step adds at (p, q) the sum over the 2048 contracted entries of
  left[p, k] · right[q, k].  The last step is a layer norm of each row of the sum Z = accumulator + small branch: the row
  mean is the lane sum of Z divided by the word of 1024.0, kept as a column and broadcast back along the row; the variance
  is the same mean of (Z − μ) · (Z − μ); the result is ((Z − μ) · rsqrt(σ² + ε)) · γ + β with γ and β one row each,
  broadcast down the rows.  That is the specification's row function of Z[p, ·], at column q; the words of 1024.0 and of ε
  are carried as the extended reals they denote.
-/
import proofs.«152862_j64407329571549_2_alg».proof.Proof.Gen.KernelIdeal.Skeleton
import proofs.«152862_j64407329571549_2_alg».proof.Proof.Spec
import proofs.«152862_j64407329571549_2_alg».proof.Proof.KI.PayMatmul
import proofs.«152862_j64407329571549_2_alg».proof.Proof.KI.PayLayout
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

theorem k2_pay1_apply (p : Fin 512) (q : Fin 1024) : k2_pay1 (F := Ideal) (ix2 p q) = (0 : EReal) := by
  unfold k2_pay1
  rw [shapeCast_self, broadcast_apply, Ideal.ofBits_def, Ideal.ofBits_zero_f32]

theorem k2_pay2_apply (v3 : Vec Ideal S512x2048 .bf16) (v5 : Vec Ideal S1024x2048 .bf16) (v7 : Vec Ideal S512x1024 .f32)
    (p : Fin 512) (q : Fin 1024) :
    k2_pay2 v3 v5 v7 (ix2 p q) = v7 (ix2 p q) + ∑ k : Fin 2048, v3 (ix2 p k) * v5 (ix2 q k) := by
  unfold k2_pay2
  simp only [shapeCast_self]
  rw [addf_apply, matmul_C]

theorem k2_pay3_apply (v16 v17 : Vec Ideal S512x1024 .f32) (v36 v40 : Vec Ideal S1x1024 .f32) (p : Fin 512) (q : Fin 1024) :
    k2_pay3 v16 v17 v36 v40 (ix2 p q)
      = Cert.Spec.lnorm (fun k : Fin 1024 => v16 (ix2 p k) + v17 (ix2 p k)) (fun j => v36 (ix2 (0 : Fin 1) (j 0)))
          (fun j => v40 (ix2 (0 : Fin 1) (j 0))) q := by
  unfold k2_pay3
  repeat (first
    | rw [rowSum_apply]
    | simp only [shapeCast_self, addf_apply, mulf_apply, subf_apply, divf_apply, rsqrt_apply, broadcast_apply,
        broadcastTo_1b_ab_apply, broadcastTo_a1_ab_apply, shapeCast_a_a1_apply, Ideal.ofBits_def])
  rfl

end Cert.KernelIdeal.Pay

end
-- ==== Proof.KI.Value2.lean ====
/-
  Region 2: from what each grid point leaves to the whole result array, at the ideal values.

  The grid point number is t = i · 2 + k with i < 64 the row block (512 rows) and k < 2 the half of the contraction.
  Window 0's block at t is rows i · 512 … of the left array and columns k · 2048 …; window 1's is all 1024 rows of the
  right array and the same columns; window 2's is rows i · 512 … of the residual; windows 3 and 4 are the scale and shift
  rows; the result's block is rows i · 512 ….  At an odd point the stored block is, at (p, q), the layer norm at column q of
  the row

      h' ↦ ((0 + Σ_{k' < 2048} X[r, k'] · W[h', k']) + Σ_{k' < 2048} X[r, 2048 + k'] · W[h', 2048 + k']) + R[r, h']

  with r = i · 512 + p, the first sum being what the even point before left in the accumulator.  A sum over 4096 terms is
  the sum of its two halves, so the block is the block of one function of the result's index, and the odd points' blocks
  tile the result array.
-/
import proofs.«152862_j64407329571549_2_alg».proof.Proof.KI.Pieces2
import proofs.«152862_j64407329571549_2_alg».proof.Proof.KI.Pay2
import proofs.«152862_j64407329571549_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.KernelIdeal.Pay
open scoped BigOperators

/-- A sum over 4096 terms is the sum of its first 2048 and its last 2048. -/
theorem sum_4096' (f : Fin 4096 → EReal) :
    ∑ l : Fin 4096, f l
      = (∑ k : Fin 2048, f ⟨k.val, by have := k.isLt; omega⟩) + ∑ k : Fin 2048, f ⟨2048 + k.val, by have := k.isLt; omega⟩ :=
  Fin.sum_univ_add (a := 2048) (b := 2048) f

section Value2

variable (V : (c : Dev nD) → (b : Ref sig .tc) → Buf (Elt Ideal) ((c : Thread nD τ).loc b))

/-- The arrays the region is entered with, on their literal index types: the left operand, -/
abbrev arr2_X (c : Dev nD) : S32768x4096.Idx → EReal := V c main_v23
/-- the right operand, -/
abbrev arr2_W (c : Dev nD) : S1024x4096.Idx → EReal := V c main_v19
/-- the residual, -/
abbrev arr2_R (c : Dev nD) : S32768x1024.Idx → EReal := V c main_v22_1
/-- the layer norm's scale row, -/
abbrev arr2_G (c : Dev nD) : S1x1024.Idx → EReal := V c main_v24
/-- and its shift row. -/
abbrev arr2_H (c : Dev nD) : S1x1024.Idx → EReal := V c main_v25

/-- The index maps as closed forms of the point number. -/
theorem idx2 : ∀ t : Fin cfg2.N,
    win2_0.index t (0 : Fin 2) = t.val / 2 ∧ win2_0.index t (1 : Fin 2) = t.val % 2
    ∧ win2_1.index t (0 : Fin 2) = 0 ∧ win2_1.index t (1 : Fin 2) = t.val % 2
    ∧ win2_2.index t (0 : Fin 2) = t.val / 2 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 2 ∧ win2_5.index t (1 : Fin 2) = 0 :=
  (by decide +kernel : ∀ t : Fin grid2.N, _)

/-! Each input block read where its array says. -/

theorem iblk2_0_apply (c : Dev nD) (t : Fin cfg2.N) (x : S512x2048.Idx) (k : S32768x4096.Idx)
    (hk0 : (k 0).val = t.val / 2 * 512 + (x 0).val) (hk1 : (k 1).val = t.val % 2 * 2048 + (x 1).val) :
    (iblk2 V c 0 t : Vec Ideal S512x2048 .bf16) x = arr2_X V c k := by
  have e := idx2 t
  unfold iblk2
  rw [View.read_apply]
  show V c main_v23 _ = V c main_v23 _
  congr 1
  funext a
  apply Fin.ext
  match a with
  | ⟨0, _⟩ => show win2_0.index t 0 * 512 + 1 * (x 0).val = (k 0).val; rw [e.1, hk0]; omega
  | ⟨1, _⟩ => show win2_0.index t 1 * 2048 + 1 * (x 1).val = (k 1).val; rw [e.2.1, hk1]; omega

theorem iblk2_1_apply (c : Dev nD) (t : Fin cfg2.N) (x : S1024x2048.Idx) (k : S1024x4096.Idx)
    (hk0 : (k 0).val = (x 0).val) (hk1 : (k 1).val = t.val % 2 * 2048 + (x 1).val) :
    (iblk2 V c 1 t : Vec Ideal S1024x2048 .bf16) x = arr2_W V c k := by
  have e := idx2 t
  unfold iblk2
  rw [View.read_apply]
  show V c main_v19 _ = V c main_v19 _
  congr 1
  funext a
  apply Fin.ext
  match a with
  | ⟨0, _⟩ => show win2_1.index t 0 * 1024 + 1 * (x 0).val = (k 0).val; rw [e.2.2.1, hk0]; omega
  | ⟨1, _⟩ => show win2_1.index t 1 * 2048 + 1 * (x 1).val = (k 1).val; rw [e.2.2.2.1, hk1]; omega

theorem iblk2_2_apply (c : Dev nD) (t : Fin cfg2.N) (x : S512x1024.Idx) (k : S32768x1024.Idx)
    (hk0 : (k 0).val = t.val / 2 * 512 + (x 0).val) (hk1 : (k 1).val = (x 1).val) :
    (iblk2 V c 2 t : Vec Ideal S512x1024 .f32) x = arr2_R V c k := by
  have e := idx2 t
  unfold iblk2
  rw [View.read_apply]
  show V c main_v22_1 _ = V c main_v22_1 _
  congr 1
  funext a
  apply Fin.ext
  match a with
  | ⟨0, _⟩ => show win2_2.index t 0 * 512 + 1 * (x 0).val = (k 0).val; rw [e.2.2.2.2.1, hk0]; omega
  | ⟨1, _⟩ => show win2_2.index t 1 * 1024 + 1 * (x 1).val = (k 1).val; rw [e.2.2.2.2.2.1, hk1]; omega

theorem iblk2_3_apply (c : Dev nD) (t : Fin cfg2.N) (x : S1x1024.Idx) (k : S1x1024.Idx)
    (hk0 : (k 0).val = (x 0).val) (hk1 : (k 1).val = (x 1).val) :
    (iblk2 V c 3 t : Vec Ideal S1x1024 .f32) x = arr2_G V c k := by
  have e := idx2 t
  unfold iblk2
  rw [View.read_apply]
  show V c main_v24 _ = V c main_v24 _
  congr 1
  funext a
  apply Fin.ext
  match a with
  | ⟨0, _⟩ => show win2_3.index t 0 * 1 + 1 * (x 0).val = (k 0).val; rw [e.2.2.2.2.2.2.1, hk0]; omega
  | ⟨1, _⟩ => show win2_3.index t 1 * 1024 + 1 * (x 1).val = (k 1).val; rw [e.2.2.2.2.2.2.2.1, hk1]; omega

theorem iblk2_4_apply (c : Dev nD) (t : Fin cfg2.N) (x : S1x1024.Idx) (k : S1x1024.Idx)
    (hk0 : (k 0).val = (x 0).val) (hk1 : (k 1).val = (x 1).val) :
    (iblk2 V c 4 t : Vec Ideal S1x1024 .f32) x = arr2_H V c k := by
  have e := idx2 t
  unfold iblk2
  rw [View.read_apply]
  show V c main_v25 _ = V c main_v25 _
  congr 1
  funext a
  apply Fin.ext
  match a with
  | ⟨0, _⟩ => show win2_4.index t 0 * 1 + 1 * (x 0).val = (k 0).val; rw [e.2.2.2.2.2.2.2.2.1, hk0]; omega
  | ⟨1, _⟩ => show win2_4.index t 1 * 1024 + 1 * (x 1).val = (k 1).val; rw [e.2.2.2.2.2.2.2.2.2.1, hk1]; omega

/-- Entry (r, h) of what the result array ends holding: the layer norm, at column h, of row r of the product plus the
    residual, with the scale and shift rows. -/
def g2 (c : Dev nD) (r : Fin 32768) (h : Fin 1024) : EReal :=
  Cert.Spec.lnorm (fun h' : Fin 1024 => (∑ l : Fin 4096, arr2_X V c (ix2 r l) * arr2_W V c (ix2 h' l)) + arr2_R V c (ix2 r h'))
    (fun j => arr2_G V c (ix2 (0 : Fin 1) (j 0))) (fun j => arr2_H V c (ix2 (0 : Fin 1) (j 0))) h

/-- What the result array ends holding, as one function of its index. -/
def G2 (c : Dev nD) : S32768x1024.Idx → EReal := fun i => g2 V c (i 0) (i 1)

/-- Two accumulation steps from the zero block, then the layer norm with the residual, at (p, q). -/
theorem point2 (X0 X0' : Vec Ideal S512x2048 .bf16) (X1 X1' : Vec Ideal S1024x2048 .bf16) (X2 : Vec Ideal S512x1024 .f32)
    (X3 X4 : Vec Ideal S1x1024 .f32) (p : Fin 512) (q : Fin 1024) :
    k2_pay3 (k2_pay2 X0 X1 (k2_pay2 X0' X1' (k2_pay1 (F := Ideal)))) X2 X3 X4 (ix2 p q)
      = Cert.Spec.lnorm (fun k : Fin 1024 =>
            ((0 + ∑ k' : Fin 2048, X0' (ix2 p k') * X1' (ix2 k k')) + ∑ k' : Fin 2048, X0 (ix2 p k') * X1 (ix2 k k'))
              + X2 (ix2 p k))
          (fun j => X3 (ix2 (0 : Fin 1) (j 0))) (fun j => X4 (ix2 (0 : Fin 1) (j 0))) q := by
  rw [k2_pay3_apply]
  simp only [k2_pay2_apply, k2_pay1_apply]

/-- The block an odd point stores is the block of g2 at the point's row block. -/
theorem block2 (c : Dev nD) (t : Fin cfg2.N) (h : ¬t.val % 2 = 0) (p : Fin 512) (q : Fin 1024) :
    k2_pay3 (k2_pay2 (iblk2 V c 0 t) (iblk2 V c 1 t)
        (k2_pay2 (iblk2 V c 0 (prev2 t)) (iblk2 V c 1 (prev2 t)) (k2_pay1 (F := Ideal))))
        (iblk2 V c 2 t) (iblk2 V c 3 t) (iblk2 V c 4 t) (ix2 p q)
      = g2 V c ⟨t.val / 2 * 512 + p.val, by have := N2_lt t; have := p.isLt; omega⟩ q := by
  refine (point2 _ _ _ _ _ _ _ p q).trans ?_
  unfold g2
  have hp : (prev2 t).val = t.val - 1 := rfl
  refine congrFun (congr (congr (congrArg Cert.Spec.lnorm (funext fun k => ?_)) (funext fun j => ?_)) (funext fun j => ?_)) q
  · rw [sum_4096', zero_add]
    refine congrArg₂ (· + ·) (congrArg₂ (· + ·) (Finset.sum_congr rfl fun k' _ => ?_) (Finset.sum_congr rfl fun k' _ => ?_))
      (iblk2_2_apply V c t _ _ rfl rfl)
    · refine congrArg₂ (· * ·) (iblk2_0_apply V c (prev2 t) _ _ ?_ ?_) (iblk2_1_apply V c (prev2 t) _ _ rfl ?_)
      · show t.val / 2 * 512 + p.val = (prev2 t).val / 2 * 512 + p.val; rw [hp]; omega
      · show k'.val = (prev2 t).val % 2 * 2048 + k'.val; rw [hp]; omega
      · show k'.val = (prev2 t).val % 2 * 2048 + k'.val; rw [hp]; omega
    · refine congrArg₂ (· * ·) (iblk2_0_apply V c t _ _ rfl ?_) (iblk2_1_apply V c t _ _ rfl ?_)
      · show 2048 + k'.val = t.val % 2 * 2048 + k'.val; omega
      · show 2048 + k'.val = t.val % 2 * 2048 + k'.val; omega
  · exact iblk2_3_apply V c t _ _ rfl rfl
  · exact iblk2_4_apply V c t _ _ rfl rfl

/-- The result window's blocks tile its array, so the part of a block the write-back moves is the whole block. -/
theorem cut2_5 (t : Fin cfg2.N) (X : Vec Ideal S512x1024 .f32) : (cfg2.win 5).cut (grid2.coords t) X = X := rfl

/-- What an odd point writes back is its block of G2. -/
theorem flushed2_eq (c : Dev nD) (t : Fin cfg2.N) (hf : (cfg2.win 5).flush t = true) :
    (dat2 V c).flushed 5 t = ((cfg2.win 5).blk t).view.read (Elt Ideal) (G2 V c) := by
  have h : ¬t.val % 2 = 0 := by have := (flush2_5 t).mp hf; omega
  have e := idx2 t
  show (cfg2.win 5).cut (grid2.coords t) ((dat2 V c).after 5 t) = _
  rw [after2_5, show oAt2 V c t = oB2 V c t h from dif_neg h]
  unfold oB2 sA2
  rw [out2_B_eq, sout2_A_eq]
  refine (cut2_5 t _).trans ?_
  funext j
  obtain ⟨p, q, rfl⟩ : ∃ (p : Fin 512) (q : Fin 1024), j = ix2 p q := ⟨j 0, j 1, eq_ix2 j⟩
  refine (block2 V c t h p q).trans ?_
  rw [View.read_apply]
  unfold G2
  show g2 V c _ _ = g2 V c _ _
  refine congrArg₂ (g2 V c) (Fin.ext ?_) (Fin.ext ?_)
  · show t.val / 2 * 512 + p.val = win2_5.index t 0 * 512 + 1 * p.val; rw [e.2.2.2.2.2.2.2.2.2.2.1]; omega
  · show q.val = win2_5.index t 1 * 1024 + 1 * q.val; rw [e.2.2.2.2.2.2.2.2.2.2.2]; omega

/-- An index of the result array is in point t's block iff each coordinate is in the block's range on its axis. -/
theorem mem_blk2 (t : Fin cfg2.N) (i : S32768x1024.Idx) :
    i ∈ ((cfg2.win 5).blk t).view.set ↔ ∀ a : Fin 2, win2_5.index t a * S512x1024.size a ≤ (i a).val ∧ (i a).val < win2_5.index t a * S512x1024.size a + S512x1024.size a := by
  show i ∈ ((View.whole main_v26).slice (win2_5.rect t)).set ↔ _
  rw [View.set_slice_whole, Rect.mem_set_unit]
  exact Iff.rfl

/-- Every index of the result array is in the block of an odd point: the one with i = r / 512. -/
theorem cover2 (i : S32768x1024.Idx) : ∃ t : Fin cfg2.N, (cfg2.win 5).flush t = true ∧ i ∈ ((cfg2.win 5).blk t).view.set := by
  have h0 : (i 0).val < 32768 := (i 0).isLt
  have h1 : (i 1).val < 1024 := (i 1).isLt
  have hN : cfg2.N = 128 := N_2
  let t : Fin cfg2.N := ⟨(i 0).val / 512 * 2 + 1, by rw [hN]; omega⟩
  have ht : t.val = (i 0).val / 512 * 2 + 1 := rfl
  have e := idx2 t
  refine ⟨t, (flush2_5 t).mpr (by rw [ht]; omega), ?_⟩
  rw [mem_blk2]
  intro a
  match a with
  | ⟨0, _⟩ => show win2_5.index t 0 * 512 ≤ (i 0).val ∧ (i 0).val < win2_5.index t 0 * 512 + 512; rw [e.2.2.2.2.2.2.2.2.2.2.1, ht]; omega
  | ⟨1, _⟩ => show win2_5.index t 1 * 1024 ≤ (i 1).val ∧ (i 1).val < win2_5.index t 1 * 1024 + 1024; rw [e.2.2.2.2.2.2.2.2.2.2.2]; omega

/-- The result array after the region: the layer norm of the product plus the residual, entry by entry. -/
theorem final2 (c : Dev nD) (r : Fin 32768) (h : Fin 1024) :
    (dat2 V c).arrAt 5 cfg2.N (ix2 r h)
      = (Cert.Spec.lnorm (fun h' : Fin 1024 => (∑ l : Fin 4096, arr2_X V c (ix2 r l) * arr2_W V c (ix2 h' l)) + arr2_R V c (ix2 r h'))
          (fun j => arr2_G V c (ix2 (0 : Fin 1) (j 0))) (fun j => arr2_H V c (ix2 (0 : Fin 1) (j 0))) h : EReal) := by
  rw [(dat2 V c).arrAt_eq_of_cover 5 (G2 V c) (flushed2_eq V c) cover2]
  rfl

end Value2

end Cert.KernelIdeal.Hand

end
-- ==== Proof.KI.Chain.lean ====
/-
  The kernel's result is the specification, at the ideal instance.  Region 1's result is `Spec.big2` (it reads region 0's
  first result and the second dense weight), region 2's is the layer norm of `Spec.zrow` (it reads region 1's result, the
  third dense weight, region 0's second result as residual, and the scale and shift), and the last reshape splits the row
  number back into (b, t).  Then the run, re-posted with the result buffer at `Spec.out` of the argument buffers.
-/
import proofs.«152862_j64407329571549_2_alg».proof.Proof.KI.Chain0
import proofs.«152862_j64407329571549_2_alg».proof.Proof.KI.Walk
import proofs.«152862_j64407329571549_2_alg».proof.Proof.KI.Value1
import proofs.«152862_j64407329571549_2_alg».proof.Proof.KI.Value2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section Chain

variable (m : (ℓ : Loc nD τ sig) → Buf (Elt Ideal) ℓ) (ρ : Dev nD → PrngReg)

/-- Region 1's result. -/
theorem big2_eq (c : Dev nD) (r : Fin 32768) (o : Fin 4096) :
    (dat1 (V2 m ρ) c).arrAt 2 cfg1.N (ix2 r o) = Cert.Spec.big2 (M0 m c) (Dl m c) (M4 m c) r o := by
  rw [final1]
  unfold Cert.Spec.big2
  refine congrArg (fun s => max s (0 : EReal)) (Finset.sum_congr rfl fun l _ => ?_)
  have e1 : arr1_A (V2 m ρ) c (ix2 r l) = Cert.Spec.big1 (M0 m c) (Dl m c) r l :=
    (congrFun (W2_v22_0 m ρ c) (ix2 r l)).trans (big1_eq m ρ c r l)
  have e2 : arr1_B (V2 m ρ) c (ix2 o l) = M4 m c (ix2 o l) := W2_v18 m ρ c (ix2 o l)
  rw [e1, e2]

/-- Region 2's result. -/
theorem out_eq (c : Dev nD) (r : Fin 32768) (h : Fin 1024) :
    (dat2 (V4 m ρ) c).arrAt 5 cfg2.N (ix2 r h)
      = Cert.Spec.lnorm (Cert.Spec.zrow (M0 m c) (Dl m c) (D1 m c) (D2 m c) (M4 m c) (M5 m c) r) (M6 m c) (M7 m c) h := by
  rw [final2]
  have hrow : (fun h' : Fin 1024 => (∑ l : Fin 4096, arr2_X (V4 m ρ) c (ix2 r l) * arr2_W (V4 m ρ) c (ix2 h' l)) + arr2_R (V4 m ρ) c (ix2 r h'))
      = Cert.Spec.zrow (M0 m c) (Dl m c) (D1 m c) (D2 m c) (M4 m c) (M5 m c) r := by
    funext h'
    unfold Cert.Spec.zrow Cert.Spec.big3
    have e3 : arr2_R (V4 m ρ) c (ix2 r h') = Cert.Spec.ssum (M0 m c) (D1 m c) (D2 m c) r h' :=
      (congrFun (W4_v22_1 m ρ c) (ix2 r h')).trans (ssum_eq m ρ c r h')
    rw [e3]
    refine congrArg (fun s => s + Cert.Spec.ssum (M0 m c) (D1 m c) (D2 m c) r h') (Finset.sum_congr rfl fun l _ => ?_)
    have e1 : arr2_X (V4 m ρ) c (ix2 r l) = Cert.Spec.big2 (M0 m c) (Dl m c) (M4 m c) r l :=
      (congrFun (W4_v23 m ρ c) (ix2 r l)).trans (big2_eq m ρ c r l)
    have e2 : arr2_W (V4 m ρ) c (ix2 h' l) = M5 m c (ix2 h' l) := W4_v19 m ρ c (ix2 h' l)
    rw [e1, e2]
  have hg : (fun j : Cert.Spec.SV.Idx => arr2_G (V4 m ρ) c (ix2 (0 : Fin 1) (j 0))) = M6 m c := by
    funext j
    have := W4_v24 m ρ c (j 0)
    rw [eq_ix1 j]; exact this
  have hb : (fun j : Cert.Spec.SV.Idx => arr2_H (V4 m ρ) c (ix2 (0 : Fin 1) (j 0))) = M7 m c := by
    funext j
    have := W4_v25 m ρ c (j 0)
    rw [eq_ix1 j]; exact this
  rw [hrow, hg, hb]

/-- THE RESULT BUFFER after the run is the specification of the argument buffers. -/
theorem kernel_out (c : Dev nD) :
    (W6 m ρ c main_v27 : S8x4096x1024.Idx → EReal)
      = Cert.Spec.out (M0 m c) (Dl m c) (D1 m c) (D2 m c) (M4 m c) (M5 m c) (M6 m c) (M7 m c) := by
  funext i
  obtain ⟨b, t, h, rfl⟩ : ∃ (b : Fin 8) (t : Fin 4096) (h : Fin 1024), i = ix3 b t h := ⟨i 0, i 1, i 2, eq_ix3 i⟩
  have hr : b.val * 4096 + t.val < 32768 := by have := b.isLt; have := t.isLt; omega
  rw [W6_v27 m ρ c b t h hr, out_eq]
  rfl

/-- THE RUN, with the result: every weakly fair execution terminates, nothing faulting, with the result buffer at the
    specification of the argument buffers and the arguments as launched. -/
theorem run_value : θ_run defs (onTc (τ := τ) (main (F := Ideal))) ⟨m, fun _ => 0, ρ⟩ (fun r => ∀ c : Dev nD,
      r.2.mem ((c.tc : Thread nD τ).loc main_v27) = Cert.Spec.out (M0 m c) (Dl m c) (D1 m c) (D2 m c) (M4 m c) (M5 m c) (M6 m c) (M7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v27 (by decide))).trans (kernel_out m ρ c),
     (h c _ (mem_uc main_arg0 (by decide))).trans (W6_launch m ρ c main_arg0 (by decide) (by decide) (by decide) (by decide) (by decide) (by decide)),
     (h c _ (mem_uc main_arg1 (by decide))).trans (W6_launch m ρ c main_arg1 (by decide) (by decide) (by decide) (by decide) (by decide) (by decide)),
     (h c _ (mem_uc main_arg2 (by decide))).trans (W6_launch m ρ c main_arg2 (by decide) (by decide) (by decide) (by decide) (by decide) (by decide)),
     (h c _ (mem_uc main_arg3 (by decide))).trans (W6_launch m ρ c main_arg3 (by decide) (by decide) (by decide) (by decide) (by decide) (by decide)),
     (h c _ (mem_uc main_arg4 (by decide))).trans (W6_launch m ρ c main_arg4 (by decide) (by decide) (by decide) (by decide) (by decide) (by decide)),
     (h c _ (mem_uc main_arg5 (by decide))).trans (W6_launch m ρ c main_arg5 (by decide) (by decide) (by decide) (by decide) (by decide) (by decide)),
     (h c _ (mem_uc main_arg6 (by decide))).trans (W6_launch m ρ c main_arg6 (by decide) (by decide) (by decide) (by decide) (by decide) (by decide)),
     (h c _ (mem_uc main_arg7 (by decide))).trans (W6_launch m ρ c main_arg7 (by decide) (by decide) (by decide) (by decide) (by decide) (by decide)),
     (h c _ (mem_uc main_arg8 (by decide))).trans (W6_launch m ρ c main_arg8 (by decide) (by decide) (by decide) (by decide) (by decide) (by decide)),
     (h c _ (mem_uc main_arg9 (by decide))).trans (W6_launch m ρ c main_arg9 (by decide) (by decide) (by decide) (by decide) (by decide) (by decide)),
     (h c _ (mem_uc main_arg10 (by decide))).trans (W6_launch m ρ c main_arg10 (by decide) (by decide) (by decide) (by decide) (by decide) (by decide))⟩)
    (run_all m ρ)

end Chain

end Cert.KernelIdeal.Hand

end
-- ==== Proof.RefAlgebra.lean ====
/-
  The one algebraic law that joins the two arrangements of the small branches, on the extended reals.

  The reference adds the two small products one after the other, (A + Σ_h x_h · a_h) + Σ_h x_h · b_h; the merged form is
  A + Σ_h x_h · (a_h + b_h).  Addition on the extended reals is associative and commutative without any side condition, so
  the two sums may be regrouped and merged into one sum of x_h · a_h + x_h · b_h freely.  What needs a side condition is the
  last step, x · (a + b) = x · a + x · b: it fails when an infinity meets a sum that cancels (x = ⊤, a = 1, b = -1 gives
  ⊤ · 0 = 0 on the left and ⊤ + ⊥ = ⊥ on the right).  With x, a and b all real it is the distributive law of ℝ.
  The term A is arbitrary: it may be infinite.
-/
import Idealize.ShloMosaic.PureOps.Ideal

open scoped BigOperators

namespace Cert.RefAlgebra

/-- An extended real that is neither infinity: the image of a real number. -/
def IsReal (x : EReal) : Prop := x ≠ ⊤ ∧ x ≠ ⊥

theorem IsReal.exists_coe {x : EReal} (h : IsReal x) : ∃ r : ℝ, x = (r : EReal) := by
  lift x to ℝ using ⟨h.1, h.2⟩
  exact ⟨x, rfl⟩

theorem isReal_coe (r : ℝ) : IsReal (r : EReal) := ⟨EReal.coe_ne_top r, EReal.coe_ne_bot r⟩

/-- A product of two reals is real. -/
theorem IsReal.mul {x y : EReal} (hx : IsReal x) (hy : IsReal y) : IsReal (x * y) := by
  obtain ⟨a, rfl⟩ := hx.exists_coe
  obtain ⟨b, rfl⟩ := hy.exists_coe
  rw [← EReal.coe_mul]
  exact isReal_coe _

/-- Distributivity, where all three terms are real. -/
theorem mul_add_of_isReal {x a b : EReal} (hx : IsReal x) (ha : IsReal a) (hb : IsReal b) :
    x * (a + b) = x * a + x * b := by
  obtain ⟨x, rfl⟩ := hx.exists_coe
  obtain ⟨a, rfl⟩ := ha.exists_coe
  obtain ⟨b, rfl⟩ := hb.exists_coe
  rw [← EReal.coe_add, ← EReal.coe_mul, ← EReal.coe_mul, ← EReal.coe_mul, ← EReal.coe_add, mul_add]

/-- Two products against one left factor, added one after the other to A, are one product against the sum of the right
    factors, added to A. -/
theorem add_sum_add_sum {ι : Type} [Fintype ι] (A : EReal) (x a b : ι → EReal)
    (hx : ∀ k, IsReal (x k)) (ha : ∀ k, IsReal (a k)) (hb : ∀ k, IsReal (b k)) :
    (A + ∑ k, x k * a k) + ∑ k, x k * b k = A + ∑ k, x k * (a k + b k) := by
  rw [add_assoc, ← Finset.sum_add_distrib]
  exact congrArg (A + ·) (Finset.sum_congr rfl fun k _ => (mul_add_of_isReal (hx k) (ha k) (hb k)).symm)

end Cert.RefAlgebra
-- ==== Proof.RefFinite.lean ====
/-
  From the precondition to "every entry is a real number".

  The precondition is the conjunction, over the eleven float arguments, of all(|x| < +inf).  Each conjunct is a reduction by
  "and" of the array of comparison bits into a single bit; that bit is 1 only if every comparison bit is 1, and the
  comparison |x| < +inf on the extended reals holds exactly when x is neither infinity (|⊤| = |⊥| = ⊤).

  A block-scaled weight entry is (weight entry) · (scale entry at the entry's block): a product of two reals, hence real.
  The scale array's expansion to the weight's shape is a chain of four re-indexings, each of which reads the scale array at
  some index, so every entry of the expansion is an entry of the scale array.
-/
import proofs.«152862_j64407329571549_2_alg».proof.Pre_finite_inputs
import proofs.«152862_j64407329571549_2_alg».proof.Proof.Gen.ReferenceIdeal.Read
import proofs.«152862_j64407329571549_2_alg».proof.Proof.RefAlgebra
import Idealize.ShloMosaic.Lib.ReduceAll
import Idealize.ShloMosaic.Lib.ValueIdx
import Idealize.ShloMosaic.PureOps.Ideal.Laws

noncomputable section

namespace Cert.RefFinite

open Idealize.ShloMosaic Idealize.ShloMosaic.ValueIdx Cert.RefAlgebra

/-- The rank-0 shape has one index. -/
instance subsingleton_scalar_idx : Subsingleton (⟨0, ![]⟩ : Shape).Idx := ⟨fun a b => funext fun d => d.elim0⟩

/-- The f32 word 0x7F800000 denotes +inf. -/
theorem ofBits_inf : Ideal.ofBits .f32 0x7F800000#32 = (⊤ : EReal) := by
  simp [Ideal.ofBits, Ideal.ieee]

/-- |x| < +inf says x is a real number. -/
theorem isReal_of_abs_lt_inf (x : EReal)
    (h : Ideal.cmp .olt (max x (-x)) (Ideal.ofBits .f32 0x7F800000#32) = 1#1) : IsReal x := by
  rw [ofBits_inf] at h
  have hlt : max x (-x) < ⊤ := by
    by_contra hn
    simp [Ideal.cmp, hn] at h
  induction x using EReal.rec with
  | bot => simp at hlt
  | coe r => exact isReal_coe r
  | top => simp at hlt

/-- One conjunct of the precondition, all(|x| < +inf) = 1, gives every entry of x real. -/
theorem isReal_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel) (j : (⟨0, ![]⟩ : Shape).Idx)
    (h : Host.reduce IntOp.andi
        (cmpf .olt (Host.absf x) (broadcastInDim s ![] hb (constant (F := Ideal) (⟨0, ![]⟩ : Shape) .f32 0x7F800000#32)))
        (constantI (⟨0, ![]⟩ : Shape) 1 1#1) hr hu j = 1#1) (i : s.Idx) : IsReal (x i) :=
  isReal_of_abs_lt_inf (x i) (Host.reduce_andi_all _ _ hr hu j h i)

open Cert.ReferenceIdeal in
/-- The precondition gives every entry of the activations, of the two small weights and of their two scale arrays real. -/
theorem inputs_isReal [Cert.Pre_finite_inputs.Facts]
    (x0 : (⟨S8x4096x1024, .f32⟩ : BufTy).Contents (Elt Ideal)) (x1 : (⟨S4096x1024, .f32⟩ : BufTy).Contents (Elt Ideal))
    (x2 x3 : (⟨S1024x1024, .f32⟩ : BufTy).Contents (Elt Ideal)) (x4 : (⟨S4096x4096, .f32⟩ : BufTy).Contents (Elt Ideal))
    (x5 : (⟨S1024x4096, .f32⟩ : BufTy).Contents (Elt Ideal)) (x6 x7 : (⟨S1024, .f32⟩ : BufTy).Contents (Elt Ideal))
    (x8 : (⟨S32x8, .f32⟩ : BufTy).Contents (Elt Ideal)) (x9 x10 : (⟨S8x8, .f32⟩ : BufTy).Contents (Elt Ideal))
    (hpre : Cert.Pre_finite_inputs.fn (F := Ideal) x0 x1 x2 x3 x4 x5 x6 x7 x8 x9 x10 = fun _ => 1#1) :
    (∀ i, IsReal (x0 i)) ∧ (∀ i, IsReal (x2 i)) ∧ (∀ i, IsReal (x3 i)) ∧ (∀ i, IsReal (x9 i)) ∧ (∀ i, IsReal (x10 i)) := by
  have h := congrFun hpre ix0
  dsimp only [Cert.Pre_finite_inputs.fn, Cert.Pre_finite_inputs.fn_part1, Cert.Pre_finite_inputs.fn_part2,
    Cert.Pre_finite_inputs.fn_part3, andi] at h
  simp only [IntOp.andi_eq_one] at h
  obtain ⟨⟨⟨⟨⟨⟨⟨⟨⟨⟨h0, -⟩, h2⟩, h3⟩, -⟩, -⟩, -⟩, -⟩, -⟩, h9⟩, h10⟩ := h
  exact ⟨isReal_of_all x0 _ _ _ _ h0, isReal_of_all x2 _ _ _ _ h2, isReal_of_all x3 _ _ _ _ h3,
    isReal_of_all x9 _ _ _ _ h9, isReal_of_all x10 _ _ _ _ h10⟩

open Cert.ReferenceIdeal Cert.ReferenceIdeal.Read in
/-- Every entry of the first small weight's expanded scale array is an entry of the scale array. -/
theorem scale1_isReal (x9 : (⟨S8x8, .f32⟩ : BufTy).Contents (Elt Ideal)) (h9 : ∀ j, IsReal (x9 j)) (i : S1024x1024.Idx) :
    IsReal (val_main_v13 (F := Ideal) x9 i) := by
  rw [val_main_v13_apply, val_main_v12_apply, val_main_v11_apply, val_main_v10_apply]
  exact h9 _

open Cert.ReferenceIdeal Cert.ReferenceIdeal.Read in
/-- The same for the second small weight. -/
theorem scale2_isReal (x10 : (⟨S8x8, .f32⟩ : BufTy).Contents (Elt Ideal)) (h10 : ∀ j, IsReal (x10 j)) (i : S1024x1024.Idx) :
    IsReal (val_main_v19 (F := Ideal) x10 i) := by
  rw [val_main_v19_apply, val_main_v18_apply, val_main_v17_apply, val_main_v16_apply]
  exact h10 _

open Cert.ReferenceIdeal Cert.ReferenceIdeal.Read in
/-- Every entry of the first block-scaled small weight is real. -/
theorem d1_isReal (x2 : (⟨S1024x1024, .f32⟩ : BufTy).Contents (Elt Ideal)) (x9 : (⟨S8x8, .f32⟩ : BufTy).Contents (Elt Ideal))
    (h2 : ∀ j, IsReal (x2 j)) (h9 : ∀ j, IsReal (x9 j)) (i : S1024x1024.Idx) :
    IsReal (val_main_v14 (F := Ideal) x2 x9 i) := by
  rw [val_main_v14_apply, Ideal.mulf_def]
  exact (h2 i).mul (scale1_isReal x9 h9 i)

open Cert.ReferenceIdeal Cert.ReferenceIdeal.Read in
/-- Every entry of the second block-scaled small weight is real. -/
theorem d2_isReal (x3 : (⟨S1024x1024, .f32⟩ : BufTy).Contents (Elt Ideal)) (x10 : (⟨S8x8, .f32⟩ : BufTy).Contents (Elt Ideal))
    (h3 : ∀ j, IsReal (x3 j)) (h10 : ∀ j, IsReal (x10 j)) (i : S1024x1024.Idx) :
    IsReal (val_main_v20 (F := Ideal) x3 x10 i) := by
  rw [val_main_v20_apply, Ideal.mulf_def]
  exact (h3 i).mul (scale2_isReal x10 h10 i)

end Cert.RefFinite

end
-- ==== Proof.RefRead.lean ====
/-
  The reference's layer-norm input, read one entry at a time.

  The reference keeps the activations as a rank-3 array [8, 4096, 1024]; the specification numbers its 32768 rows
  r = b · 4096 + t.  For that r one has r / 4096 = b and r % 4096 = t, so row r of the specification is the pair (b, t) of
  the reference.  Every product of the reference contracts the last axis of its left operand against the last axis of its
  right operand, and keeps (b, t) untouched: entry (b, t, o) is Σ_k left[b, t, k] · right[o, k].  A relu is the maximum
  against the zero word, which denotes 0.  Reading the three large products and the two small ones this way gives, at
  (b, t, h),

    (big3[r, h] + Σ_k x[r, k] · D1[h, k]) + Σ_k x[r, k] · D2[h, k].
-/
import proofs.«152862_j64407329571549_2_alg».proof.Proof.Gen.ReferenceIdeal.Read
import proofs.«152862_j64407329571549_2_alg».proof.Proof.Spec
import Idealize.ShloMosaic.Lib.ValueIdx
import Idealize.ShloMosaic.PureOps.Ideal.Laws

noncomputable section

open scoped BigOperators

namespace Cert.RefRead

open Idealize.ShloMosaic Idealize.ShloMosaic.ValueIdx Cert.ReferenceIdeal Cert.ReferenceIdeal.Read

/-- The row number of the pair (b, t). -/
def row (b : Fin 8) (t : Fin 4096) : Fin 32768 := ⟨b.val * 4096 + t.val, by have := b.isLt; have := t.isLt; omega⟩

theorem rowB_row (b : Fin 8) (t : Fin 4096) : Cert.Spec.rowB (row b t) = b :=
  Fin.ext (by show (b.val * 4096 + t.val) / 4096 = b.val; have := t.isLt; omega)

theorem rowT_row (b : Fin 8) (t : Fin 4096) : Cert.Spec.rowT (row b t) = t :=
  Fin.ext (by show (b.val * 4096 + t.val) % 4096 = t.val; have := t.isLt; omega)

/-- Row b · 4096 + t of the activations is the reference's (b, t, ·). -/
theorem xrow_row (x : Cert.Spec.SX.Idx → EReal) (b : Fin 8) (t : Fin 4096) (k : Fin 1024) :
    Cert.Spec.xrow x (row b t) k = x (ix3 b t k) := by
  unfold Cert.Spec.xrow
  rw [rowB_row, rowT_row]

/-! The index functions of the five products, at (b, t, ·). -/

theorem lidx5 (b : Fin 8) (t : Fin 4096) (o : Fin 4096) (k : Fin 1024) : lidx_main_v5 (ix3 b t o) k = ix3 b t k :=
  funext fun a => by match a with | ⟨0, _⟩ => rfl | ⟨1, _⟩ => rfl | ⟨2, _⟩ => rfl
theorem ridx5 (b : Fin 8) (t : Fin 4096) (o : Fin 4096) (k : Fin 1024) : ridx_main_v5 (ix3 b t o) k = ix2 o k :=
  funext fun a => by match a with | ⟨0, _⟩ => rfl | ⟨1, _⟩ => rfl
theorem lidx7 (b : Fin 8) (t : Fin 4096) (o : Fin 4096) (k : Fin 4096) : lidx_main_v7 (ix3 b t o) k = ix3 b t k :=
  funext fun a => by match a with | ⟨0, _⟩ => rfl | ⟨1, _⟩ => rfl | ⟨2, _⟩ => rfl
theorem ridx7 (b : Fin 8) (t : Fin 4096) (o : Fin 4096) (k : Fin 4096) : ridx_main_v7 (ix3 b t o) k = ix2 o k :=
  funext fun a => by match a with | ⟨0, _⟩ => rfl | ⟨1, _⟩ => rfl
theorem lidx9 (b : Fin 8) (t : Fin 4096) (h : Fin 1024) (k : Fin 4096) : lidx_main_v9 (ix3 b t h) k = ix3 b t k :=
  funext fun a => by match a with | ⟨0, _⟩ => rfl | ⟨1, _⟩ => rfl | ⟨2, _⟩ => rfl
theorem ridx9 (b : Fin 8) (t : Fin 4096) (h : Fin 1024) (k : Fin 4096) : ridx_main_v9 (ix3 b t h) k = ix2 h k :=
  funext fun a => by match a with | ⟨0, _⟩ => rfl | ⟨1, _⟩ => rfl
theorem lidx15 (b : Fin 8) (t : Fin 4096) (h : Fin 1024) (k : Fin 1024) : lidx_main_v15 (ix3 b t h) k = ix3 b t k :=
  funext fun a => by match a with | ⟨0, _⟩ => rfl | ⟨1, _⟩ => rfl | ⟨2, _⟩ => rfl
theorem ridx15 (b : Fin 8) (t : Fin 4096) (h : Fin 1024) (k : Fin 1024) : ridx_main_v15 (ix3 b t h) k = ix2 h k :=
  funext fun a => by match a with | ⟨0, _⟩ => rfl | ⟨1, _⟩ => rfl
theorem lidx21 (b : Fin 8) (t : Fin 4096) (h : Fin 1024) (k : Fin 1024) : lidx_main_v21 (ix3 b t h) k = ix3 b t k :=
  funext fun a => by match a with | ⟨0, _⟩ => rfl | ⟨1, _⟩ => rfl | ⟨2, _⟩ => rfl
theorem ridx21 (b : Fin 8) (t : Fin 4096) (h : Fin 1024) (k : Fin 1024) : ridx_main_v21 (ix3 b t h) k = ix2 h k :=
  funext fun a => by match a with | ⟨0, _⟩ => rfl | ⟨1, _⟩ => rfl

section
variable (x0 : (⟨S8x4096x1024, .f32⟩ : BufTy).Contents (Elt Ideal)) (x1 : (⟨S4096x1024, .f32⟩ : BufTy).Contents (Elt Ideal))
  (x2 x3 : (⟨S1024x1024, .f32⟩ : BufTy).Contents (Elt Ideal)) (x4 : (⟨S4096x4096, .f32⟩ : BufTy).Contents (Elt Ideal))
  (x5 : (⟨S1024x4096, .f32⟩ : BufTy).Contents (Elt Ideal)) (x8 : (⟨S32x8, .f32⟩ : BufTy).Contents (Elt Ideal))
  (x9 x10 : (⟨S8x8, .f32⟩ : BufTy).Contents (Elt Ideal)) (b : Fin 8) (t : Fin 4096)

/-- The first large product and its relu. -/
theorem v6_eq (o : Fin 4096) :
    val_main_v6 (F := Ideal) x0 x1 x8 (ix3 b t o) = Cert.Spec.big1 x0 (val_main_v4 (F := Ideal) x1 x8) (row b t) o := by
  rw [val_main_v6_apply, val_main_call0_v0_apply, val_main_call0_cst_apply, val_main_v5_apply, Ideal.maximumf_def,
    Ideal.ofBits_def, Ideal.ofBits_zero_f32]
  unfold Cert.Spec.big1
  refine congrArg (max · 0) (Finset.sum_congr rfl fun k _ => ?_)
  rw [lidx5, ridx5, xrow_row]

/-- The second large product and its relu. -/
theorem v8_eq (o : Fin 4096) :
    val_main_v8 (F := Ideal) x0 x1 x4 x8 (ix3 b t o)
      = Cert.Spec.big2 x0 (val_main_v4 (F := Ideal) x1 x8) x4 (row b t) o := by
  rw [val_main_v8_apply, val_main_call1_v0_apply, val_main_call1_cst_apply, val_main_v7_apply, Ideal.maximumf_def,
    Ideal.ofBits_def, Ideal.ofBits_zero_f32]
  unfold Cert.Spec.big2
  refine congrArg (max · 0) (Finset.sum_congr rfl fun l _ => ?_)
  rw [lidx7, ridx7, v6_eq]

/-- The third large product. -/
theorem v9_eq (h : Fin 1024) :
    val_main_v9 (F := Ideal) x0 x1 x4 x5 x8 (ix3 b t h)
      = Cert.Spec.big3 x0 (val_main_v4 (F := Ideal) x1 x8) x4 x5 (row b t) h := by
  rw [val_main_v9_apply]
  unfold Cert.Spec.big3
  refine Finset.sum_congr rfl fun l _ => ?_
  rw [lidx9, ridx9, v8_eq]

/-- The first small product. -/
theorem v15_eq (h : Fin 1024) :
    val_main_v15 (F := Ideal) x0 x2 x9 (ix3 b t h)
      = ∑ k : Fin 1024, Cert.Spec.xrow x0 (row b t) k * val_main_v14 (F := Ideal) x2 x9 (ix2 h k) := by
  rw [val_main_v15_apply]
  refine Finset.sum_congr rfl fun k _ => ?_
  rw [lidx15, ridx15, xrow_row]

/-- The second small product. -/
theorem v21_eq (h : Fin 1024) :
    val_main_v21 (F := Ideal) x0 x3 x10 (ix3 b t h)
      = ∑ k : Fin 1024, Cert.Spec.xrow x0 (row b t) k * val_main_v20 (F := Ideal) x3 x10 (ix2 h k) := by
  rw [val_main_v21_apply]
  refine Finset.sum_congr rfl fun k _ => ?_
  rw [lidx21, ridx21, xrow_row]

/-- The layer norm's input as the reference forms it: the large branch, plus the first small product, plus the second. -/
theorem v23_eq (h : Fin 1024) :
    val_main_v23 (F := Ideal) x0 x1 x2 x3 x4 x5 x8 x9 x10 (ix3 b t h)
      = (Cert.Spec.big3 x0 (val_main_v4 (F := Ideal) x1 x8) x4 x5 (row b t) h
          + ∑ k : Fin 1024, Cert.Spec.xrow x0 (row b t) k * val_main_v14 (F := Ideal) x2 x9 (ix2 h k))
        + ∑ k : Fin 1024, Cert.Spec.xrow x0 (row b t) k * val_main_v20 (F := Ideal) x3 x10 (ix2 h k) := by
  rw [val_main_v23_apply, val_main_v22_apply, Ideal.addf_def, Ideal.addf_def, v9_eq, v15_eq, v21_eq]

end

end Cert.RefRead

end
-- ==== Proof.RefNorm.lean ====
/-
  The reference's layer norm, read one entry at a time.

  Write V for row (b, t) of the layer norm's input, V k = input[b, t, k].  The reference forms the mean as a sum over the
  last axis from the zero word (0 + Σ_k V k = Σ_k V k) divided by the word of 1024.0, keeps it as a column [8, 4096, 1] and
  broadcasts it back along the last axis; the variance is the same mean of the squares (V k − μ) · (V k − μ); the result is
  ((V h − μ) · rsqrt(σ² + ε)) · γ[h] + β[h], with γ and β broadcast along the first two axes.  Every re-indexing on the way
  keeps (b, t) and either drops, restores or keeps the last coordinate, so the whole tail is the row function
  Spec.lnorm V γ β.  The words of 1024.0 and of ε are carried as the extended reals they denote and never evaluated.
-/
import proofs.«152862_j64407329571549_2_alg».proof.Proof.Gen.ReferenceIdeal.Read
import proofs.«152862_j64407329571549_2_alg».proof.Proof.Spec
import Idealize.ShloMosaic.Lib.ValueIdx
import Idealize.ShloMosaic.PureOps.Ideal.Laws

noncomputable section

open scoped BigOperators

namespace Cert.RefNorm

open Idealize.ShloMosaic Idealize.ShloMosaic.ValueIdx Cert.ReferenceIdeal Cert.ReferenceIdeal.Read

/-- The entry of a keepdims column [8, 4096, 1] at (b, t). -/
abbrev col (b : Fin 8) (t : Fin 4096) : S8x4096x1.Idx := ix3 b t (⟨0, Nat.one_pos⟩ : Fin 1)

/-! The index functions of the tail, at (b, t, ·). -/

theorem idx24 (b : Fin 8) (t : Fin 4096) (k : Fin 1024) : idx_main_v24 (ix2 b t) k = ix3 b t k :=
  funext fun a => by match a with | ⟨0, _⟩ => rfl | ⟨1, _⟩ => rfl | ⟨2, _⟩ => rfl
theorem idx31 (b : Fin 8) (t : Fin 4096) (k : Fin 1024) : idx_main_v31 (ix2 b t) k = ix3 b t k :=
  funext fun a => by match a with | ⟨0, _⟩ => rfl | ⟨1, _⟩ => rfl | ⟨2, _⟩ => rfl
theorem idx25 (b : Fin 8) (t : Fin 4096) : idx_main_v25 (col b t) = ix2 b t :=
  funext fun a => by match a with | ⟨0, _⟩ => rfl | ⟨1, _⟩ => rfl
theorem idx32 (b : Fin 8) (t : Fin 4096) : idx_main_v32 (col b t) = ix2 b t :=
  funext fun a => by match a with | ⟨0, _⟩ => rfl | ⟨1, _⟩ => rfl
theorem idx28 (b : Fin 8) (t : Fin 4096) (k : Fin 1024) : idx_main_v28 (ix3 b t k) = col b t :=
  funext fun a => by match a with | ⟨0, _⟩ => rfl | ⟨1, _⟩ => rfl | ⟨2, _⟩ => rfl
theorem idx35 (b : Fin 8) (t : Fin 4096) (k : Fin 1024) : idx_main_v35 (ix3 b t k) = col b t :=
  funext fun a => by match a with | ⟨0, _⟩ => rfl | ⟨1, _⟩ => rfl | ⟨2, _⟩ => rfl
theorem idx40 (b : Fin 8) (t : Fin 4096) (k : Fin 1024) : idx_main_v40 (ix3 b t k) = col b t :=
  funext fun a => by match a with | ⟨0, _⟩ => rfl | ⟨1, _⟩ => rfl | ⟨2, _⟩ => rfl
theorem idx42_43 (b : Fin 8) (t : Fin 4096) (h : Fin 1024) : idx_main_v42 (idx_main_v43 (ix3 b t h)) = ix1 h :=
  funext fun a => by match a with | ⟨0, _⟩ => rfl
theorem idx45_46 (b : Fin 8) (t : Fin 4096) (h : Fin 1024) : idx_main_v45 (idx_main_v46 (ix3 b t h)) = ix1 h :=
  funext fun a => by match a with | ⟨0, _⟩ => rfl

section
variable (x0 : (⟨S8x4096x1024, .f32⟩ : BufTy).Contents (Elt Ideal)) (x1 : (⟨S4096x1024, .f32⟩ : BufTy).Contents (Elt Ideal))
  (x2 x3 : (⟨S1024x1024, .f32⟩ : BufTy).Contents (Elt Ideal)) (x4 : (⟨S4096x4096, .f32⟩ : BufTy).Contents (Elt Ideal))
  (x5 : (⟨S1024x4096, .f32⟩ : BufTy).Contents (Elt Ideal)) (x6 x7 : (⟨S1024, .f32⟩ : BufTy).Contents (Elt Ideal))
  (x8 : (⟨S32x8, .f32⟩ : BufTy).Contents (Elt Ideal)) (x9 x10 : (⟨S8x8, .f32⟩ : BufTy).Contents (Elt Ideal))
  (b : Fin 8) (t : Fin 4096)

/-- Row (b, t) of the layer norm's input, as the reference forms it. -/
def zref : Fin 1024 → EReal := fun k => val_main_v23 (F := Ideal) x0 x1 x2 x3 x4 x5 x8 x9 x10 (ix3 b t k)

/-- The row sum: the zero word contributes nothing. -/
theorem v24_eq :
    val_main_v24 (F := Ideal) x0 x1 x2 x3 x4 x5 x8 x9 x10 (ix2 b t) = ∑ k : Fin 1024, zref x0 x1 x2 x3 x4 x5 x8 x9 x10 b t k := by
  rw [val_main_v24_apply, val_main_cst_apply, Ideal.ofBits_def, Ideal.ofBits_zero_f32, zero_add]
  refine Finset.sum_congr rfl fun k _ => ?_
  rw [idx24]
  rfl

/-- The mean, as a keepdims column. -/
theorem v27_eq :
    val_main_v27 (F := Ideal) x0 x1 x2 x3 x4 x5 x8 x9 x10 (col b t) = Cert.Spec.mean (zref x0 x1 x2 x3 x4 x5 x8 x9 x10 b t) := by
  rw [val_main_v27_apply, val_main_v25_apply, val_main_v26_apply, val_main_cst_0_apply, Ideal.hostDivf_def, Ideal.ofBits_def,
    idx25, v24_eq]
  rfl

/-- The centred entry, as the variance uses it. -/
theorem v29_eq (k : Fin 1024) :
    val_main_v29 (F := Ideal) x0 x1 x2 x3 x4 x5 x8 x9 x10 (ix3 b t k)
      = zref x0 x1 x2 x3 x4 x5 x8 x9 x10 b t k - Cert.Spec.mean (zref x0 x1 x2 x3 x4 x5 x8 x9 x10 b t) := by
  rw [val_main_v29_apply, val_main_v28_apply, Ideal.subf_def, idx28, v27_eq]
  rfl

/-- The centred entry, as the result uses it. -/
theorem v36_eq (k : Fin 1024) :
    val_main_v36 (F := Ideal) x0 x1 x2 x3 x4 x5 x8 x9 x10 (ix3 b t k)
      = zref x0 x1 x2 x3 x4 x5 x8 x9 x10 b t k - Cert.Spec.mean (zref x0 x1 x2 x3 x4 x5 x8 x9 x10 b t) := by
  rw [val_main_v36_apply, val_main_v35_apply, Ideal.subf_def, idx35, v27_eq]
  rfl

/-- The row sum of the squares. -/
theorem v31_eq :
    val_main_v31 (F := Ideal) x0 x1 x2 x3 x4 x5 x8 x9 x10 (ix2 b t)
      = ∑ k : Fin 1024, (zref x0 x1 x2 x3 x4 x5 x8 x9 x10 b t k - Cert.Spec.mean (zref x0 x1 x2 x3 x4 x5 x8 x9 x10 b t))
          * (zref x0 x1 x2 x3 x4 x5 x8 x9 x10 b t k - Cert.Spec.mean (zref x0 x1 x2 x3 x4 x5 x8 x9 x10 b t)) := by
  rw [val_main_v31_apply, val_main_cst_1_apply, Ideal.ofBits_def, Ideal.ofBits_zero_f32, zero_add]
  refine Finset.sum_congr rfl fun k _ => ?_
  rw [idx31, val_main_v30_apply, Ideal.mulf_def, v29_eq]

/-- The variance, as a keepdims column. -/
theorem v34_eq :
    val_main_v34 (F := Ideal) x0 x1 x2 x3 x4 x5 x8 x9 x10 (col b t)
      = Cert.Spec.mean (fun k => (zref x0 x1 x2 x3 x4 x5 x8 x9 x10 b t k - Cert.Spec.mean (zref x0 x1 x2 x3 x4 x5 x8 x9 x10 b t))
          * (zref x0 x1 x2 x3 x4 x5 x8 x9 x10 b t k - Cert.Spec.mean (zref x0 x1 x2 x3 x4 x5 x8 x9 x10 b t))) := by
  rw [val_main_v34_apply, val_main_v32_apply, val_main_v33_apply, val_main_cst_2_apply, Ideal.hostDivf_def, Ideal.ofBits_def,
    idx32, v31_eq]
  rfl

/-- The reciprocal standard deviation, broadcast back along the last axis. -/
theorem v40_eq (h : Fin 1024) :
    val_main_v40 (F := Ideal) x0 x1 x2 x3 x4 x5 x8 x9 x10 (ix3 b t h)
      = Ideal.rsqrt (Cert.Spec.mean (fun k => (zref x0 x1 x2 x3 x4 x5 x8 x9 x10 b t k - Cert.Spec.mean (zref x0 x1 x2 x3 x4 x5 x8 x9 x10 b t))
          * (zref x0 x1 x2 x3 x4 x5 x8 x9 x10 b t k - Cert.Spec.mean (zref x0 x1 x2 x3 x4 x5 x8 x9 x10 b t))) + Cert.Spec.ceps) := by
  rw [val_main_v40_apply, val_main_v39_apply, val_main_v38_apply, val_main_v37_apply, val_main_cst_3_apply,
    Ideal.hostUnary_rsqrt_def, Ideal.addf_def, Ideal.ofBits_def, idx40, v34_eq]
  rfl

/-- The reference's result at (b, t, h) is the layer norm of row (b, t) of its input, at column h. -/
theorem v47_eq (h : Fin 1024) :
    val_main_v47 (F := Ideal) x0 x1 x2 x3 x4 x5 x6 x7 x8 x9 x10 (ix3 b t h)
      = Cert.Spec.lnorm (zref x0 x1 x2 x3 x4 x5 x8 x9 x10 b t) x6 x7 h := by
  rw [val_main_v47_apply, val_main_v44_apply, val_main_v41_apply, val_main_v46_apply, val_main_v45_apply, val_main_v43_apply,
    val_main_v42_apply, Ideal.addf_def, Ideal.mulf_def, Ideal.mulf_def, v36_eq, v40_eq, idx42_43, idx45_46]
  rfl

end

end Cert.RefNorm

end
-- ==== Proof.RefSide.lean ====
/-
  The reference program's result is the specification's.

  Three facts are put together.  (1) Entry (b, t, h) of the reference's result is the layer norm, at column h, of row (b, t)
  of the reference's layer-norm input.  (2) Entry (b, t, h) of that input is the large branch plus the first small product
  plus the second, each read against row r = b · 4096 + t of the activations.  (3) Under the precondition every activation
  and every entry of the two block-scaled small weights is a real number, so the two small products merge into one product
  against the sum of the two weights; the large branch may be any extended real.  Hence row (b, t) of the reference's input
  is row r of the specification's, and the two layer norms are the same function of it.
-/
import proofs.«152862_j64407329571549_2_alg».proof.Proof.Gen.ReferenceIdeal.Run
import proofs.«152862_j64407329571549_2_alg».proof.Proof.Gen.ReferenceIdeal.Read
import proofs.«152862_j64407329571549_2_alg».proof.Proof.Spec
import proofs.«152862_j64407329571549_2_alg».proof.Proof.RefAlgebra
import proofs.«152862_j64407329571549_2_alg».proof.Proof.RefFinite
import proofs.«152862_j64407329571549_2_alg».proof.Proof.RefRead
import proofs.«152862_j64407329571549_2_alg».proof.Proof.RefNorm

noncomputable section

open scoped BigOperators

namespace Cert.RefSide

open Idealize.ShloMosaic Idealize.ShloMosaic.ValueIdx Cert.ReferenceIdeal Cert.ReferenceIdeal.Read

/-- Row (b, t) of the reference's layer-norm input is row b · 4096 + t of the specification's. -/
theorem zref_eq [Cert.Pre_finite_inputs.Facts]
    (x0 : (⟨S8x4096x1024, .f32⟩ : BufTy).Contents (Elt Ideal)) (x1 : (⟨S4096x1024, .f32⟩ : BufTy).Contents (Elt Ideal))
    (x2 x3 : (⟨S1024x1024, .f32⟩ : BufTy).Contents (Elt Ideal)) (x4 : (⟨S4096x4096, .f32⟩ : BufTy).Contents (Elt Ideal))
    (x5 : (⟨S1024x4096, .f32⟩ : BufTy).Contents (Elt Ideal)) (x6 x7 : (⟨S1024, .f32⟩ : BufTy).Contents (Elt Ideal))
    (x8 : (⟨S32x8, .f32⟩ : BufTy).Contents (Elt Ideal)) (x9 x10 : (⟨S8x8, .f32⟩ : BufTy).Contents (Elt Ideal))
    (hpre : Cert.Pre_finite_inputs.fn (F := Ideal) x0 x1 x2 x3 x4 x5 x6 x7 x8 x9 x10 = fun _ => 1#1)
    (b : Fin 8) (t : Fin 4096) :
    Cert.RefNorm.zref x0 x1 x2 x3 x4 x5 x8 x9 x10 b t
      = Cert.Spec.zrow x0 (val_main_v4 (F := Ideal) x1 x8) (val_main_v14 (F := Ideal) x2 x9) (val_main_v20 (F := Ideal) x3 x10)
          x4 x5 (Cert.RefRead.row b t) := by
  obtain ⟨h0, h2, h3, h9, h10⟩ := Cert.RefFinite.inputs_isReal x0 x1 x2 x3 x4 x5 x6 x7 x8 x9 x10 hpre
  funext h
  dsimp only [Cert.RefNorm.zref, Cert.Spec.zrow, Cert.Spec.ssum]
  rw [Cert.RefRead.v23_eq]
  exact Cert.RefAlgebra.add_sum_add_sum _
    (fun k => Cert.Spec.xrow x0 (Cert.RefRead.row b t) k)
    (fun k => val_main_v14 (F := Ideal) x2 x9 (ix2 h k))
    (fun k => val_main_v20 (F := Ideal) x3 x10 (ix2 h k))
    (fun k => by rw [Cert.RefRead.xrow_row]; exact h0 _)
    (fun k => Cert.RefFinite.d1_isReal x2 x9 h2 h9 _)
    (fun k => Cert.RefFinite.d2_isReal x3 x10 h3 h10 _)

/-- Under the precondition the reference's result is the specification's, of the argument arrays with the three
    block-scaled weights formed as the reference forms them. -/
theorem ref_out [Cert.Pre_finite_inputs.Facts]
    (x0 : (⟨S8x4096x1024, .f32⟩ : BufTy).Contents (Elt Ideal)) (x1 : (⟨S4096x1024, .f32⟩ : BufTy).Contents (Elt Ideal))
    (x2 x3 : (⟨S1024x1024, .f32⟩ : BufTy).Contents (Elt Ideal)) (x4 : (⟨S4096x4096, .f32⟩ : BufTy).Contents (Elt Ideal))
    (x5 : (⟨S1024x4096, .f32⟩ : BufTy).Contents (Elt Ideal)) (x6 x7 : (⟨S1024, .f32⟩ : BufTy).Contents (Elt Ideal))
    (x8 : (⟨S32x8, .f32⟩ : BufTy).Contents (Elt Ideal)) (x9 x10 : (⟨S8x8, .f32⟩ : BufTy).Contents (Elt Ideal))
    (hpre : Cert.Pre_finite_inputs.fn (F := Ideal) x0 x1 x2 x3 x4 x5 x6 x7 x8 x9 x10 = fun _ => 1#1) :
    Cert.ReferenceIdeal.Read.val_main_v47 (F := Ideal) x0 x1 x2 x3 x4 x5 x6 x7 x8 x9 x10
      = Cert.Spec.out x0 (Cert.ReferenceIdeal.Read.val_main_v4 (F := Ideal) x1 x8)
          (Cert.ReferenceIdeal.Read.val_main_v14 (F := Ideal) x2 x9) (Cert.ReferenceIdeal.Read.val_main_v20 (F := Ideal) x3 x10)
          x4 x5 x6 x7 := by
  funext i
  obtain ⟨b, t, h, rfl⟩ : ∃ (b : Fin 8) (t : Fin 4096) (h : Fin 1024), i = ix3 b t h := ⟨i 0, i 1, i 2, eq_ix3 i⟩
  rw [Cert.RefNorm.v47_eq, zref_eq x0 x1 x2 x3 x4 x5 x6 x7 x8 x9 x10 hpre]
  rfl

end Cert.RefSide

end
-- ==== Proof.lean ====
/-
  The proof of `Cert.Claim`.

  The kernel computes, for activations x [8, 4096, 1024] (rows r = b · 4096 + t), block-scaled weights Dl, D1, D2 and dense
  weights Wc1, Wc2, in three blocked matrix-product kernels:
      big1 = max (x · Dlᵀ) 0,   ssum = x · (D1 + D2)ᵀ;      big2 = max (big1 · Wc1ᵀ) 0;
      out  = layer norm over each row of (big2 · Wc2ᵀ + ssum), scaled by γ and shifted by β.
  The reference computes (big2 · Wc2ᵀ + x · D1ᵀ) + x · D2ᵀ instead of big2 · Wc2ᵀ + x · (D1 + D2)ᵀ, and whole products where
  the kernel accumulates over blocks of the contraction.  On the extended reals a sum may be regrouped and split freely,
  and x · (a + b) = x · a + x · b holds where x, a and b are finite, which the precondition gives: so the two results are
  the same function `Cert.Spec.out` of the argument arrays.

  frame_Kernel, frame_KernelIdeal: each of the three kernels' bodies is run once per control case at a symbolic grid point
    (the accumulator reset or carried; the result stored or left), the accumulator's contents are carried from point to
    point in the region's invariant, and @main is the six segments host, region, region, host, region, host; the final
    contents of every argument buffer walk back to the launch memory.  The same text at both float instances.
  frame_ReferenceIdeal: the reference is a straight line of host operations; its generated run, the result dropped.
  preserves_Kernel_KernelIdeal: the idealization rewrote nothing.
  algebraic_KernelIdeal_ReferenceIdeal: the kernel's run leaves `Cert.Spec.out` of its argument buffers in the result
    buffer (the three regions' write-backs read as whole arrays and chained through the buffer contents between
    segments); the reference's run leaves its composed term, which is `Cert.Spec.out` of its argument buffers by the
    finiteness the precondition states; and the two memories agree on the arguments.
-/
import proofs.«152862_j64407329571549_2_alg».proof.Defs
import proofs.«152862_j64407329571549_2_alg».proof.Proof.Gen.Kernel
import proofs.«152862_j64407329571549_2_alg».proof.Proof.Gen.KernelIdeal
import proofs.«152862_j64407329571549_2_alg».proof.Proof.Gen.ReferenceIdeal
import proofs.«152862_j64407329571549_2_alg».proof.Proof.Gen.Pre_finite_inputs
import proofs.«152862_j64407329571549_2_alg».proof.Proof.Gen.ReferenceIdeal.Run
import proofs.«152862_j64407329571549_2_alg».proof.Proof.Gen.ReferenceIdeal.Read
import proofs.«152862_j64407329571549_2_alg».proof.Proof.KB.Frame
import proofs.«152862_j64407329571549_2_alg».proof.Proof.KI.Chain
import proofs.«152862_j64407329571549_2_alg».proof.Proof.RefSide

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both runs end with the result buffer at `Cert.Spec.out` of the (agreeing) argument buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v47_eq, e0, e1, e2, e3, e4, e5, e6, e7, e8, e9, e10]
  exact Cert.RefSide.ref_out _ _ _ _ _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
